-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S128x512 : Shape := ⟨2, ![128, 512]⟩
abbrev S16384x512 : Shape := ⟨2, ![16384, 512]⟩
abbrev S512x2048 : Shape := ⟨2, ![512, 2048]⟩
abbrev S1x2048 : Shape := ⟨2, ![1, 2048]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x2048 : S_.BroadcastsInDim S512x2048 (![] : Fin 0 → Fin S512x2048.rank)
  reducesTo_S512x2048_S_d0_1 : S512x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg0 : IVec S64x128 32) (main_v33 : IVec S_ 1) : IVec S_ 1 :=
  let main_c_12 : IVec S_ 32 := constantI S_ 32 4294950912#32
  let main_v34 : IVec S64x128 32 := broadcastInDim S64x128 ![] bcast_S_S64x128 main_c_12
  let main_v35 : IVec S64x128 1 := cmpi .sge main_arg0 main_v34
  let main_c_13 : IVec S_ 32 := constantI S_ 32 16384#32
  let main_v36 : IVec S64x128 32 := broadcastInDim S64x128 ![] bcast_S_S64x128 main_c_13
  let main_v37 : IVec S64x128 1 := cmpi .slt main_arg0 main_v36
  let main_v38 : IVec S64x128 1 := andi main_v35 main_v37
  let main_c_14 : IVec S_ 1 := constantI S_ 1 1#1
  let main_v39 : IVec S_ 1 := (fun x v => Host.reduce IntOp.andi x v reducesTo_S64x128_S_d0_1 h_S_) main_v38 main_c_14
  let main_v40 : IVec S_ 1 := andi main_v33 main_v39
  main_v40

def fn_part1 {F : FTy → Type} [FloatOps F] (main_arg0 : IVec S64x128 32) (main_arg5 : FVec F S1x2048 .f32) (main_arg6 : FVec F S512x2048 .f32) (main_arg7 : FVec F S1x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S1x2048 .f32 := Host.absf main_arg5
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S512x2048 .f32 := Host.absf main_arg6
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S1x2048 .f32 := Host.absf main_arg7
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg0 main_v33

def fn {F : FTy → Type} [FloatOps F] (main_arg0 : IVec S64x128 32) (main_arg1 : FVec F S128x512 .f32) (main_arg2 : FVec F S128x512 .f32) (main_arg3 : FVec F S16384x512 .f32) (main_arg4 : FVec F S512x2048 .f32) (main_arg5 : FVec F S1x2048 .f32) (main_arg6 : FVec F S512x2048 .f32) (main_arg7 : FVec F S1x2048 .f32) : IVec S_ 1 :=
  let main_v0 : FVec F S128x512 .f32 := Host.absf main_arg1
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_v13 main_v16
-- ==== Kernel.lean ====
abbrev S64x128 : Shape := ⟨2, ![64, 128]⟩
abbrev S128x512 : Shape := ⟨2, ![128, 512]⟩
abbrev S16384x512 : Shape := ⟨2, ![16384, 512]⟩
abbrev S512x2048 : Shape := ⟨2, ![512, 2048]⟩
abbrev S1x2048 : Shape := ⟨2, ![1, 2048]⟩
abbrev S8192 : Shape := ⟨1, ![8192]⟩
abbrev S_ : Shape := ⟨0, ![]⟩
abbrev S8192x1 : Shape := ⟨2, ![8192, 1]⟩
abbrev S8192x512 : Shape := ⟨2, ![8192, 512]⟩
abbrev S64x128x512 : Shape := ⟨3, ![64, 128, 512]⟩
abbrev S8x128x512 : Shape := ⟨3, ![8, 128, 512]⟩
abbrev S8x128x2048 : Shape := ⟨3, ![8, 128, 2048]⟩
abbrev S1024x512 : Shape := ⟨2, ![1024, 512]⟩
abbrev S1024x2048 : Shape := ⟨2, ![1024, 2048]⟩
abbrev S1x128x2048 : Shape := ⟨3, ![1, 128, 2048]⟩
abbrev S128x2048 : Shape := ⟨2, ![128, 2048]⟩
abbrev S1x128x512 : Shape := ⟨3, ![1, 128, 512]⟩

abbrev nBuf : Space → Nat
  | .hbm => 24
  | .vmem => 14
  | .smem => 0
  | _ => 0

abbrev bufTy : (tb : Table) → Fin (tcTables nBuf tb) → BufTy
  | .hbm, ⟨0, _⟩ => ⟨S64x128, .i32⟩
  | .hbm, ⟨1, _⟩ => ⟨S128x512, .f32⟩
  | .hbm, ⟨2, _⟩ => ⟨S128x512, .f32⟩
  | .hbm, ⟨3, _⟩ => ⟨S16384x512, .f32⟩
  | .hbm, ⟨4, _⟩ => ⟨S512x2048, .f32⟩
  | .hbm, ⟨5, _⟩ => ⟨S1x2048, .f32⟩
  | .hbm, ⟨6, _⟩ => ⟨S512x2048, .f32⟩
  | .hbm, ⟨7, _⟩ => ⟨S1x2048, .f32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x512, .f32⟩
  | .hbm, ⟨18, _⟩ => ⟨S64x128x512, .f32⟩
  | .hbm, ⟨19, _⟩ => ⟨S1x2048, .f32⟩
  | .hbm, ⟨20, _⟩ => ⟨S512x2048, .bf16⟩
  | .hbm, ⟨21, _⟩ => ⟨S512x2048, .bf16⟩
  | .hbm, ⟨22, _⟩ => ⟨S64x128x512, .f32⟩
  | .hbm, ⟨23, _⟩ => ⟨S64x128x512, .f32⟩
  | .local _ .vmem, ⟨0, _⟩ => ⟨S8x128x512, .f32⟩
  | .local _ .vmem, ⟨1, _⟩ => ⟨S8x128x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S128x512, .f32⟩
  | .local _ .vmem, ⟨6, _⟩ => ⟨S128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S128x512, .f32⟩
  | .local _ .vmem, ⟨12, _⟩ => ⟨S128x512, .f32⟩
  | .local _ .vmem, ⟨13, _⟩ => ⟨S8x128x2048, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x128_S8192 : S64x128.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x512_S64x128x512 : S8192x512.ShapeCasts S64x128x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  shapeCasts_S8x128x512_S1024x512 : S8x128x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S1024x2048_S8x128x2048 : S1024x2048.ShapeCasts S8x128x2048
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S8x128x2048 : S8x128x2048.ShapeCasts S8x128x2048
  inb_S8x128x2048_S1x128x2048_0_0_0 : ∀ a, (![0, 0, 0] : Fin 3 → Nat) a + S1x128x2048.size a ≤ S8x128x2048.size a
  h_S1x128x2048 : 0 < S1x128x2048.numel
  shapeCasts_S1x128x2048_S128x2048 : S1x128x2048.ShapeCasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  inb_S8x128x512_S1x128x512_0_0_0 : ∀ a, (![0, 0, 0] : Fin 3 → Nat) a + S1x128x512.size a ≤ S8x128x512.size a
  h_S1x128x512 : 0 < S1x128x512.numel
  shapeCasts_S1x128x512_S128x512 : S1x128x512.ShapeCasts S128x512
  shapeCasts_S128x512_S1x128x512 : S128x512.ShapeCasts S1x128x512
  inb_S8x128x2048_S1x128x2048_1_0_0 : ∀ a, (![1, 0, 0] : Fin 3 → Nat) a + S1x128x2048.size a ≤ S8x128x2048.size a
  inb_S8x128x512_S1x128x512_1_0_0 : ∀ a, (![1, 0, 0] : Fin 3 → Nat) a + S1x128x512.size a ≤ S8x128x512.size a
  inb_S8x128x2048_S1x128x2048_2_0_0 : ∀ a, (![2, 0, 0] : Fin 3 → Nat) a + S1x128x2048.size a ≤ S8x128x2048.size a
  inb_S8x128x512_S1x128x512_2_0_0 : ∀ a, (![2, 0, 0] : Fin 3 → Nat) a + S1x128x512.size a ≤ S8x128x512.size a
  inb_S8x128x2048_S1x128x2048_3_0_0 : ∀ a, (![3, 0, 0] : Fin 3 → Nat) a + S1x128x2048.size a ≤ S8x128x2048.size a
  inb_S8x128x512_S1x128x512_3_0_0 : ∀ a, (![3, 0, 0] : Fin 3 → Nat) a + S1x128x512.size a ≤ S8x128x512.size a
  inb_S8x128x2048_S1x128x2048_4_0_0 : ∀ a, (![4, 0, 0] : Fin 3 → Nat) a + S1x128x2048.size a ≤ S8x128x2048.size a
  inb_S8x128x512_S1x128x512_4_0_0 : ∀ a, (![4, 0, 0] : Fin 3 → Nat) a + S1x128x512.size a ≤ S8x128x512.size a
  inb_S8x128x2048_S1x128x2048_5_0_0 : ∀ a, (![5, 0, 0] : Fin 3 → Nat) a + S1x128x2048.size a ≤ S8x128x2048.size a
  inb_S8x128x512_S1x128x512_5_0_0 : ∀ a, (![5, 0, 0] : Fin 3 → Nat) a + S1x128x512.size a ≤ S8x128x512.size a
  inb_S8x128x2048_S1x128x2048_6_0_0 : ∀ a, (![6, 0, 0] : Fin 3 → Nat) a + S1x128x2048.size a ≤ S8x128x2048.size a
  inb_S8x128x512_S1x128x512_6_0_0 : ∀ a, (![6, 0, 0] : Fin 3 → Nat) a + S1x128x512.size a ≤ S8x128x512.size a
  inb_S8x128x2048_S1x128x2048_7_0_0 : ∀ a, (![7, 0, 0] : Fin 3 → Nat) a + S1x128x2048.size a ≤ S8x128x2048.size a
  inb_S8x128x512_S1x128x512_7_0_0 : ∀ a, (![7, 0, 0] : Fin 3 → Nat) a + S1x128x512.size a ≤ S8x128x512.size a
  gather_S16384x512_S8192x1_S8192x512_1_0_n_n_0_1_1512_wf : GatherDims.WF S16384x512 S8192x1 S8192x512 [1] [0] [] [0] [] 1 ![1, 512]
  dot_S1024x512_S512x2048_S1024x2048_1_0_0_1_n_n_wf : DotDims.WF S1024x512 S512x2048 S1024x2048 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x128x512.size a
  hwx0_0 : ∀ i : grid0.Coords, EltTy.bits .f32 = 32 ∨ (Rect.block (s := S64x128x512) S8x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x512.size a ≤ S64x128x512.size a
  hwx0_6 : ∀ i : grid0.Coords, EltTy.bits .f32 = 32 ∨ (Rect.block (s := S64x128x512) S8x128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x512.size a ≤ S64x128x512.size a
  hwx0_7 : ∀ i : grid0.Coords, EltTy.bits .f32 = 32 ∨ (Rect.block (s := S64x128x512) S8x128x512.size (cc0_transform_7 i) (hinb0_7 i)).WholeWords (EltTy.packing .f32)

variable [Facts₀]

def gather_S16384x512_S8192x1_S8192x512_1_0_n_n_0_1_1512 : GatherDims S16384x512 S8192x1 S8192x512 where
  offsetDims := [1]
  collapsedSliceDims := [0]
  operandBatchingDims := []
  startIndicesBatchingDims := []
  startIndexMap := [0]
  indexVectorDim := 1
  sliceSizes := ![1, 512]
  wf := gather_S16384x512_S8192x1_S8192x512_1_0_n_n_0_1_1512_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v8) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S8x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S8x128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128 : Shape := ⟨2, ![64, 128]⟩
abbrev S128x512 : Shape := ⟨2, ![128, 512]⟩
abbrev S16384x512 : Shape := ⟨2, ![16384, 512]⟩
abbrev S512x2048 : Shape := ⟨2, ![512, 2048]⟩
abbrev S1x2048 : Shape := ⟨2, ![1, 2048]⟩
abbrev S16384x2048 : Shape := ⟨2, ![16384, 2048]⟩
abbrev S_ : Shape := ⟨0, ![]⟩
abbrev S64x128x1 : Shape := ⟨3, ![64, 128, 1]⟩
abbrev S1 : Shape := ⟨1, ![1]⟩
abbrev S1x1x1 : Shape := ⟨3, ![1, 1, 1]⟩
abbrev S64x128x2048 : Shape := ⟨3, ![64, 128, 2048]⟩
abbrev S64x128x1024 : Shape := ⟨3, ![64, 128, 1024]⟩
abbrev S1x128x2048 : Shape := ⟨3, ![1, 128, 2048]⟩
abbrev S1x128x1024 : Shape := ⟨3, ![1, 128, 1024]⟩
abbrev S128x2048 : Shape := ⟨2, ![128, 2048]⟩
abbrev S128x1024 : Shape := ⟨2, ![128, 1024]⟩
abbrev S64x128x512 : Shape := ⟨3, ![64, 128, 512]⟩

abbrev nBuf : Space → Nat
  | .hbm => 39
  | .vmem => 9
  | .smem => 0
  | _ => 0

abbrev bufTy : (tb : Table) → Fin (tcTables nBuf tb) → BufTy
  | .hbm, ⟨0, _⟩ => ⟨S64x128, .i32⟩
  | .hbm, ⟨1, _⟩ => ⟨S128x512, .f32⟩
  | .hbm, ⟨2, _⟩ => ⟨S128x512, .f32⟩
  | .hbm, ⟨3, _⟩ => ⟨S16384x512, .f32⟩
  | .hbm, ⟨4, _⟩ => ⟨S512x2048, .f32⟩
  | .hbm, ⟨5, _⟩ => ⟨S1x2048, .f32⟩
  | .hbm, ⟨6, _⟩ => ⟨S512x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .i32⟩
  | .hbm, ⟨14, _⟩ => ⟨S64x128, .i32⟩
  | .hbm, ⟨15, _⟩ => ⟨S64x128, .i1⟩
  | .hbm, ⟨16, _⟩ => ⟨S_, .i32⟩
  | .hbm, ⟨17, _⟩ => ⟨S64x128, .i32⟩
  | .hbm, ⟨18, _⟩ => ⟨S64x128, .i32⟩
  | .hbm, ⟨19, _⟩ => ⟨S64x128, .i32⟩
  | .hbm, ⟨20, _⟩ => ⟨S64x128x1, .i32⟩
  | .hbm, ⟨21, _⟩ => ⟨S1, .i32⟩
  | .hbm, ⟨22, _⟩ => ⟨S_, .i32⟩
  | .hbm, ⟨23, _⟩ => ⟨S64x128x1, .i32⟩
  | .hbm, ⟨24, _⟩ => ⟨S64x128x1, .i1⟩
  | .hbm, ⟨25, _⟩ => ⟨S1x1x1, .i32⟩
  | .hbm, ⟨26, _⟩ => ⟨S64x128x1, .i32⟩
  | .hbm, ⟨27, _⟩ => ⟨S64x128x1, .i1⟩
  | .hbm, ⟨28, _⟩ => ⟨S64x128x1, .i1⟩
  | .hbm, ⟨29, _⟩ => ⟨S_, .i1⟩
  | .hbm, ⟨30, _⟩ => ⟨S64x128, .i1⟩
  | .hbm, ⟨31, _⟩ => ⟨S64x128x2048, .f32⟩
  | .hbm, ⟨32, _⟩ => ⟨S64x128x2048, .i1⟩
  | .hbm, ⟨33, _⟩ => ⟨S_, .f32⟩
  | .hbm, ⟨34, _⟩ => ⟨S64x128x2048, .f32⟩
  | .hbm, ⟨35, _⟩ => ⟨S64x128x2048, .f32⟩
  | .hbm, ⟨36, _⟩ => ⟨S64x128x1024, .f32⟩
  | .hbm, ⟨37, _⟩ => ⟨S64x128x512, .f32⟩
  | .hbm, ⟨38, _⟩ => ⟨S64x128x512, .f32⟩
  | .local _ .vmem, ⟨0, _⟩ => ⟨S1x128x2048, .f32⟩
  | .local _ .vmem, ⟨1, _⟩ => ⟨S1x128x2048, .f32⟩
  | .local _ .vmem, ⟨2, _⟩ => ⟨S512x2048, .f32⟩
  | .local _ .vmem, ⟨3, _⟩ => ⟨S128x512, .f32⟩
  | .local _ .vmem, ⟨4, _⟩ => ⟨S128x512, .f32⟩
  | .local _ .vmem, ⟨5, _⟩ => ⟨S1x128x1024, .f32⟩
  | .local _ .vmem, ⟨6, _⟩ => ⟨S1x128x1024, .f32⟩
  | .local _ .vmem, ⟨7, _⟩ => ⟨S128x512, .f32⟩
  | .local _ .vmem, ⟨8, _⟩ => ⟨S128x512, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S1x2048_S16384x2048_0_1 : S1x2048.BroadcastsInDim S16384x2048 (![0, 1] : Fin 2 → Fin S16384x2048.rank)
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S1_S1x1x1_2 : S1.BroadcastsInDim S1x1x1 (![2] : Fin 1 → Fin S1x1x1.rank)
  bcast_S1x1x1_S64x128x1_0_1_2 : S1x1x1.BroadcastsInDim S64x128x1 (![0, 1, 2] : Fin 3 → Fin S64x128x1.rank)
  reducesTo_S64x128x1_S64x128_d2 : S64x128x1.ReducesTo [2] S64x128
  h_S_ : 0 < S_.numel
  bcast_S64x128_S64x128x2048_0_1 : S64x128.BroadcastsInDim S64x128x2048 (![0, 1] : Fin 2 → Fin S64x128x2048.rank)
  bcast_S_S64x128x2048 : S_.BroadcastsInDim S64x128x2048 (![] : Fin 0 → Fin S64x128x2048.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S512x2048_S512x2048_0_0 : ∀ a, (![0, 0] : Fin 2 → Nat) a + S512x2048.size a ≤ S512x2048.size a
  h_S512x2048 : 0 < S512x2048.numel
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  concatenates_S128x512_S128x512_S128x1024_d1 : Shape.Concatenates [S128x512, S128x512] S128x1024 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  slices_S64x128x1024_S64x128x512_0_0_0 : S64x128x1024.Slices ![0, 0, 0] S64x128x512
  slices_S64x128x1024_S64x128x512_0_0_512 : S64x128x1024.Slices ![0, 0, 512] S64x128x512
  dot_S16384x512_S512x2048_S16384x2048_1_0_0_1_n_n_wf : DotDims.WF S16384x512 S512x2048 S16384x2048 [1] [0] [0] [1] [] []
  gather_S16384x2048_S64x128x1_S64x128x2048_2_0_n_n_0_2_12048_wf : GatherDims.WF S16384x2048 S64x128x1 S64x128x2048 [2] [0] [] [0] [] 2 ![1, 2048]
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S64x128x1024.size a
  hwx0_4 : ∀ i : grid0.Coords, EltTy.bits .f32 = 32 ∨ (Rect.block (s := S64x128x1024) S1x128x1024.size (cc0_transform_4 i) (hinb0_4 i)).WholeWords (EltTy.packing .f32)

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def gather_S16384x2048_S64x128x1_S64x128x2048_2_0_n_n_0_2_12048 : GatherDims S16384x2048 S64x128x1 S64x128x2048 where
  offsetDims := [2]
  collapsedSliceDims := [0]
  operandBatchingDims := []
  startIndicesBatchingDims := []
  startIndexMap := [0]
  indexVectorDim := 2
  sliceSizes := ![1, 2048]
  wf := gather_S16384x2048_S64x128x1_S64x128x2048_2_0_n_n_0_2_12048_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v5) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x512.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The LSTM encoder, as mathematics on the extended reals, in plain coordinates.

  One time step takes the input pre-activation x (128 sequences × 2048 gate columns), the carried cell state c and
  hidden state h (128 × 512 each) and the recurrent weights W (512 × 2048):
      gates  = x + h · W                                   (a matrix product over the 512 hidden units)
      c'     = σ(gates[:, 512 + j]) · c + σ(gates[:, j]) · tanh(gates[:, 1024 + j])
      h'     = σ(gates[:, 1536 + j]) · tanh c'
  with σ the logistic function. The gate columns come in four groups of 512: input, forget, cell, output.
  The sequence of states starts at (c0, h0); the encoder's two results are the cell states and the hidden states after
  each of the 64 steps.

  The input pre-activation of step n, sequence b, is the table row the token names, times the input weights, plus the
  two biases:  x_n[b, q] = Σ_k table[row n b, k] · wi[k, q] + (bi[q] + bh[q]).  Adding the biases one after the
  other instead is the same number: addition of extended reals is associative.
-/
import Idealize.ShloMosaic.PureOps.Ideal

noncomputable section

namespace Cert.Lstm

open Idealize.ShloMosaic

/-- An a × b array of extended reals, by coordinates. -/
abbrev Mat (a b : Nat) := Fin a → Fin b → EReal

/-- Column `j` of gate group `g` (0 input, 1 forget, 2 cell, 3 output) among the 4 · 512 gate columns. -/
def col (g : Fin 4) (j : Fin 512) : Fin 2048 :=
  ⟨512 * g.val + j.val, by have := g.isLt; have := j.isLt; omega⟩

/-- The gate pre-activations of one step: the input part plus the hidden state times the recurrent weights. -/
def gates (W : Mat 512 2048) (x : Mat 128 2048) (h : Mat 128 512) : Mat 128 2048 :=
  fun b q => x b q + ∑ k : Fin 512, h b k * W k q

/-- The next cell state: forget gate times the old cell state, plus input gate times the candidate. -/
def cellNext (W : Mat 512 2048) (x : Mat 128 2048) (c h : Mat 128 512) : Mat 128 512 :=
  fun b j => Ideal.logistic (gates W x h b (col 1 j)) * c b j
    + Ideal.logistic (gates W x h b (col 0 j)) * Ideal.tanh (gates W x h b (col 2 j))

/-- The next hidden state: output gate times tanh of the next cell state. -/
def hidNext (W : Mat 512 2048) (x : Mat 128 2048) (c h : Mat 128 512) : Mat 128 512 :=
  fun b j => Ideal.logistic (gates W x h b (col 3 j)) * Ideal.tanh (cellNext W x c h b j)

/-- The pair (cell state, hidden state) after `n` steps, from (c0, h0), step `n` reading the input `X n`. -/
def state (W : Mat 512 2048) (X : ℕ → Mat 128 2048) (c0 h0 : Mat 128 512) : ℕ → Mat 128 512 × Mat 128 512
  | 0 => (c0, h0)
  | n + 1 => (cellNext W (X n) (state W X c0 h0 n).1 (state W X c0 h0 n).2,
              hidNext W (X n) (state W X c0 h0 n).1 (state W X c0 h0 n).2)

@[simp] theorem state_zero (W : Mat 512 2048) (X : ℕ → Mat 128 2048) (c0 h0 : Mat 128 512) :
    state W X c0 h0 0 = (c0, h0) := rfl

theorem state_succ (W : Mat 512 2048) (X : ℕ → Mat 128 2048) (c0 h0 : Mat 128 512) (n : ℕ) :
    state W X c0 h0 (n + 1) = (cellNext W (X n) (state W X c0 h0 n).1 (state W X c0 h0 n).2,
      hidNext W (X n) (state W X c0 h0 n).1 (state W X c0 h0 n).2) := rfl

/-- The states depend on the inputs only through the steps already taken. -/
theorem state_congr (W : Mat 512 2048) (X X' : ℕ → Mat 128 2048) (c0 h0 : Mat 128 512) (n : ℕ)
    (hX : ∀ k, k < n → X k = X' k) : state W X c0 h0 n = state W X' c0 h0 n := by
  induction n with
  | zero => rfl
  | succ n ih =>
    rw [state_succ, state_succ, ih (fun k hk => hX k (Nat.lt_succ_of_lt hk)), hX n (Nat.lt_succ_self n)]

/-- The cell states the encoder returns: after each of the 64 steps. -/
def cySeq (W : Mat 512 2048) (X : ℕ → Mat 128 2048) (c0 h0 : Mat 128 512) (n : Fin 64) : Mat 128 512 :=
  (state W X c0 h0 (n.val + 1)).1

/-- The hidden states the encoder returns: after each of the 64 steps. -/
def hySeq (W : Mat 512 2048) (X : ℕ → Mat 128 2048) (c0 h0 : Mat 128 512) (n : Fin 64) : Mat 128 512 :=
  (state W X c0 h0 (n.val + 1)).2

/-- The input pre-activation of step `n`: the embedding row of each sequence's token times the input weights, plus
    the sum of the two biases. -/
def xin (tab : Mat 16384 512) (wi : Mat 512 2048) (bi bh : Fin 2048 → EReal) (row : ℕ → Fin 128 → Fin 16384) :
    ℕ → Mat 128 2048 :=
  fun n b q => (∑ k : Fin 512, tab (row n b) k * wi k q) + (bi q + bh q)

/-- Adding the two biases one after the other gives the same pre-activation. -/
theorem xin_assoc (tab : Mat 16384 512) (wi : Mat 512 2048) (bi bh : Fin 2048 → EReal)
    (row : ℕ → Fin 128 → Fin 16384) (n : ℕ) (b : Fin 128) (q : Fin 2048) :
    ((∑ k : Fin 512, tab (row n b) k * wi k q) + bi q) + bh q = xin tab wi bi bh row n b q :=
  add_assoc _ _ _

end Cert.Lstm

end
-- ==== Proof.LibLogisticTanh.lean ====
/-
  Scalar facts on the extended reals behind the LSTM cell: the two float literals the programs spell (one half in the
  kernel, one in the reference), and the identity
      1/2 · tanh (z / 2) + 1/2 = 1 / (1 + e^(-z)),
  the logistic function written through tanh. It holds at EVERY extended real: on the reals it is the usual identity
  (with a = e^(z/2): (a - 1/a)/(a + 1/a) + 1 = 2a/(a + 1/a) = 2/(1 + 1/a²)), at +∞ both sides are 1 and at -∞ both are 0.
-/
import Idealize.ShloMosaic.PureOps.Ideal

noncomputable section

namespace Cert.LstmCell

open Idealize.ShloMosaic

/-- The word 0x3F000000 is the real 1/2. -/
theorem ofBits_half : Ideal.ofBits .f32 0x3F000000#32 = ((1 / 2 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- On the reals: 1/2 · tanh (r/2) + 1/2 = 1 / (1 + e^(-r)). -/
theorem real_logistic_eq_tanh (r : ℝ) :
    (1 / 2 : ℝ) * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  field_simp
  ring

/-- The same on the extended reals, the infinities included: tanh is ±1 there, and the logistic function 1 and 0. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic_eq_tanh]
  | top =>
    rw [EReal.coe_mul_top_of_pos (by norm_num), Ideal.tanh_top, Ideal.logistic_top, mul_one, ← EReal.coe_add]
    norm_num

/-- jax's expansion of the logistic function, one divided by one plus the exponential of the negation, is the
    logistic function. -/
theorem div_one_add_exp_neg (z : EReal) : Ideal.div 1 (1 + Ideal.exp (-z)) = Ideal.logistic z := rfl

end Cert.LstmCell

end
-- ==== Proof.KernelStep.lean ====
/-
  One time step of the kernel's recurrent cell, read entry by entry.

  Inside a chunk of eight time steps the kernel holds the carried cell state c and hidden state h (128 × 512 each), the
  recurrent weights W (512 × 2048, stored in a narrower float format, which changes nothing on the extended reals) and
  one slab x of the chunk's input pre-activations (1 × 128 × 2048). Its gate vector is x + h · W. The kernel spells the
  logistic function through tanh, σ(z) = 1/2 · tanh (z / 2) + 1/2, which is the same function at every extended real,
  the infinities included; so the next cell state and the next hidden state, read at an entry (b, j), are the
  specification's `cellNext` and `hidNext`.
-/
import proofs.«167809_g2000106098220206_pallasbulk_530_31_alg».proof.Proof.Spec
import proofs.«167809_g2000106098220206_pallasbulk_530_31_alg».proof.Proof.LibLogisticTanh
import proofs.«167809_g2000106098220206_pallasbulk_530_31_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx
open Cert.KernelIdeal Cert.KernelIdeal.Gen

variable {F : FTy → Type} [FloatOps F]

/-- The gate vector of one step: the slab of input pre-activations plus the hidden state times the recurrent weights. -/
def stepG (h : FVec F S128x512 .f32) (s : Vec F S1x128x2048 .f32) (w : Vec F S512x2048 .bf16) : FVec F S128x2048 .f32 :=
  k0_pay5 h s w

/-- The next cell state of one step, from the cell state, the hidden state, the slab and the weights. -/
def stepC (c : FVec F S128x512 .f32) (h : FVec F S128x512 .f32) (s : Vec F S1x128x2048 .f32) (w : Vec F S512x2048 .bf16) :
    FVec F S128x512 .f32 :=
  k0_pay7 c (k0_pay5 h s w) (k0_pay6 h s w) (FloatOps.ofBits .f32 0x3F000000#32)

/-- The next hidden state of one step. -/
def stepH (c : FVec F S128x512 .f32) (h : FVec F S128x512 .f32) (s : Vec F S1x128x2048 .f32) (w : Vec F S512x2048 .bf16) :
    FVec F S128x512 .f32 :=
  k0_pay8 c (k0_pay5 h s w) (k0_pay6 h s w) (FloatOps.ofBits .f32 0x3F000000#32)

/-- A 512 × 2048 vector as a matrix by coordinates. -/
abbrev matW (v : Vec Ideal S512x2048 .bf16) : Cert.Lstm.Mat 512 2048 := fun k q => v (ix2 k q)
/-- A 1 × 128 × 2048 slab as the 128 × 2048 matrix it holds. -/
abbrev matX (v : Vec Ideal S1x128x2048 .f32) : Cert.Lstm.Mat 128 2048 := fun b q => v (ix3 (0 : Fin 1) b q)
/-- A 128 × 512 vector as a matrix by coordinates. -/
abbrev matS (v : Vec Ideal S128x512 .f32) : Cert.Lstm.Mat 128 512 := fun b j => v (ix2 b j)

/-- The product h · W at (b, q): the sum over the 512 hidden units. -/
theorem hW_apply (h : FVec Ideal S128x512 .bf16) (w : FVec Ideal S512x2048 .bf16) (b : Fin 128) (q : Fin 2048) :
    FloatOps.matmul dot_S128x512_S512x2048_S128x2048_1_0_0_1_n_n none h w (constant (F := Ideal) S128x2048 .f32 0x00000000#32) (ix2 b q)
      = ∑ k : Fin 512, h (ix2 b k) * w (ix2 k q) := by
  rw [Ideal.matmul_constant_zero_apply,
    ← Equiv.sum_comp (contrEquiv1 dot_S128x512_S512x2048_S128x2048_1_0_0_1_n_n 512 rfl rfl).symm]
  refine Finset.sum_congr rfl fun c _ => ?_
  have c2 := contrEquiv1_symm_val dot_S128x512_S512x2048_S128x2048_1_0_0_1_n_n 512 rfl rfl c
  have l2 : dot_S128x512_S512x2048_S128x2048_1_0_0_1_n_n.lhsIdx (ix2 b q) ((contrEquiv1 _ 512 rfl rfl).symm c) = ix2 b c := by
    funext ax; apply Fin.ext
    match ax with
    | ⟨0, _⟩ => simp [DotDims.lhsIdx, dot_S128x512_S512x2048_S128x2048_1_0_0_1_n_n]; rfl
    | ⟨1, _⟩ => simp [DotDims.lhsIdx, dot_S128x512_S512x2048_S128x2048_1_0_0_1_n_n]; exact c2
  have r2 : dot_S128x512_S512x2048_S128x2048_1_0_0_1_n_n.rhsIdx (ix2 b q) ((contrEquiv1 _ 512 rfl rfl).symm c) = ix2 c q := by
    funext ax; apply Fin.ext
    match ax with
    | ⟨0, _⟩ => simp [DotDims.rhsIdx, dot_S128x512_S512x2048_S128x2048_1_0_0_1_n_n]; exact c2
    | ⟨1, _⟩ => simp [DotDims.rhsIdx, dot_S128x512_S512x2048_S128x2048_1_0_0_1_n_n]; rfl
  rw [l2, r2]

/-- The gate vector at (b, q) is the specification's gate pre-activation. -/
theorem stepG_apply (h : Vec Ideal S128x512 .f32) (s : Vec Ideal S1x128x2048 .f32) (w : Vec Ideal S512x2048 .bf16)
    (b : Fin 128) (q : Fin 2048) :
    stepG (F := Ideal) h s w (ix2 b q) = Cert.Lstm.gates (matW w) (matX s) (matS h) b q := by
  unfold stepG k0_pay5
  show shapeCast S128x2048 s shapeCasts_S1x128x2048_S128x2048 (ix2 b q)
      + FloatOps.matmul (φ₁ := .bf16) (φ₂ := .bf16) dot_S128x512_S512x2048_S128x2048_1_0_0_1_n_n none
          (truncf (F := Ideal) .bf16 h bitsLt_bf16_f32) (shapeCast S512x2048 w shapeCasts_S512x2048_S512x2048)
          (constant (F := Ideal) S128x2048 .f32 0x00000000#32) (ix2 b q) = _
  rw [hW_apply, shapeCast_self]
  exact congrArg (· + _) (shapeCast_1ab_ab_apply s shapeCasts_S1x128x2048_S128x2048 b q)

/-- Column group g of the gates, cut out as a 128 × 512 slice, reads the gate column `col g j`. -/
theorem gateSlice_apply (G : Vec Ideal S128x2048 .f32) (g : Fin 4) (o : Nat) (ho : o = 512 * g.val)
    (hs : S128x2048.Slices ![0, o] S128x512) (b : Fin 128) (j : Fin 512) :
    extractStridedSlice S128x512 ![0, o] G hs (ix2 b j) = G (ix2 b (Cert.Lstm.col g j)) :=
  slice2_axis1_apply o G hs b j (Cert.Lstm.col g j) (by subst ho; rfl)

/-- The kernel's logistic function, spelt through tanh with the float word for one half, is the logistic function. -/
theorem halfTanh (z : EReal) :
    Ideal.ofBits .f32 0x3F000000#32 * Ideal.tanh (Ideal.ofBits .f32 0x3F000000#32 * z) + Ideal.ofBits .f32 0x3F000000#32
      = Ideal.logistic z := by
  rw [Cert.LstmCell.ofBits_half]; exact Cert.LstmCell.logistic_eq_tanh z

/-- The next cell state at (b, j). -/
theorem stepC_apply (c h : Vec Ideal S128x512 .f32) (s : Vec Ideal S1x128x2048 .f32) (w : Vec Ideal S512x2048 .bf16)
    (b : Fin 128) (j : Fin 512) :
    stepC (F := Ideal) c h s w (ix2 b j) = Cert.Lstm.cellNext (matW w) (matX s) (matS c) (matS h) b j := by
  unfold stepC k0_pay7 k0_pay6
  show (Ideal.ofBits .f32 0x3F000000#32 * Ideal.tanh (Ideal.ofBits .f32 0x3F000000#32
          * extractStridedSlice S128x512 ![0, 512] (k0_pay5 (F := Ideal) h s w) slices_S128x2048_o0_512_S128x512 (ix2 b j))
        + Ideal.ofBits .f32 0x3F000000#32) * c (ix2 b j)
      + (Ideal.ofBits .f32 0x3F000000#32 * Ideal.tanh (Ideal.ofBits .f32 0x3F000000#32
          * extractStridedSlice S128x512 ![0, 0] (k0_pay5 (F := Ideal) h s w) slices_S128x2048_o0_0_S128x512 (ix2 b j))
        + Ideal.ofBits .f32 0x3F000000#32)
        * Ideal.tanh (extractStridedSlice S128x512 ![0, 1024] (k0_pay5 (F := Ideal) h s w) slices_S128x2048_o0_1024_S128x512 (ix2 b j)) = _
  rw [halfTanh, halfTanh, gateSlice_apply _ 1 512 rfl, gateSlice_apply _ 0 0 rfl, gateSlice_apply _ 2 1024 rfl]
  have e := stepG_apply h s w b
  unfold stepG at e
  rw [e, e, e]
  rfl

/-- The next hidden state at (b, j). -/
theorem stepH_apply (c h : Vec Ideal S128x512 .f32) (s : Vec Ideal S1x128x2048 .f32) (w : Vec Ideal S512x2048 .bf16)
    (b : Fin 128) (j : Fin 512) :
    stepH (F := Ideal) c h s w (ix2 b j) = Cert.Lstm.hidNext (matW w) (matX s) (matS c) (matS h) b j := by
  have hc := stepC_apply c h s w b j
  unfold stepC at hc
  unfold stepH k0_pay8
  show (Ideal.ofBits .f32 0x3F000000#32 * Ideal.tanh (Ideal.ofBits .f32 0x3F000000#32
          * extractStridedSlice S128x512 ![0, 1536] (k0_pay5 (F := Ideal) h s w) slices_S128x2048_o0_1536_S128x512 (ix2 b j))
        + Ideal.ofBits .f32 0x3F000000#32)
      * Ideal.tanh (k0_pay7 (F := Ideal) c (k0_pay5 (F := Ideal) h s w) (k0_pay6 (F := Ideal) h s w) (FloatOps.ofBits .f32 0x3F000000#32) (ix2 b j)) = _
  rw [halfTanh, gateSlice_apply _ 3 1536 rfl, hc]
  have e := stepG_apply h s w b
  unfold stepG at e
  rw [e]
  rfl

end Cert.KernelIdeal.Body

end
-- ==== Proof.KernelChain.lean ====
/-
  A chunk of eight time steps of the kernel as one chain of cell steps.

  Within a chunk the kernel first computes all eight slabs of input pre-activations X (8 × 128 × 2048), then runs the
  cell eight times, each step reading slab t of X and the states the step before left. The chain below is that
  recursion on vectors; read at an entry it is the specification's sequence of states, started from the chunk's
  initial cell and hidden state and fed the chunk's eight slabs.
-/
import proofs.«167809_g2000106098220206_pallasbulk_530_31_alg».proof.Proof.KernelStep

noncomputable section

namespace Cert.KernelIdeal.Body

open Idealize.ShloMosaic Idealize.ShloMosaic.ValueIdx
open Cert.KernelIdeal Cert.KernelIdeal.Gen

variable {F : FTy → Type} [FloatOps F]

/-- Slab `t` (taken modulo 8) of the chunk's input pre-activations. -/
def slabAt (X : FVec F S8x128x2048 .f32) (t : ℕ) : Vec F S1x128x2048 .f32 :=
  fun y => X (ix3 (⟨t % 8, Nat.mod_lt _ (by decide)⟩ : Fin 8) (y 1) (y 2))

/-- The cell state and hidden state after `t` steps of the chunk, from (cI, hI). -/
def chain (cI hI : FVec F S128x512 .f32) (X : FVec F S8x128x2048 .f32) (W : Vec F S512x2048 .bf16) :
    ℕ → FVec F S128x512 .f32 × FVec F S128x512 .f32
  | 0 => (cI, hI)
  | t + 1 => (stepC (chain cI hI X W t).1 (chain cI hI X W t).2 (slabAt X t) W,
              stepH (chain cI hI X W t).1 (chain cI hI X W t).2 (slabAt X t) W)

theorem chain_succ_fst (cI hI : FVec F S128x512 .f32) (X : FVec F S8x128x2048 .f32) (W : Vec F S512x2048 .bf16) (t : ℕ) :
    (chain cI hI X W (t + 1)).1 = stepC (chain cI hI X W t).1 (chain cI hI X W t).2 (slabAt X t) W := rfl

theorem chain_succ_snd (cI hI : FVec F S128x512 .f32) (X : FVec F S8x128x2048 .f32) (W : Vec F S512x2048 .bf16) (t : ℕ) :
    (chain cI hI X W (t + 1)).2 = stepH (chain cI hI X W t).1 (chain cI hI X W t).2 (slabAt X t) W := rfl

/-- Read at an entry, the chain is the specification's sequence of states over the chunk's slabs. -/
theorem chain_spec (cI hI : Vec Ideal S128x512 .f32) (X : Vec Ideal S8x128x2048 .f32) (W : Vec Ideal S512x2048 .bf16) (t : ℕ) :
    matS (chain (F := Ideal) cI hI X W t).1
        = (Cert.Lstm.state (matW W) (fun n => matX (slabAt (F := Ideal) X n)) (matS cI) (matS hI) t).1
    ∧ matS (chain (F := Ideal) cI hI X W t).2
        = (Cert.Lstm.state (matW W) (fun n => matX (slabAt (F := Ideal) X n)) (matS cI) (matS hI) t).2 := by
  induction t with
  | zero => exact ⟨rfl, rfl⟩
  | succ t ih =>
    obtain ⟨ih1, ih2⟩ := ih
    rw [Cert.Lstm.state_succ, chain_succ_fst, chain_succ_snd]
    refine ⟨?_, ?_⟩
    · funext b j
      show stepC (F := Ideal) _ _ _ _ (ix2 b j) = _
      rw [stepC_apply, ih1, ih2]
    · funext b j
      show stepH (F := Ideal) _ _ _ _ (ix2 b j) = _
      rw [stepH_apply, ih1, ih2]

/-! ## Blocks of eight steps, and what the body's loads read -/

/-- Eight 128 × 512 vectors stacked along a leading axis: the block of one result the chunk writes. -/
def stack (f : ℕ → FVec F S128x512 .f32) : Vec F S8x128x512 .f32 :=
  fun y => f (y 0).val (ix2 (y 1) (y 2))

/-- The store of step `t`'s vector, as a 1 × 128 × 512 slab at row `t` of the block, writes the stack there. -/
theorem stack_piece (f : ℕ → FVec F S128x512 .f32) (t : ℕ) {off : Fin 3 → ℕ} (hoff : off = ![t, 0, 0])
    (inb : ∀ a, off a + S1x128x512.size a ≤ S8x128x512.size a) (hc : S128x512.ShapeCasts S1x128x512)
    (x : (Rect.unit (s := S8x128x512) off S1x128x512.size inb).shape.Idx) :
    shapeCast S1x128x512 (f t) hc x = stack f ((Rect.unit (s := S8x128x512) off S1x128x512.size inb).emb x) := by
  subst hoff
  have h0 : (x 0).val < 1 := (x 0).isLt
  have e0 : ((Rect.unit (s := S8x128x512) ![t, 0, 0] S1x128x512.size inb).emb x 0).val = t := by
    show t + 1 * (x 0).val = t
    omega
  have e1 : (Rect.unit (s := S8x128x512) ![t, 0, 0] S1x128x512.size inb).emb x 1 = x 1 := by
    apply Fin.ext; show 0 + 1 * (x 1).val = (x 1).val; omega
  have e2 : (Rect.unit (s := S8x128x512) ![t, 0, 0] S1x128x512.size inb).emb x 2 = x 2 := by
    apply Fin.ext; show 0 + 1 * (x 2).val = (x 2).val; omega
  unfold stack
  rw [e0, e1, e2]
  have hx : x = ix3 (x 0) (x 1) (x 2) := eq_ix3 (n0 := 1) (n1 := 128) (n2 := 512) x
  rw [hx]
  exact shapeCast_ab_1ab_apply (f t) hc (x 0) (x 1) (x 2)

/-- A whole buffer loaded whole reads its contents. -/
theorem readAt_whole {S : Shape} {e : EltTy} (a : Memref sig .tc .vmem S e) (ha : a.IsWhole)
    {off : Fin S.rank → ℕ} (hz : off = fun _ => 0) (inb : ∀ a, off a + S.size a ≤ S.size a) (x : Vec F S e) :
    View.readAt (Elt F) a.view (Rect.unit off S.size inb).toLoadRect (ha.unread x) = x := by
  rw [View.readAt_eq_ld, ha.read_unread, View.ld_unit_zero hz]

/-- A load of a rectangle of a buffer that ONE whole store filled reads that store's value through the rectangle. -/
theorem readCov_of_whole {κ : Kind} {sp : Space} {S : Shape} {e : EltTy} (v : View sig κ sp S e)
    {off : Fin S.rank → ℕ} (hz : off = fun _ => 0) (inb : ∀ a, off a + S.size a ≤ S.size a)
    (Pv : S.Idx → Elt F e) (r : Rect S) :
    v.readCov [(⟨Rect.unit off S.size inb, Pv⟩ : View.Piece (Elt F) S e)] r.toLoadRect = View.ld Pv r := by
  rw [View.readCov_eq_canon_ld _ _ _ (fun y => ⟨_, List.mem_singleton_self _, View.mem_set_unit_zero hz inb y⟩),
    View.canon_unit_zero hz]

/-- Row `t` of the chunk's pre-activations, loaded as a 1 × 128 × 2048 rectangle, is slab `t`. -/
theorem ld_slab (X : FVec F S8x128x2048 .f32) (t : ℕ) (ht : t < 8) {off : Fin 3 → ℕ} (hoff : off = ![t, 0, 0])
    (inb : ∀ a, off a + S1x128x2048.size a ≤ S8x128x2048.size a) :
    View.ld X (Rect.unit (s := S8x128x2048) off S1x128x2048.size inb) = slabAt X t := by
  subst hoff
  funext y
  have h0 : (y 0).val < 1 := (y 0).isLt
  unfold slabAt
  show X ((Rect.unit (s := S8x128x2048) ![t, 0, 0] S1x128x2048.size inb).idx y) = _
  apply congrArg X
  funext a
  apply Fin.ext
  match a with
  | ⟨0, _⟩ =>
    show t + 1 * (y 0).val = t % 8
    rw [Nat.mod_eq_of_lt ht]; omega
  | ⟨1, _⟩ =>
    show 0 + 1 * (y 1).val = (y 1).val
    omega
  | ⟨2, _⟩ =>
    show 0 + 1 * (y 2).val = (y 2).val
    omega

theorem hz2 : (![0, 0] : Fin 2 → ℕ) = fun _ => 0 := by
  funext a; match a with
  | ⟨0, _⟩ => rfl
  | ⟨1, _⟩ => rfl

theorem hz3 : (![0, 0, 0] : Fin 3 → ℕ) = fun _ => 0 := by
  funext a; match a with
  | ⟨0, _⟩ => rfl
  | ⟨1, _⟩ => rfl
  | ⟨2, _⟩ => rfl

/-- A load of row `t` of the pre-activation buffer, after the ONE whole store that filled it, reads slab `t` of the
    stored value. -/
theorem readCov_slab {κ : Kind} {sp : Space} (v : View sig κ sp S8x128x2048 .f32)
    {off0 : Fin 3 → ℕ} (hz : off0 = fun _ => 0) (inb0 : ∀ a, off0 a + S8x128x2048.size a ≤ S8x128x2048.size a)
    (X : FVec F S8x128x2048 .f32) (t : ℕ) (ht : t < 8) {off : Fin 3 → ℕ} (hoff : off = ![t, 0, 0])
    (inb : ∀ a, off a + S1x128x2048.size a ≤ S8x128x2048.size a) :
    v.readCov [(⟨Rect.unit off0 S8x128x2048.size inb0, X⟩ : View.Piece (Elt F) S8x128x2048 .f32)]
        (Rect.unit (s := S8x128x2048) off S1x128x2048.size inb).toLoadRect = slabAt X t :=
  (readCov_of_whole v hz inb0 X _).trans (ld_slab X t ht hoff inb)

end Cert.KernelIdeal.Body

end
-- ==== Proof.KernelCaseA.lean ====
/-
  The first chunk of the kernel's grid (the point that first copies the initial cell and hidden state into the carried
  buffers). Every value the body computes on the way is identified with a component of the chain of eight cell steps
  started at (c0, h0) over the chunk's pre-activations: the value the t-th unrolled step stores into row t of the two
  result blocks is the cell, respectively hidden, state after t + 1 steps, and the two carried buffers end at the states
  after all eight.
-/
import proofs.«167809_g2000106098220206_pallasbulk_530_31_alg».proof.Proof.KernelChain
import proofs.«167809_g2000106098220206_pallasbulk_530_31_alg».proof.Proof.Gen.KernelIdeal.Frame

set_option maxRecDepth 16384

noncomputable section

namespace Cert.KernelIdeal.CaseA

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- What the body's loads read: a whole buffer at its contents, the state buffers and the pre-activation buffer at what
    the one store before the load put there. -/
local macro "norm_loads" : tactic => `(tactic| simp only [Body.readAt_whole (S := S8x128x512) _ _ Body.hz3, Body.readAt_whole (S := S512x2048) _ _ Body.hz2, Body.readAt_whole (S := S1x2048) _ _ Body.hz2, Body.readAt_whole (S := S128x512) _ _ Body.hz2,
    View.readCov_unit_zero (S := S128x512) _ Body.hz2, Body.readCov_slab _ Body.hz3 _ _ 0 (by decide) rfl, Body.readCov_slab _ Body.hz3 _ _ 1 (by decide) rfl, Body.readCov_slab _ Body.hz3 _ _ 2 (by decide) rfl, Body.readCov_slab _ Body.hz3 _ _ 3 (by decide) rfl, Body.readCov_slab _ Body.hz3 _ _ 4 (by decide) rfl, Body.readCov_slab _ Body.hz3 _ _ 5 (by decide) rfl, Body.readCov_slab _ Body.hz3 _ _ 6 (by decide) rfl, Body.readCov_slab _ Body.hz3 _ _ 7 (by decide) rfl])

theorem A_v18 (c : Dev nD) (arg5 : Memref sig .tc .vmem S128x512 .f32) (harg5 : arg5.IsWhole) (arg9 : Memref sig .tc .vmem S128x512 .f32) (x4 : Vec F S128x512 .f32) :
    kernelRun0_A.sl.v18 c arg5 harg5 arg9 x4 = k0_pay2 x4 := by
  unfold kernelRun0_A.sl.v18 kernelRun0_A.sl.HS0_1
  try norm_loads
  try rfl

theorem A_v19 (c : Dev nD) (arg6 : Memref sig .tc .vmem S128x512 .f32) (harg6 : arg6.IsWhole) (arg10 : Memref sig .tc .vmem S128x512 .f32) (x5 : Vec F S128x512 .f32) :
    kernelRun0_A.sl.v19 c arg6 harg6 arg10 x5 = k0_pay3 x5 := by
  unfold kernelRun0_A.sl.v19 kernelRun0_A.sl.HS1_1
  try norm_loads
  try rfl

theorem A_v21 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v21 c arg1 harg1 arg2 harg2 arg4 harg4 arg11 x0 x1 x3 = Body.slabAt (k0_pay4 x0 x1 x3) 0 := by
  unfold kernelRun0_A.sl.v21 kernelRun0_A.sl.HS2_1
  try norm_loads
  try rfl

theorem A_v68 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v68 c arg1 harg1 arg2 harg2 arg4 harg4 arg11 x0 x1 x3 = Body.slabAt (k0_pay4 x0 x1 x3) 1 := by
  unfold kernelRun0_A.sl.v68 kernelRun0_A.sl.HS2_1
  try norm_loads
  try rfl

theorem A_v115 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v115 c arg1 harg1 arg2 harg2 arg4 harg4 arg11 x0 x1 x3 = Body.slabAt (k0_pay4 x0 x1 x3) 2 := by
  unfold kernelRun0_A.sl.v115 kernelRun0_A.sl.HS2_1
  try norm_loads
  try rfl

theorem A_v162 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v162 c arg1 harg1 arg2 harg2 arg4 harg4 arg11 x0 x1 x3 = Body.slabAt (k0_pay4 x0 x1 x3) 3 := by
  unfold kernelRun0_A.sl.v162 kernelRun0_A.sl.HS2_1
  try norm_loads
  try rfl

theorem A_v209 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v209 c arg1 harg1 arg2 harg2 arg4 harg4 arg11 x0 x1 x3 = Body.slabAt (k0_pay4 x0 x1 x3) 4 := by
  unfold kernelRun0_A.sl.v209 kernelRun0_A.sl.HS2_1
  try norm_loads
  try rfl

theorem A_v256 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v256 c arg1 harg1 arg2 harg2 arg4 harg4 arg11 x0 x1 x3 = Body.slabAt (k0_pay4 x0 x1 x3) 5 := by
  unfold kernelRun0_A.sl.v256 kernelRun0_A.sl.HS2_1
  try norm_loads
  try rfl

theorem A_v303 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v303 c arg1 harg1 arg2 harg2 arg4 harg4 arg11 x0 x1 x3 = Body.slabAt (k0_pay4 x0 x1 x3) 6 := by
  unfold kernelRun0_A.sl.v303 kernelRun0_A.sl.HS2_1
  try norm_loads
  try rfl

theorem A_v350 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.v350 c arg1 harg1 arg2 harg2 arg4 harg4 arg11 x0 x1 x3 = Body.slabAt (k0_pay4 x0 x1 x3) 7 := by
  unfold kernelRun0_A.sl.v350 kernelRun0_A.sl.HS2_1
  try norm_loads
  try rfl

theorem A_r (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg6 : Memref sig .tc .vmem S128x512 .f32) (harg6 : arg6.IsWhole) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x5 : Vec F S128x512 .f32) :
    kernelRun0_A.sl.r c arg1 harg1 arg2 harg2 arg3 harg3 arg4 harg4 arg6 harg6 arg10 arg11 x0 x1 x2 x3 x5 = k0_pay5 (k0_pay3 x5) (Body.slabAt (k0_pay4 x0 x1 x3) 0) x2 := by
  unfold kernelRun0_A.sl.r
  try simp only [A_v19, A_v21]
  try norm_loads
  try rfl

theorem A_r_1 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg6 : Memref sig .tc .vmem S128x512 .f32) (harg6 : arg6.IsWhole) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x5 : Vec F S128x512 .f32) :
    kernelRun0_A.sl.r_1 c arg1 harg1 arg2 harg2 arg3 harg3 arg4 harg4 arg6 harg6 arg10 arg11 x0 x1 x2 x3 x5 = k0_pay6 (k0_pay3 x5) (Body.slabAt (k0_pay4 x0 x1 x3) 0) x2 := by
  unfold kernelRun0_A.sl.r_1
  try simp only [A_v19, A_v21]
  try norm_loads
  try rfl

theorem A_r_2 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_2 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (0 + 1)).1 := by
  unfold kernelRun0_A.sl.r_2
  try simp only [A_v18, A_r, A_r_1]
  try norm_loads
  try rfl

theorem A_r_3 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_A.sl.r_3 c arg1 harg1 arg2 harg2 arg4 harg4 arg11 x0 x1 x3 = k0_pay11 (Body.slabAt (k0_pay4 x0 x1 x3) 1) := by
  unfold kernelRun0_A.sl.r_3
  try simp only [A_v68]
  try norm_loads
  try rfl

theorem A_r_4 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_4 c arg1 harg1 arg2 harg2 arg3 harg3 arg4 harg4 arg5 harg5 arg6 harg6 arg9 arg10 arg11 x0 x1 x2 x3 x4 x5 = k0_pay12 (k0_pay2 x4) (k0_pay5 (k0_pay3 x5) (Body.slabAt (k0_pay4 x0 x1 x3) 0) x2) (k0_pay6 (k0_pay3 x5) (Body.slabAt (k0_pay4 x0 x1 x3) 0) x2) (FloatOps.ofBits .f32 0x3F000000#32) := by
  unfold kernelRun0_A.sl.r_4
  try simp only [A_v18, A_r, A_r_1]
  try norm_loads
  try rfl

theorem A_r_5 (c : Dev nD) (arg3 : Memref sig .tc .vmem S512x2048 .bf16) (harg3 : arg3.IsWhole) (x2 : Vec F S512x2048 .bf16) :
    kernelRun0_A.sl.r_5 c arg3 harg3 x2 = k0_pay13 x2 := by
  unfold kernelRun0_A.sl.r_5
  try norm_loads
  try rfl

theorem A_r_6 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_6 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (1 + 1)).1 := by
  unfold kernelRun0_A.sl.r_6
  try simp only [A_r_2, A_r_3, A_r_4, A_r_5]
  try norm_loads
  try rfl

theorem A_r_7 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_7 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (1 + 1)).2 := by
  unfold kernelRun0_A.sl.r_7
  try simp only [A_r_2, A_r_3, A_r_4, A_r_5]
  try norm_loads
  try rfl

theorem A_r_8 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_8 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (2 + 1)).1 := by
  unfold kernelRun0_A.sl.r_8
  try simp only [A_r_6, A_r_7, A_v115]
  try norm_loads
  try rfl

theorem A_r_9 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_9 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (2 + 1)).2 := by
  unfold kernelRun0_A.sl.r_9
  try simp only [A_r_6, A_r_7, A_v115]
  try norm_loads
  try rfl

theorem A_r_10 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_10 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (3 + 1)).1 := by
  unfold kernelRun0_A.sl.r_10
  try simp only [A_r_8, A_r_9, A_v162]
  try norm_loads
  try rfl

theorem A_r_11 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_11 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (3 + 1)).2 := by
  unfold kernelRun0_A.sl.r_11
  try simp only [A_r_8, A_r_9, A_v162]
  try norm_loads
  try rfl

theorem A_r_12 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_12 c arg1 harg1 arg2 harg2 arg3 harg3 arg4 harg4 arg5 harg5 arg6 harg6 arg9 arg10 arg11 x0 x1 x2 x3 x4 x5 = k0_pay30 (Body.chain (k0_pay2 x4) (k0_pay3 x5) (k0_pay4 x0 x1 x3) x2 (3 + 1)).2 (Body.slabAt (k0_pay4 x0 x1 x3) 4) x2 := by
  unfold kernelRun0_A.sl.r_12
  try simp only [A_r_11, A_v209]
  try norm_loads
  try rfl

theorem A_r_13 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_13 c arg1 harg1 arg2 harg2 arg3 harg3 arg4 harg4 arg5 harg5 arg6 harg6 arg9 arg10 arg11 x0 x1 x2 x3 x4 x5 = k0_pay31 (Body.chain (k0_pay2 x4) (k0_pay3 x5) (k0_pay4 x0 x1 x3) x2 (3 + 1)).2 (Body.slabAt (k0_pay4 x0 x1 x3) 4) x2 := by
  unfold kernelRun0_A.sl.r_13
  try simp only [A_r_11, A_v209]
  try norm_loads
  try rfl

theorem A_r_14 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_14 c arg1 harg1 arg2 harg2 arg3 harg3 arg4 harg4 arg5 harg5 arg6 harg6 arg9 arg10 arg11 x0 x1 x2 x3 x4 x5 = k0_pay32 (Body.chain (k0_pay2 x4) (k0_pay3 x5) (k0_pay4 x0 x1 x3) x2 (3 + 1)).2 (Body.slabAt (k0_pay4 x0 x1 x3) 4) x2 := by
  unfold kernelRun0_A.sl.r_14
  try simp only [A_r_11, A_v209]
  try norm_loads
  try rfl

theorem A_r_15 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_15 c arg1 harg1 arg2 harg2 arg3 harg3 arg4 harg4 arg5 harg5 arg6 harg6 arg9 arg10 arg11 x0 x1 x2 x3 x4 x5 = k0_pay33 (Body.chain (k0_pay2 x4) (k0_pay3 x5) (k0_pay4 x0 x1 x3) x2 (3 + 1)).2 (Body.slabAt (k0_pay4 x0 x1 x3) 4) x2 := by
  unfold kernelRun0_A.sl.r_15
  try simp only [A_r_11, A_v209]
  try norm_loads
  try rfl

theorem A_r_16 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_16 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (4 + 1)).1 := by
  unfold kernelRun0_A.sl.r_16
  try simp only [A_r_10, A_r_12, A_r_13, A_r_14]
  try norm_loads
  try rfl

theorem A_r_17 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_17 c arg1 harg1 arg2 harg2 arg3 harg3 arg4 harg4 arg5 harg5 arg6 harg6 arg9 arg10 arg11 x0 x1 x2 x3 x4 x5 = k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2 := by
  unfold kernelRun0_A.sl.r_17
  try simp only [A_r_10, A_r_12, A_r_13, A_r_14, A_r_15, A_v256]
  try norm_loads
  try rfl

theorem A_r_18 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_18 c arg1 harg1 arg2 harg2 arg3 harg3 arg4 harg4 arg5 harg5 arg6 harg6 arg9 arg10 arg11 x0 x1 x2 x3 x4 x5 = k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2 := by
  unfold kernelRun0_A.sl.r_18
  try simp only [A_r_10, A_r_12, A_r_13, A_r_14, A_r_15, A_v256]
  try norm_loads
  try rfl

theorem A_r_19 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_19 c arg1 harg1 arg2 harg2 arg3 harg3 arg4 harg4 arg5 harg5 arg6 harg6 arg9 arg10 arg11 x0 x1 x2 x3 x4 x5 = k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2 := by
  unfold kernelRun0_A.sl.r_19
  try simp only [A_r_10, A_r_12, A_r_13, A_r_14, A_r_15, A_v256]
  try norm_loads
  try rfl

theorem A_r_20 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_20 c arg1 harg1 arg2 harg2 arg3 harg3 arg4 harg4 arg5 harg5 arg6 harg6 arg9 arg10 arg11 x0 x1 x2 x3 x4 x5 = k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2 := by
  unfold kernelRun0_A.sl.r_20
  try simp only [A_r_10, A_r_12, A_r_13, A_r_14, A_r_15, A_v256]
  try norm_loads
  try rfl

theorem A_r_21 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_21 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (5 + 1)).1 := by
  unfold kernelRun0_A.sl.r_21
  try simp only [A_r_16, A_r_17, A_r_18, A_r_19]
  try norm_loads
  try rfl

theorem A_r_22 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_22 c arg1 harg1 arg2 harg2 arg3 harg3 arg4 harg4 arg5 harg5 arg6 harg6 arg9 arg10 arg11 x0 x1 x2 x3 x4 x5 = k0_pay48 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_A.sl.r_22
  try simp only [A_r_16, A_r_17, A_r_18, A_r_19, A_r_20, A_v303]
  try norm_loads
  try rfl

theorem A_r_23 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_23 c arg1 harg1 arg2 harg2 arg3 harg3 arg4 harg4 arg5 harg5 arg6 harg6 arg9 arg10 arg11 x0 x1 x2 x3 x4 x5 = k0_pay49 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_A.sl.r_23
  try simp only [A_r_16, A_r_17, A_r_18, A_r_19, A_r_20, A_v303]
  try norm_loads
  try rfl

theorem A_r_24 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_24 c arg1 harg1 arg2 harg2 arg3 harg3 arg4 harg4 arg5 harg5 arg6 harg6 arg9 arg10 arg11 x0 x1 x2 x3 x4 x5 = k0_pay50 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_A.sl.r_24
  try simp only [A_r_16, A_r_17, A_r_18, A_r_19, A_r_20, A_v303]
  try norm_loads
  try rfl

theorem A_r_25 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_25 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (6 + 1)).1 := by
  unfold kernelRun0_A.sl.r_25
  try simp only [A_r_21, A_r_22, A_r_23, A_r_24]
  try norm_loads
  try rfl

theorem A_r_26 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_26 c arg1 harg1 arg2 harg2 arg3 harg3 arg4 harg4 arg5 harg5 arg6 harg6 arg9 arg10 arg11 x0 x1 x2 x3 x4 x5 = k0_pay56 (Body.chain (k0_pay2 x4) (k0_pay3 x5) (k0_pay4 x0 x1 x3) x2 (5 + 1)).1 (k0_pay48 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay49 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay50 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) k0_pay51 (Body.slabAt (k0_pay4 x0 x1 x3) 7) x2 := by
  unfold kernelRun0_A.sl.r_26
  try simp only [A_r_21, A_r_22, A_r_23, A_r_24, A_v350]
  try norm_loads
  try rfl

theorem A_r_27 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_27 c arg1 harg1 arg2 harg2 arg3 harg3 arg4 harg4 arg5 harg5 arg6 harg6 arg9 arg10 arg11 x0 x1 x2 x3 x4 x5 = k0_pay57 (Body.chain (k0_pay2 x4) (k0_pay3 x5) (k0_pay4 x0 x1 x3) x2 (5 + 1)).1 (k0_pay48 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay49 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay50 (Body.chain (k0_pay2 x4) (k0_pay3 x5) (k0_pay4 x0 x1 x3) x2 (4 + 1)).1 (k0_pay40 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay41 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay42 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (k0_pay43 (Body.chain (k0_pay2 x4) (k0_pay3 x5) (k0_pay4 x0 x1 x3) x2 (3 + 1)).1 (k0_pay30 (Body.chain (k0_pay2 x4) (k0_pay3 x5) (k0_pay4 x0 x1 x3) x2 (3 + 1)).2 (Body.slabAt (k0_pay4 x0 x1 x3) 4) x2) (k0_pay31 (Body.chain (k0_pay2 x4) (k0_pay3 x5) (k0_pay4 x0 x1 x3) x2 (3 + 1)).2 (Body.slabAt (k0_pay4 x0 x1 x3) 4) x2) (k0_pay32 (Body.chain (k0_pay2 x4) (k0_pay3 x5) (k0_pay4 x0 x1 x3) x2 (3 + 1)).2 (Body.slabAt (k0_pay4 x0 x1 x3) 4) x2) (k0_pay33 (Body.chain (k0_pay2 x4) (k0_pay3 x5) (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) k0_pay51 (Body.slabAt (k0_pay4 x0 x1 x3) 7) x2 := by
  unfold kernelRun0_A.sl.r_27
  try simp only [A_r_21, A_r_22, A_r_23, A_r_24, A_v350]
  try norm_loads
  try rfl

theorem A_r_28 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg9 : Memref sig .tc .vmem S128x512 .f32) (arg10 : Memref sig .tc .vmem S128x512 .f32) (arg11 : Memref sig .tc .vmem S8x128x2048 .f32) (x0 : Vec F S8x128x512 .f32) (x1 : Vec F S512x2048 .bf16) (x2 : Vec F S512x2048 .bf16) (x3 : Vec F S1x2048 .f32) (x4 : Vec F S128x512 .f32) (x5 : Vec F S128x512 .f32) :
    kernelRun0_A.sl.r_28 c arg1 harg1 arg2 harg2 arg3 harg3 arg4 harg4 arg5 harg5 arg6 harg6 arg9 arg10 arg11 x0 x1 x2 x3 x4 x5 = (Body.chain (k0_pay2 x4) (k0_pay3 x5) (k0_pay4 x0 x1 x3) x2 (7 + 1)).2 := by
  unfold kernelRun0_A.sl.r_28
  try simp only [A_r_25, A_r_26, A_r_27]
  try norm_loads
  try rfl

/-- The block of result one (the cell states) this chunk leaves: the eight step vectors stacked. -/
theorem out6 (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : cond0_0 i) (x0 : Vec F S8x128x512 .f32) (x1 : Vec F S512x2048 .bf16) (x2 : Vec F S512x2048 .bf16) (x3 : Vec F S1x2048 .f32) (x4 : Vec F S128x512 .f32) (x5 : Vec F S128x512 .f32) :
    out0_A_6 c i arg1 harg1 arg2 harg2 arg3 harg3 arg4 harg4 arg5 harg5 arg6 harg6 arg7 harg7 arg8 harg8 arg9 harg9 arg10 harg10 arg11 harg11 hc0 x0 x1 x2 x3 x4 x5 = Body.stack (fun t => (Body.chain (k0_pay2 x4) (k0_pay3 x5) (k0_pay4 x0 x1 x3) x2 (t + 1)).1) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (Body.stack (fun t => (Body.chain (k0_pay2 x4) (k0_pay3 x5) (k0_pay4 x0 x1 x3) x2 (t + 1)).1)) _ ?_ y (cover0_A_6 c i arg1 harg1 arg2 harg2 arg3 harg3 arg4 harg4 arg5 harg5 arg6 harg6 arg7 harg7 arg8 harg8 arg9 harg9 arg10 harg10 arg11 harg11 hc0 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 7 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 6 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 5 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 4 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 3 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 2 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 1 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).1) 0 rfl _ _ x

/-- The block of result two (the hidden states) this chunk leaves: the eight step vectors stacked. -/
theorem out7 (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : cond0_0 i) (x0 : Vec F S8x128x512 .f32) (x1 : Vec F S512x2048 .bf16) (x2 : Vec F S512x2048 .bf16) (x3 : Vec F S1x2048 .f32) (x4 : Vec F S128x512 .f32) (x5 : Vec F S128x512 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 = Body.stack (fun t => (Body.chain (k0_pay2 x4) (k0_pay3 x5) (k0_pay4 x0 x1 x3) x2 (t + 1)).2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  funext y
  refine View.canon_apply_of_pieces (Body.stack (fun t => (Body.chain (k0_pay2 x4) (k0_pay3 x5) (k0_pay4 x0 x1 x3) x2 (t + 1)).2)) _ ?_ y (cover0_A_7 c i arg1 harg1 arg2 harg2 arg3 harg3 arg4 harg4 arg5 harg5 arg6 harg6 arg7 harg7 arg8 harg8 arg9 harg9 arg10 harg10 arg11 harg11 hc0 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 7 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 6 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 5 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 4 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 3 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 2 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 1 rfl _ _ x
  · simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
    try norm_loads
    exact Body.stack_piece (fun t => (Body.chain (k0_pay2 x4) (k0_pay3 x5) (k0_pay4 x0 x1 x3) x2 (t + 1)).2) 0 rfl _ _ x

/-- The carried cell state this chunk leaves: the state after its eighth step. -/
theorem carriedCell (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : cond0_0 i) (x0 : Vec F S8x128x512 .f32) (x1 : Vec F S512x2048 .bf16) (x2 : Vec F S512x2048 .bf16) (x3 : Vec F S1x2048 .f32) (x4 : Vec F S128x512 .f32) (x5 : Vec F S128x512 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 = (Body.chain (k0_pay2 x4) (k0_pay3 x5) (k0_pay4 x0 x1 x3) x2 (7 + 1)).1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  rw [View.canon_cons_unit_zero Body.hz2]
  simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
  try norm_loads
  exact shapeCast_self _ _

/-- The carried hidden state this chunk leaves: the state after its eighth step. -/
theorem carriedHid (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : cond0_0 i) (x0 : Vec F S8x128x512 .f32) (x1 : Vec F S512x2048 .bf16) (x2 : Vec F S512x2048 .bf16) (x3 : Vec F S1x2048 .f32) (x4 : Vec F S128x512 .f32) (x5 : Vec F S128x512 .f32) :
    sout0_A_1 c i arg1 harg1 arg2 harg2 arg3 harg3 arg4 harg4 arg5 harg5 arg6 harg6 arg7 harg7 arg8 harg8 arg9 harg9 arg10 harg10 arg11 harg11 hc0 x0 x1 x2 x3 x4 x5 = (Body.chain (k0_pay2 x4) (k0_pay3 x5) (k0_pay4 x0 x1 x3) x2 (7 + 1)).2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  rw [View.canon_cons_unit_zero Body.hz2]
  simp only [A_v18, A_v19, A_v21, A_v68, A_v115, A_v162, A_v209, A_v256, A_v303, A_v350, A_r, A_r_1, A_r_2, A_r_3, A_r_4, A_r_5, A_r_6, A_r_7, A_r_8, A_r_9, A_r_10, A_r_11, A_r_12, A_r_13, A_r_14, A_r_15, A_r_16, A_r_17, A_r_18, A_r_19, A_r_20, A_r_21, A_r_22, A_r_23, A_r_24, A_r_25, A_r_26, A_r_27, A_r_28]
  try norm_loads
  exact shapeCast_self _ _

end Cert.KernelIdeal.CaseA

end
-- ==== Proof.KernelCaseB.lean ====
/-
  A later chunk of the kernel's grid (the carried buffers hold what the chunk before left). Every value the body computes
  on the way is identified with a component of the chain of eight cell steps started at the carried cell and hidden state
  over the chunk's pre-activations, exactly as for the first chunk.
-/
import proofs.«167809_g2000106098220206_pallasbulk_530_31_alg».proof.Proof.KernelChain
import proofs.«167809_g2000106098220206_pallasbulk_530_31_alg».proof.Proof.Gen.KernelIdeal.Frame

set_option maxRecDepth 16384

noncomputable section

namespace Cert.KernelIdeal.CaseB

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- What the body's loads read: a whole buffer at its contents, the state buffers and the pre-activation buffer at what
    the one store before the load put there. -/
local macro "norm_loads" : tactic => `(tactic| simp only [Body.readAt_whole (S := S8x128x512) _ _ Body.hz3, Body.readAt_whole (S := S512x2048) _ _ Body.hz2, Body.readAt_whole (S := S1x2048) _ _ Body.hz2, Body.readAt_whole (S := S128x512) _ _ Body.hz2,
    View.readCov_unit_zero (S := S128x512) _ Body.hz2, Body.readCov_slab _ Body.hz3 _ _ 0 (by decide) rfl, Body.readCov_slab _ Body.hz3 _ _ 1 (by decide) rfl, Body.readCov_slab _ Body.hz3 _ _ 2 (by decide) rfl, Body.readCov_slab _ Body.hz3 _ _ 3 (by decide) rfl, Body.readCov_slab _ Body.hz3 _ _ 4 (by decide) rfl, Body.readCov_slab _ Body.hz3 _ _ 5 (by decide) rfl, Body.readCov_slab _ Body.hz3 _ _ 6 (by decide) rfl, Body.readCov_slab _ Body.hz3 _ _ 7 (by decide) rfl])

theorem B_v21 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v21 c arg1 harg1 arg2 harg2 arg4 harg4 arg11 x0 x1 x3 = Body.slabAt (k0_pay4 x0 x1 x3) 0 := by
  unfold kernelRun0_B.sl.v21 kernelRun0_B.sl.HS2_1
  try norm_loads
  try rfl

theorem B_v68 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v68 c arg1 harg1 arg2 harg2 arg4 harg4 arg11 x0 x1 x3 = Body.slabAt (k0_pay4 x0 x1 x3) 1 := by
  unfold kernelRun0_B.sl.v68 kernelRun0_B.sl.HS2_1
  try norm_loads
  try rfl

theorem B_v115 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v115 c arg1 harg1 arg2 harg2 arg4 harg4 arg11 x0 x1 x3 = Body.slabAt (k0_pay4 x0 x1 x3) 2 := by
  unfold kernelRun0_B.sl.v115 kernelRun0_B.sl.HS2_1
  try norm_loads
  try rfl

theorem B_v162 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v162 c arg1 harg1 arg2 harg2 arg4 harg4 arg11 x0 x1 x3 = Body.slabAt (k0_pay4 x0 x1 x3) 3 := by
  unfold kernelRun0_B.sl.v162 kernelRun0_B.sl.HS2_1
  try norm_loads
  try rfl

theorem B_v209 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v209 c arg1 harg1 arg2 harg2 arg4 harg4 arg11 x0 x1 x3 = Body.slabAt (k0_pay4 x0 x1 x3) 4 := by
  unfold kernelRun0_B.sl.v209 kernelRun0_B.sl.HS2_1
  try norm_loads
  try rfl

theorem B_v256 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v256 c arg1 harg1 arg2 harg2 arg4 harg4 arg11 x0 x1 x3 = Body.slabAt (k0_pay4 x0 x1 x3) 5 := by
  unfold kernelRun0_B.sl.v256 kernelRun0_B.sl.HS2_1
  try norm_loads
  try rfl

theorem B_v303 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v303 c arg1 harg1 arg2 harg2 arg4 harg4 arg11 x0 x1 x3 = Body.slabAt (k0_pay4 x0 x1 x3) 6 := by
  unfold kernelRun0_B.sl.v303 kernelRun0_B.sl.HS2_1
  try norm_loads
  try rfl

theorem B_v350 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.v350 c arg1 harg1 arg2 harg2 arg4 harg4 arg11 x0 x1 x3 = Body.slabAt (k0_pay4 x0 x1 x3) 7 := by
  unfold kernelRun0_B.sl.v350 kernelRun0_B.sl.HS2_1
  try norm_loads
  try rfl

theorem B_r (c : Dev nD) (arg9 : Memref sig .tc .vmem S128x512 .f32) (harg9 : arg9.IsWhole) (xs0 : Vec F S128x512 .f32) :
    kernelRun0_B.sl.r c arg9 harg9 xs0 = xs0 := by
  unfold kernelRun0_B.sl.r
  try norm_loads
  try rfl

theorem B_r_1 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs1 : Vec F S128x512 .f32) :
    kernelRun0_B.sl.r_1 c arg1 harg1 arg2 harg2 arg3 harg3 arg4 harg4 arg10 harg10 arg11 x0 x1 x2 x3 xs1 = k0_pay5 xs1 (Body.slabAt (k0_pay4 x0 x1 x3) 0) x2 := by
  unfold kernelRun0_B.sl.r_1
  try simp only [B_v21]
  try norm_loads
  try rfl

theorem B_r_2 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs1 : Vec F S128x512 .f32) :
    kernelRun0_B.sl.r_2 c arg1 harg1 arg2 harg2 arg3 harg3 arg4 harg4 arg10 harg10 arg11 x0 x1 x2 x3 xs1 = k0_pay6 xs1 (Body.slabAt (k0_pay4 x0 x1 x3) 0) x2 := by
  unfold kernelRun0_B.sl.r_2
  try simp only [B_v21]
  try norm_loads
  try rfl

theorem B_r_3 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_3 c arg1 harg1 arg2 harg2 arg3 harg3 arg4 harg4 arg9 harg9 arg10 harg10 arg11 x0 x1 x2 x3 xs0 xs1 = (Body.chain xs0 xs1 (k0_pay4 x0 x1 x3) x2 (0 + 1)).1 := by
  unfold kernelRun0_B.sl.r_3
  try simp only [B_r, B_r_1, B_r_2]
  try norm_loads
  try rfl

theorem B_r_4 (c : Dev nD) (arg1 : Memref sig .tc .vmem S8x128x512 .f32) (harg1 : arg1.IsWhole) (arg2 : Memref sig .tc .vmem S512x2048 .bf16) (harg2 : arg2.IsWhole) (arg4 : Memref sig .tc .vmem S1x2048 .f32) (harg4 : arg4.IsWhole) (arg11 : Memref sig .tc .vmem S8x128x2048 .f32) (x0 : Vec F S8x128x512 .f32) (x1 : Vec F S512x2048 .bf16) (x3 : Vec F S1x2048 .f32) :
    kernelRun0_B.sl.r_4 c arg1 harg1 arg2 harg2 arg4 harg4 arg11 x0 x1 x3 = k0_pay11 (Body.slabAt (k0_pay4 x0 x1 x3) 1) := by
  unfold kernelRun0_B.sl.r_4
  try simp only [B_v68]
  try norm_loads
  try rfl

theorem B_r_5 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_5 c arg1 harg1 arg2 harg2 arg3 harg3 arg4 harg4 arg9 harg9 arg10 harg10 arg11 x0 x1 x2 x3 xs0 xs1 = k0_pay12 xs0 (k0_pay5 xs1 (Body.slabAt (k0_pay4 x0 x1 x3) 0) x2) (k0_pay6 xs1 (Body.slabAt (k0_pay4 x0 x1 x3) 0) x2) (FloatOps.ofBits .f32 0x3F000000#32) := by
  unfold kernelRun0_B.sl.r_5
  try simp only [B_r, B_r_1, B_r_2]
  try norm_loads
  try rfl

theorem B_r_6 (c : Dev nD) (arg3 : Memref sig .tc .vmem S512x2048 .bf16) (harg3 : arg3.IsWhole) (x2 : Vec F S512x2048 .bf16) :
    kernelRun0_B.sl.r_6 c arg3 harg3 x2 = k0_pay13 x2 := by
  unfold kernelRun0_B.sl.r_6
  try norm_loads
  try rfl

theorem B_r_7 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_7 c arg1 harg1 arg2 harg2 arg3 harg3 arg4 harg4 arg9 harg9 arg10 harg10 arg11 x0 x1 x2 x3 xs0 xs1 = (Body.chain xs0 xs1 (k0_pay4 x0 x1 x3) x2 (1 + 1)).1 := by
  unfold kernelRun0_B.sl.r_7
  try simp only [B_r_3, B_r_4, B_r_5, B_r_6]
  try norm_loads
  try rfl

theorem B_r_8 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_8 c arg1 harg1 arg2 harg2 arg3 harg3 arg4 harg4 arg9 harg9 arg10 harg10 arg11 x0 x1 x2 x3 xs0 xs1 = (Body.chain xs0 xs1 (k0_pay4 x0 x1 x3) x2 (1 + 1)).2 := by
  unfold kernelRun0_B.sl.r_8
  try simp only [B_r_3, B_r_4, B_r_5, B_r_6]
  try norm_loads
  try rfl

theorem B_r_9 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_9 c arg1 harg1 arg2 harg2 arg3 harg3 arg4 harg4 arg9 harg9 arg10 harg10 arg11 x0 x1 x2 x3 xs0 xs1 = (Body.chain xs0 xs1 (k0_pay4 x0 x1 x3) x2 (2 + 1)).1 := by
  unfold kernelRun0_B.sl.r_9
  try simp only [B_r_7, B_r_8, B_v115]
  try norm_loads
  try rfl

theorem B_r_10 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_10 c arg1 harg1 arg2 harg2 arg3 harg3 arg4 harg4 arg9 harg9 arg10 harg10 arg11 x0 x1 x2 x3 xs0 xs1 = (Body.chain xs0 xs1 (k0_pay4 x0 x1 x3) x2 (2 + 1)).2 := by
  unfold kernelRun0_B.sl.r_10
  try simp only [B_r_7, B_r_8, B_v115]
  try norm_loads
  try rfl

theorem B_r_11 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_11 c arg1 harg1 arg2 harg2 arg3 harg3 arg4 harg4 arg9 harg9 arg10 harg10 arg11 x0 x1 x2 x3 xs0 xs1 = (Body.chain xs0 xs1 (k0_pay4 x0 x1 x3) x2 (3 + 1)).1 := by
  unfold kernelRun0_B.sl.r_11
  try simp only [B_r_9, B_r_10, B_v162]
  try norm_loads
  try rfl

theorem B_r_12 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_12 c arg1 harg1 arg2 harg2 arg3 harg3 arg4 harg4 arg9 harg9 arg10 harg10 arg11 x0 x1 x2 x3 xs0 xs1 = (Body.chain xs0 xs1 (k0_pay4 x0 x1 x3) x2 (3 + 1)).2 := by
  unfold kernelRun0_B.sl.r_12
  try simp only [B_r_9, B_r_10, B_v162]
  try norm_loads
  try rfl

theorem B_r_13 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_13 c arg1 harg1 arg2 harg2 arg3 harg3 arg4 harg4 arg9 harg9 arg10 harg10 arg11 x0 x1 x2 x3 xs0 xs1 = k0_pay30 (Body.chain xs0 xs1 (k0_pay4 x0 x1 x3) x2 (3 + 1)).2 (Body.slabAt (k0_pay4 x0 x1 x3) 4) x2 := by
  unfold kernelRun0_B.sl.r_13
  try simp only [B_r_12, B_v209]
  try norm_loads
  try rfl

theorem B_r_14 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_14 c arg1 harg1 arg2 harg2 arg3 harg3 arg4 harg4 arg9 harg9 arg10 harg10 arg11 x0 x1 x2 x3 xs0 xs1 = k0_pay31 (Body.chain xs0 xs1 (k0_pay4 x0 x1 x3) x2 (3 + 1)).2 (Body.slabAt (k0_pay4 x0 x1 x3) 4) x2 := by
  unfold kernelRun0_B.sl.r_14
  try simp only [B_r_12, B_v209]
  try norm_loads
  try rfl

theorem B_r_15 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_15 c arg1 harg1 arg2 harg2 arg3 harg3 arg4 harg4 arg9 harg9 arg10 harg10 arg11 x0 x1 x2 x3 xs0 xs1 = k0_pay32 (Body.chain xs0 xs1 (k0_pay4 x0 x1 x3) x2 (3 + 1)).2 (Body.slabAt (k0_pay4 x0 x1 x3) 4) x2 := by
  unfold kernelRun0_B.sl.r_15
  try simp only [B_r_12, B_v209]
  try norm_loads
  try rfl

theorem B_r_16 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_16 c arg1 harg1 arg2 harg2 arg3 harg3 arg4 harg4 arg9 harg9 arg10 harg10 arg11 x0 x1 x2 x3 xs0 xs1 = k0_pay33 (Body.chain xs0 xs1 (k0_pay4 x0 x1 x3) x2 (3 + 1)).2 (Body.slabAt (k0_pay4 x0 x1 x3) 4) x2 := by
  unfold kernelRun0_B.sl.r_16
  try simp only [B_r_12, B_v209]
  try norm_loads
  try rfl

theorem B_r_17 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_17 c arg1 harg1 arg2 harg2 arg3 harg3 arg4 harg4 arg9 harg9 arg10 harg10 arg11 x0 x1 x2 x3 xs0 xs1 = (Body.chain xs0 xs1 (k0_pay4 x0 x1 x3) x2 (4 + 1)).1 := by
  unfold kernelRun0_B.sl.r_17
  try simp only [B_r_11, B_r_13, B_r_14, B_r_15]
  try norm_loads
  try rfl

theorem B_r_18 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_18 c arg1 harg1 arg2 harg2 arg3 harg3 arg4 harg4 arg9 harg9 arg10 harg10 arg11 x0 x1 x2 x3 xs0 xs1 = k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2 := by
  unfold kernelRun0_B.sl.r_18
  try simp only [B_r_11, B_r_13, B_r_14, B_r_15, B_r_16, B_v256]
  try norm_loads
  try rfl

theorem B_r_19 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_19 c arg1 harg1 arg2 harg2 arg3 harg3 arg4 harg4 arg9 harg9 arg10 harg10 arg11 x0 x1 x2 x3 xs0 xs1 = k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2 := by
  unfold kernelRun0_B.sl.r_19
  try simp only [B_r_11, B_r_13, B_r_14, B_r_15, B_r_16, B_v256]
  try norm_loads
  try rfl

theorem B_r_20 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_20 c arg1 harg1 arg2 harg2 arg3 harg3 arg4 harg4 arg9 harg9 arg10 harg10 arg11 x0 x1 x2 x3 xs0 xs1 = k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2 := by
  unfold kernelRun0_B.sl.r_20
  try simp only [B_r_11, B_r_13, B_r_14, B_r_15, B_r_16, B_v256]
  try norm_loads
  try rfl

theorem B_r_21 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_21 c arg1 harg1 arg2 harg2 arg3 harg3 arg4 harg4 arg9 harg9 arg10 harg10 arg11 x0 x1 x2 x3 xs0 xs1 = k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2 := by
  unfold kernelRun0_B.sl.r_21
  try simp only [B_r_11, B_r_13, B_r_14, B_r_15, B_r_16, B_v256]
  try norm_loads
  try rfl

theorem B_r_22 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_22 c arg1 harg1 arg2 harg2 arg3 harg3 arg4 harg4 arg9 harg9 arg10 harg10 arg11 x0 x1 x2 x3 xs0 xs1 = (Body.chain xs0 xs1 (k0_pay4 x0 x1 x3) x2 (5 + 1)).1 := by
  unfold kernelRun0_B.sl.r_22
  try simp only [B_r_17, B_r_18, B_r_19, B_r_20]
  try norm_loads
  try rfl

theorem B_r_23 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_23 c arg1 harg1 arg2 harg2 arg3 harg3 arg4 harg4 arg9 harg9 arg10 harg10 arg11 x0 x1 x2 x3 xs0 xs1 = k0_pay48 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_B.sl.r_23
  try simp only [B_r_17, B_r_18, B_r_19, B_r_20, B_r_21, B_v303]
  try norm_loads
  try rfl

theorem B_r_24 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_24 c arg1 harg1 arg2 harg2 arg3 harg3 arg4 harg4 arg9 harg9 arg10 harg10 arg11 x0 x1 x2 x3 xs0 xs1 = k0_pay49 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_B.sl.r_24
  try simp only [B_r_17, B_r_18, B_r_19, B_r_20, B_r_21, B_v303]
  try norm_loads
  try rfl

theorem B_r_25 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_25 c arg1 harg1 arg2 harg2 arg3 harg3 arg4 harg4 arg9 harg9 arg10 harg10 arg11 x0 x1 x2 x3 xs0 xs1 = k0_pay50 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2 := by
  unfold kernelRun0_B.sl.r_25
  try simp only [B_r_17, B_r_18, B_r_19, B_r_20, B_r_21, B_v303]
  try norm_loads
  try rfl

theorem B_r_26 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_26 c arg1 harg1 arg2 harg2 arg3 harg3 arg4 harg4 arg9 harg9 arg10 harg10 arg11 x0 x1 x2 x3 xs0 xs1 = (Body.chain xs0 xs1 (k0_pay4 x0 x1 x3) x2 (6 + 1)).1 := by
  unfold kernelRun0_B.sl.r_26
  try simp only [B_r_22, B_r_23, B_r_24, B_r_25]
  try norm_loads
  try rfl

theorem B_r_27 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_27 c arg1 harg1 arg2 harg2 arg3 harg3 arg4 harg4 arg9 harg9 arg10 harg10 arg11 x0 x1 x2 x3 xs0 xs1 = k0_pay56 (Body.chain xs0 xs1 (k0_pay4 x0 x1 x3) x2 (5 + 1)).1 (k0_pay48 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay49 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay50 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) k0_pay51 (Body.slabAt (k0_pay4 x0 x1 x3) 7) x2 := by
  unfold kernelRun0_B.sl.r_27
  try simp only [B_r_22, B_r_23, B_r_24, B_r_25, B_v350]
  try norm_loads
  try rfl

theorem B_r_28 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_28 c arg1 harg1 arg2 harg2 arg3 harg3 arg4 harg4 arg9 harg9 arg10 harg10 arg11 x0 x1 x2 x3 xs0 xs1 = k0_pay57 (Body.chain xs0 xs1 (k0_pay4 x0 x1 x3) x2 (5 + 1)).1 (k0_pay48 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay49 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) (k0_pay50 (Body.chain xs0 xs1 (k0_pay4 x0 x1 x3) x2 (4 + 1)).1 (k0_pay40 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay41 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay42 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (k0_pay43 (Body.chain xs0 xs1 (k0_pay4 x0 x1 x3) x2 (3 + 1)).1 (k0_pay30 (Body.chain xs0 xs1 (k0_pay4 x0 x1 x3) x2 (3 + 1)).2 (Body.slabAt (k0_pay4 x0 x1 x3) 4) x2) (k0_pay31 (Body.chain xs0 xs1 (k0_pay4 x0 x1 x3) x2 (3 + 1)).2 (Body.slabAt (k0_pay4 x0 x1 x3) 4) x2) (k0_pay32 (Body.chain xs0 xs1 (k0_pay4 x0 x1 x3) x2 (3 + 1)).2 (Body.slabAt (k0_pay4 x0 x1 x3) 4) x2) (k0_pay33 (Body.chain xs0 xs1 (k0_pay4 x0 x1 x3) x2 (3 + 1)).2 (Body.slabAt (k0_pay4 x0 x1 x3) 4) x2) k0_pay34 (Body.slabAt (k0_pay4 x0 x1 x3) 5) x2) (FloatOps.ofBits .f32 0x3F000000#32) (Body.slabAt (k0_pay4 x0 x1 x3) 6) x2) k0_pay51 (Body.slabAt (k0_pay4 x0 x1 x3) 7) x2 := by
  unfold kernelRun0_B.sl.r_28
  try simp only [B_r_22, B_r_23, B_r_24, B_r_25, B_v350]
  try norm_loads
  try rfl

theorem B_r_29 (c : Dev nD) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg9 : Memref sig .tc .vmem S128x512 .f32) (harg9 : arg9.IsWhole) (arg10 : Memref sig .tc .vmem S128x512 .f32) (harg10 : arg10.IsWhole) (arg11 : Memref sig .tc .vmem S8x128x2048 .f32) (x0 : Vec F S8x128x512 .f32) (x1 : Vec F S512x2048 .bf16) (x2 : Vec F S512x2048 .bf16) (x3 : Vec F S1x2048 .f32) (xs0 : Vec F S128x512 .f32) (xs1 : Vec F S128x512 .f32) :
    kernelRun0_B.sl.r_29 c arg1 harg1 arg2 harg2 arg3 harg3 arg4 harg4 arg9 harg9 arg10 harg10 arg11 x0 x1 x2 x3 xs0 xs1 = (Body.chain xs0 xs1 (k0_pay4 x0 x1 x3) x2 (7 + 1)).2 := by
  unfold kernelRun0_B.sl.r_29
  try simp only [B_r_26, B_r_27, B_r_28]
  try norm_loads
  try rfl

/-- The block of result one (the cell states) this chunk leaves: the eight step vectors stacked. -/
theorem out6 (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : ¬cond0_0 i) (x0 : Vec F S8x128x512 .f32) (x1 : Vec F S512x2048 .bf16) (x2 : Vec F S512x2048 .bf16) (x3 : Vec F S1x2048 .f32) (x4 : Vec F S128x512 .f32) (x5 : Vec F S128x512 .f32) (xs0 : Vec F S128x512 .f32) (xs1 : Vec F S128x512 .f32) :
    out0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1 = Body.stack (fun t => (Body.chain xs0 xs1 (k0_pay4 x0 x1 x3) x2 (t + 1)).1) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1)]
  funext y
  refine View.canon_apply_of_pieces (Body.stack (fun t => (Body.chain xs0 xs1 (k0_pay4 x0 x1 x3) x2 (t + 1)).1)) _ ?_ y (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1 y)
  intro p hp x
  unfold kernelRun0_B at hp
  dsimp only at hp
  simp only [List.mem_cons, List.not_mem_nil, or_false] at hp
  rcases hp with rfl | rfl | rfl | rfl | rfl | rfl | rfl | rfl
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 7 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 6 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 5 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 4 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 3 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 2 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 1 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).1) 0 rfl _ _ x

/-- The block of result two (the hidden states) this chunk leaves: the eight step vectors stacked. -/
theorem out7 (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : ¬cond0_0 i) (x0 : Vec F S8x128x512 .f32) (x1 : Vec F S512x2048 .bf16) (x2 : Vec F S512x2048 .bf16) (x3 : Vec F S1x2048 .f32) (x4 : Vec F S128x512 .f32) (x5 : Vec F S128x512 .f32) (xs0 : Vec F S128x512 .f32) (xs1 : Vec F S128x512 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 xs0 xs1 = Body.stack (fun t => (Body.chain xs0 xs1 (k0_pay4 x0 x1 x3) x2 (t + 1)).2) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xs0 xs1)]
  funext y
  refine View.canon_apply_of_pieces (Body.stack (fun t => (Body.chain xs0 xs1 (k0_pay4 x0 x1 x3) x2 (t + 1)).2)) _ ?_ y (cover0_B_7 c i arg1 harg1 arg2 harg2 arg3 harg3 arg4 harg4 arg5 harg5 arg6 harg6 arg7 harg7 arg8 harg8 arg9 harg9 arg10 harg10 arg11 harg11 hc0 x0 x1 x2 x3 x4 x5 xs0 xs1 y)
  intro p hp x
  unfold kernelRun0_B at hp
  dsimp only at hp
  simp only [List.mem_cons, List.not_mem_nil, or_false] at hp
  rcases hp with rfl | rfl | rfl | rfl | rfl | rfl | rfl | rfl
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 7 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 6 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 5 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 4 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 3 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 2 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 1 rfl _ _ x
  · simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
    try norm_loads
    exact Body.stack_piece (fun t => (Body.chain xs0 xs1 (k0_pay4 x0 x1 x3) x2 (t + 1)).2) 0 rfl _ _ x

/-- The carried cell state this chunk leaves: the state after its eighth step. -/
theorem carriedCell (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : ¬cond0_0 i) (x0 : Vec F S8x128x512 .f32) (x1 : Vec F S512x2048 .bf16) (x2 : Vec F S512x2048 .bf16) (x3 : Vec F S1x2048 .f32) (x4 : Vec F S128x512 .f32) (x5 : Vec F S128x512 .f32) (xs0 : Vec F S128x512 .f32) (xs1 : Vec F S128x512 .f32) :
    sout0_B_0 c i arg1 harg1 arg2 harg2 arg3 harg3 arg4 harg4 arg5 harg5 arg6 harg6 arg7 harg7 arg8 harg8 arg9 harg9 arg10 harg10 arg11 harg11 hc0 x0 x1 x2 x3 x4 x5 xs0 xs1 = (Body.chain xs0 xs1 (k0_pay4 x0 x1 x3) x2 (7 + 1)).1 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  rw [View.canon_cons_unit_zero Body.hz2]
  simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
  try norm_loads
  exact shapeCast_self _ _

/-- The carried hidden state this chunk leaves: the state after its eighth step. -/
theorem carriedHid (c : Dev nD) (i : grid0.Coords) (arg1 : Memref sig .tc .vmem S8x128x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S8x128x2048 .f32) (harg11 : arg11.IsWhole) (hc0 : ¬cond0_0 i) (x0 : Vec F S8x128x512 .f32) (x1 : Vec F S512x2048 .bf16) (x2 : Vec F S512x2048 .bf16) (x3 : Vec F S1x2048 .f32) (x4 : Vec F S128x512 .f32) (x5 : Vec F S128x512 .f32) (xs0 : Vec F S128x512 .f32) (xs1 : Vec F S128x512 .f32) :
    sout0_B_1 c i arg1 harg1 arg2 harg2 arg3 harg3 arg4 harg4 arg5 harg5 arg6 harg6 arg7 harg7 arg8 harg8 arg9 harg9 arg10 harg10 arg11 harg11 hc0 x0 x1 x2 x3 x4 x5 xs0 xs1 = (Body.chain xs0 xs1 (k0_pay4 x0 x1 x3) x2 (7 + 1)).2 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  rw [View.canon_cons_unit_zero Body.hz2]
  simp only [B_v21, B_v68, B_v115, B_v162, B_v209, B_v256, B_v303, B_v350, B_r, B_r_1, B_r_2, B_r_3, B_r_4, B_r_5, B_r_6, B_r_7, B_r_8, B_r_9, B_r_10, B_r_11, B_r_12, B_r_13, B_r_14, B_r_15, B_r_16, B_r_17, B_r_18, B_r_19, B_r_20, B_r_21, B_r_22, B_r_23, B_r_24, B_r_25, B_r_26, B_r_27, B_r_28, B_r_29]
  try norm_loads
  exact shapeCast_self _ _

end Cert.KernelIdeal.CaseB

end
-- ==== Proof.KernelPoints.lean ====
/-
  What each of the kernel's eight grid points leaves: the induction over the chunks.

  Point p runs time steps 8p … 8p + 7. By the two case modules, the blocks it writes are the stacked step vectors of a
  chain started at what the point before left in the carried buffers (at (c0, h0) for the first point), over the point's
  own eight slabs of input pre-activations. The specification's sequence of states has the same shape: the states from
  step a on are the states of the shifted input sequence started at the state after a steps. So, by induction on p, the
  carried buffers after point p hold the specification's state after 8p + 8 steps, and row u of the two blocks holds its
  cell, respectively hidden, state after 8p + u + 1 steps.
-/
import proofs.«167809_g2000106098220206_pallasbulk_530_31_alg».proof.Proof.KernelCaseA
import proofs.«167809_g2000106098220206_pallasbulk_530_31_alg».proof.Proof.KernelCaseB

set_option maxRecDepth 16384

noncomputable section

namespace Cert.Lstm

/-- The states from step `a` on are the states of the shifted inputs, started at the state after `a` steps. -/
theorem state_add (W : Mat 512 2048) (X : ℕ → Mat 128 2048) (c0 h0 : Mat 128 512) (a t : ℕ) :
    state W X c0 h0 (a + t)
      = state W (fun n => X (a + n)) (state W X c0 h0 a).1 (state W X c0 h0 a).2 t := by
  induction t with
  | zero => rfl
  | succ t ih =>
    have e : a + (t + 1) = (a + t) + 1 := rfl
    rw [e, state_succ, state_succ, ih]

end Cert.Lstm

namespace Cert.KernelIdeal.Points

open Idealize.ShloMosaic Idealize.ShloMosaic.TcCoe Idealize.ShloMosaic.ValueIdx
open Idealize.SL Idealize.SL.Sem
open Cert.KernelIdeal Cert.KernelIdeal.Gen Cert.KernelIdeal.Body

/-- A slab index counts modulo the chunk length. -/
theorem slabAt_add (X : Vec Ideal S8x128x2048 .f32) (n k : ℕ) : slabAt (F := Ideal) X (8 * n + k) = slabAt (F := Ideal) X k := by
  unfold slabAt
  funext y
  apply congrArg X
  apply congrArg (fun u : Fin 8 => ix3 u (y 1) (y 2))
  apply Fin.ext
  show (8 * n + k) % 8 = k % 8
  omega

/-- One chunk: a chain started at the specification's state after `a` steps, over slabs that are the specification's
    inputs of steps a, a + 1, …, is the specification's states after a + t steps. -/
theorem chunk (cI hI : Vec Ideal S128x512 .f32) (X : Vec Ideal S8x128x2048 .f32) (W : Vec Ideal S512x2048 .bf16)
    (Xg : ℕ → Cert.Lstm.Mat 128 2048) (c0 h0 : Cert.Lstm.Mat 128 512) (a : ℕ)
    (hc : matS cI = (Cert.Lstm.state (matW W) Xg c0 h0 a).1) (hh : matS hI = (Cert.Lstm.state (matW W) Xg c0 h0 a).2)
    (hX : ∀ n, n < 8 → matX (slabAt (F := Ideal) X n) = Xg (a + n)) (t : ℕ) (ht : t ≤ 8) :
    matS (chain (F := Ideal) cI hI X W t).1 = (Cert.Lstm.state (matW W) Xg c0 h0 (a + t)).1
    ∧ matS (chain (F := Ideal) cI hI X W t).2 = (Cert.Lstm.state (matW W) Xg c0 h0 (a + t)).2 := by
  have hs := chain_spec cI hI X W t
  rw [Cert.Lstm.state_add, ← hc, ← hh,
    Cert.Lstm.state_congr (matW W) (fun n => Xg (a + n)) (fun n => matX (slabAt (F := Ideal) X n)) (matS cI) (matS hI) t
      (fun k hk => (hX k (by omega)).symm)]
  exact hs

/-- What one chunk gives, in the form the induction uses: the carried states after its eight steps, and each row of
    its two stacked blocks. -/
theorem point (cI hI : Vec Ideal S128x512 .f32) (X : Vec Ideal S8x128x2048 .f32) (W : Vec Ideal S512x2048 .bf16)
    (Xg : ℕ → Cert.Lstm.Mat 128 2048) (c0 h0 : Cert.Lstm.Mat 128 512) (a : ℕ)
    (hc : matS cI = (Cert.Lstm.state (matW W) Xg c0 h0 a).1) (hh : matS hI = (Cert.Lstm.state (matW W) Xg c0 h0 a).2)
    (hX : ∀ n, n < 8 → matX (slabAt (F := Ideal) X n) = Xg (a + n)) :
    matS (chain (F := Ideal) cI hI X W (7 + 1)).1 = (Cert.Lstm.state (matW W) Xg c0 h0 (a + 8)).1
    ∧ matS (chain (F := Ideal) cI hI X W (7 + 1)).2 = (Cert.Lstm.state (matW W) Xg c0 h0 (a + 8)).2
    ∧ (∀ (u : Fin 8) (b : Fin 128) (j : Fin 512),
        stack (F := Ideal) (fun t => (chain (F := Ideal) cI hI X W (t + 1)).1) (ix3 u b j)
          = (Cert.Lstm.state (matW W) Xg c0 h0 (a + (u.val + 1))).1 b j)
    ∧ (∀ (u : Fin 8) (b : Fin 128) (j : Fin 512),
        stack (F := Ideal) (fun t => (chain (F := Ideal) cI hI X W (t + 1)).2) (ix3 u b j)
          = (Cert.Lstm.state (matW W) Xg c0 h0 (a + (u.val + 1))).2 b j) := by
  refine ⟨(chunk cI hI X W Xg c0 h0 a hc hh hX 8 (le_refl 8)).1, (chunk cI hI X W Xg c0 h0 a hc hh hX 8 (le_refl 8)).2, ?_, ?_⟩
  · intro u b j
    have hu : u.val + 1 ≤ 8 := u.isLt
    exact congrFun (congrFun (chunk cI hI X W Xg c0 h0 a hc hh hX (u.val + 1) hu).1 b) j
  · intro u b j
    have hu : u.val + 1 ≤ 8 := u.isLt
    exact congrFun (congrFun (chunk cI hI X W Xg c0 h0 a hc hh hX (u.val + 1) hu).2 b) j

section Induction

variable (m : (ℓ : Loc nD τ sig) → Buf (Elt Ideal) ℓ) (c : Dev nD)
variable (Wv Wiv : Vec Ideal S512x2048 .bf16) (Bv : Vec Ideal S1x2048 .f32) (c0v h0v : Vec Ideal S128x512 .f32)

theorem lt8 (p : ℕ) : p % 8 < cfg0.N := lt_of_lt_of_eq (Nat.mod_lt p (by decide)) N_0.symm

/-- The eight slabs of input pre-activations chunk `p` computes from its block of embedding rows. -/
def Xp (p : ℕ) : Vec Ideal S8x128x2048 .f32 := k0_pay4 (F := Ideal) (iblk m c 0 ⟨p % 8, lt8 p⟩) Wiv Bv

/-- The input pre-activations of time step `n`, as the kernel computes them: slab n mod 8 of chunk n / 8. -/
def Xk (n : ℕ) : Cert.Lstm.Mat 128 2048 := matX (slabAt (F := Ideal) (Xp m c Wiv Bv (n / 8)) n)

/-- The specification's states over the kernel's own inputs, from the initial states it is given. -/
abbrev st (n : ℕ) : Cert.Lstm.Mat 128 512 × Cert.Lstm.Mat 128 512 :=
  Cert.Lstm.state (matW Wv) (Xk m c Wiv Bv) (matS c0v) (matS h0v) n

/-- What grid point `n` leaves, against the specification. -/
def Holds (n : ℕ) (hn : n < cfg0.N) : Prop :=
  matS (outsAt0 m c n hn).2.2.1 = (st m c Wv Wiv Bv c0v h0v (8 * n + 8)).1
  ∧ matS (outsAt0 m c n hn).2.2.2 = (st m c Wv Wiv Bv c0v h0v (8 * n + 8)).2
  ∧ (∀ (u : Fin 8) (b : Fin 128) (j : Fin 512),
      (outsAt0 m c n hn).1 (ix3 u b j) = (st m c Wv Wiv Bv c0v h0v (8 * n + (u.val + 1))).1 b j)
  ∧ (∀ (u : Fin 8) (b : Fin 128) (j : Fin 512),
      (outsAt0 m c n hn).2.1 (ix3 u b j) = (st m c Wv Wiv Bv c0v h0v (8 * n + (u.val + 1))).2 b j)

/-- The slabs of chunk `n` are the specification's inputs of steps 8n, 8n + 1, …. -/
theorem slabs_of_point (n : ℕ) (hn : n < cfg0.N) (k : ℕ) (hk : k < 8) :
    matX (slabAt (F := Ideal) (k0_pay4 (F := Ideal) (iblk m c 0 ⟨n, hn⟩) Wiv Bv) k) = Xk m c Wiv Bv (8 * n + k) := by
  have hn8 : n < 8 := lt_of_lt_of_eq hn N_0
  have e : (⟨n % 8, lt8 n⟩ : Fin cfg0.N) = ⟨n, hn⟩ := Fin.ext (Nat.mod_eq_of_lt hn8)
  unfold Xk Xp
  rw [show (8 * n + k) / 8 = n by omega, slabAt_add, e]

/-- Every grid point leaves what the specification says: by induction over the chunks, the first by the first case, every
    later one by the second case over what the chunk before left. -/
theorem inv (hWi : ∀ t : Fin cfg0.N, (iblk m c 1 t : Vec Ideal S512x2048 .bf16) = Wiv)
    (hW : ∀ t : Fin cfg0.N, (iblk m c 2 t : Vec Ideal S512x2048 .bf16) = Wv)
    (hB : ∀ t : Fin cfg0.N, (iblk m c 3 t : Vec Ideal S1x2048 .f32) = Bv)
    (hc0 : ∀ t : Fin cfg0.N, (iblk m c 4 t : Vec Ideal S128x512 .f32) = c0v)
    (hh0 : ∀ t : Fin cfg0.N, (iblk m c 5 t : Vec Ideal S128x512 .f32) = h0v) :
    ∀ (n : ℕ) (hn : n < cfg0.N), Holds m c Wv Wiv Bv c0v h0v n hn
  | 0, hn => by
    have h0 : (⟨0, hn⟩ : Fin cfg0.N).val % 8 = 0 := rfl
    have hA := outsAt0_A m c ⟨0, hn⟩ h0
    have e6 := Cert.KernelIdeal.CaseA.out6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
    have e7 := Cert.KernelIdeal.CaseA.out7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
    have eC := Cert.KernelIdeal.CaseA.carriedCell (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
    have eH := Cert.KernelIdeal.CaseA.carriedHid (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
    have hP := point (k0_pay2 (F := Ideal) c0v) (k0_pay3 (F := Ideal) h0v) (k0_pay4 (F := Ideal) (iblk m c 0 ⟨0, hn⟩) Wiv Bv) Wv
      (Xk m c Wiv Bv) (matS c0v) (matS h0v) (8 * 0)
      (congrArg matS (shapeCast_self c0v _)) (congrArg matS (shapeCast_self h0v _))
      (slabs_of_point m c Wiv Bv 0 hn)
    unfold Holds
    rw [show outsAt0 m c 0 hn = _ from hA]
    dsimp only
    rw [e6, e7, eC, eH, hWi, hW, hB, hc0, hh0]
    exact hP
  | n + 1, hn => by
    have hn8 : n + 1 < 8 := lt_of_lt_of_eq hn N_0
    have h0 : ¬ (⟨n + 1, hn⟩ : Fin cfg0.N).val % 8 = 0 := by
      show ¬ (n + 1) % 8 = 0
      omega
    have ih := inv hWi hW hB hc0 hh0 n (Nat.lt_of_succ_lt hn)
    obtain ⟨ihc, ihh, -, -⟩ := ih
    have hBq := outsAt0_B m c ⟨n + 1, hn⟩ h0
    have e6 := Cert.KernelIdeal.CaseB.out6 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2
    have e7 := Cert.KernelIdeal.CaseB.out7 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2
    have eC := Cert.KernelIdeal.CaseB.carriedCell (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2
    have eH := Cert.KernelIdeal.CaseB.carriedHid (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) scM0_0 (Memref.isWhole_whole _) scM0_1 (Memref.isWhole_whole _) scM0_2 (Memref.isWhole_whole _) (fun h => h0 ((hcond0_0 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2
    have hP := point (outsAt0 m c ((⟨n + 1, hn⟩ : Fin cfg0.N).val - 1) (Nat.lt_of_le_of_lt (Nat.sub_le _ _) (⟨n + 1, hn⟩ : Fin cfg0.N).isLt)).2.2.1
      (outsAt0 m c ((⟨n + 1, hn⟩ : Fin cfg0.N).val - 1) (Nat.lt_of_le_of_lt (Nat.sub_le _ _) (⟨n + 1, hn⟩ : Fin cfg0.N).isLt)).2.2.2
      (k0_pay4 (F := Ideal) (iblk m c 0 ⟨n + 1, hn⟩) Wiv Bv) Wv
      (Xk m c Wiv Bv) (matS c0v) (matS h0v) (8 * (n + 1)) ihc ihh
      (slabs_of_point m c Wiv Bv (n + 1) hn)
    unfold Holds
    rw [show outsAt0 m c (n + 1) hn = _ from hBq]
    dsimp only
    rw [e6, e7, eC, eH, hWi, hW, hB]
    exact hP

end Induction

end Cert.KernelIdeal.Points

end
-- ==== Proof.KernelRun.lean ====
/-
  From the kernel's blocks to its two result arrays.

  The kernel's grid has eight points; point p handles the eight time steps 8p … 8p + 7 and writes, to each of its two
  64 × 128 × 512 results, the block of rows 8p … 8p + 7. The eight blocks tile the 64 rows. So if what point p leaves
  in its output block is, row by row, rows 8p + u of some array G (the hypothesis: what the blocks hold is shown
  elsewhere), then after the run the result array is G.
-/
import proofs.«167809_g2000106098220206_pallasbulk_530_31_alg».proof.Proof.Gen.KernelIdeal.Value
import Idealize.ShloMosaic.Lib.ValueIdx
import Idealize.ShloMosaic.Lib.Pipeline.Value
import Idealize.ShloMosaic.Lib.Tactic

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Row `u` of the block of point `p` is time step 8p + u, one of the 64. -/
theorem row_lt (p : Fin cfg0.N) (u : Fin 8) : 8 * p.val + u.val < 64 := by
  have hp : p.val < 8 := lt_of_lt_of_eq p.isLt N_0
  have hu := u.isLt
  omega

/-- Where the two output blocks sit at point `t`: block `t` along the time axis, the whole of the other two axes. -/
theorem idx_facts : ∀ t : Fin cfg0.N,
    (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Point `t` writes back, to result 0, rows 8t … 8t + 7 of `GC c`. -/
theorem flushed6_eq (GC : Dev nD → S64x128x512.Idx → EReal)
    (hC : ∀ (c : Dev nD) (p : Fin cfg0.N) (u : Fin 8) (b : Fin 128) (j : Fin 512),
      (outsAt0 m c p.val p.isLt).1 (ix3 u b j) = GC c (ix3 (⟨8 * p.val + u.val, row_lt p u⟩ : Fin 64) b j))
    (c : Dev nD) (t : Fin cfg0.N) (hf : (cfg0.win 6).flush t = true) :
    (dats m 0 c).flushed 6 t = ((cfg0.win 6).blk t).view.read (Elt Ideal) (GC c) := by
  rw [Value.flushed6 m c t]
  funext y
  rw [View.read_apply]
  obtain ⟨e0, e1, e2⟩ := (idx_facts t).1
  have hy0 : (y 0).val < 8 := (y 0).isLt
  have hy1 : (y 1).val < 128 := (y 1).isLt
  have hy2 : (y 2).val < 512 := (y 2).isLt
  have hx : (cfg0.win 6).xinj (grid0.coords t) y
      = ix3 (⟨(y 0).val, hy0⟩ : Fin 8) (⟨(y 1).val, hy1⟩ : Fin 128) (⟨(y 2).val, hy2⟩ : Fin 512) :=
    funext fun a => match a with
      | ⟨0, _⟩ => rfl
      | ⟨1, _⟩ => rfl
      | ⟨2, _⟩ => rfl
  show (outsAt0 m c t.val t.isLt).1 ((cfg0.win 6).xinj (grid0.coords t) y) = GC c (((cfg0.win 6).blk t).view.emb y)
  rw [hx, hC c t ⟨(y 0).val, hy0⟩ ⟨(y 1).val, hy1⟩ ⟨(y 2).val, hy2⟩]
  congr 1
  funext a
  apply Fin.ext
  match a with
  | ⟨0, _⟩ => show 8 * t.val + (y 0).val = win0_6.index t 0 * 8 + 1 * (y 0).val; rw [e0]; omega
  | ⟨1, _⟩ => show (y 1).val = win0_6.index t 1 * 128 + 1 * (y 1).val; rw [e1]; omega
  | ⟨2, _⟩ => show (y 2).val = win0_6.index t 2 * 512 + 1 * (y 2).val; rw [e2]; omega

/-- The eight blocks of eight rows tile the 64 rows of result 0: after the run it is `GC c`. -/
theorem final6 (GC : Dev nD → S64x128x512.Idx → EReal)
    (hC : ∀ (c : Dev nD) (p : Fin cfg0.N) (u : Fin 8) (b : Fin 128) (j : Fin 512),
      (outsAt0 m c p.val p.isLt).1 (ix3 u b j) = GC c (ix3 (⟨8 * p.val + u.val, row_lt p u⟩ : Fin 64) b j))
    (c : Dev nD) : (dats m 0 c).arrAt 6 cfg0.N = GC c :=
  (dats m 0 c).arrAt_eq_of_cover 6 (GC c) (flushed6_eq m GC hC c) fun i => by
    have h0 : (i 0 : Nat) < 64 := (i 0).isLt
    have h1 : (i 1 : Nat) < 128 := (i 1).isLt
    have h2 : (i 2 : Nat) < 512 := (i 2).isLt
    have ht : (i 0 : Nat) / 8 < cfg0.N := lt_of_lt_of_eq (show (i 0 : Nat) / 8 < 8 by omega) N_0.symm
    refine ⟨⟨(i 0 : Nat) / 8, ht⟩, flush0_6 _, ?_⟩
    obtain ⟨e0, e1, e2⟩ := (idx_facts ⟨(i 0 : Nat) / 8, ht⟩).1
    show i ∈ ((View.whole main_v12_0).slice (win0_6.rect ⟨(i 0 : Nat) / 8, ht⟩)).set
    rw [View.set_slice_whole, Rect.mem_set_unit]
    intro a
    dsimp only at e0
    match a with
    | ⟨0, _⟩ =>
      show win0_6.index ⟨(i 0 : Nat) / 8, ht⟩ 0 * 8 ≤ (i 0 : Nat) ∧ (i 0 : Nat) < win0_6.index ⟨(i 0 : Nat) / 8, ht⟩ 0 * 8 + 8
      rw [e0]; omega
    | ⟨1, _⟩ =>
      show win0_6.index ⟨(i 0 : Nat) / 8, ht⟩ 1 * 128 ≤ (i 1 : Nat) ∧ (i 1 : Nat) < win0_6.index ⟨(i 0 : Nat) / 8, ht⟩ 1 * 128 + 128
      rw [e1]; omega
    | ⟨2, _⟩ =>
      show win0_6.index ⟨(i 0 : Nat) / 8, ht⟩ 2 * 512 ≤ (i 2 : Nat) ∧ (i 2 : Nat) < win0_6.index ⟨(i 0 : Nat) / 8, ht⟩ 2 * 512 + 512
      rw [e2]; omega

/-- Point `t` writes back, to result 1, rows 8t … 8t + 7 of `GH c`. -/
theorem flushed7_eq (GH : Dev nD → S64x128x512.Idx → EReal)
    (hH : ∀ (c : Dev nD) (p : Fin cfg0.N) (u : Fin 8) (b : Fin 128) (j : Fin 512),
      (outsAt0 m c p.val p.isLt).2.1 (ix3 u b j) = GH c (ix3 (⟨8 * p.val + u.val, row_lt p u⟩ : Fin 64) b j))
    (c : Dev nD) (t : Fin cfg0.N) (hf : (cfg0.win 7).flush t = true) :
    (dats m 0 c).flushed 7 t = ((cfg0.win 7).blk t).view.read (Elt Ideal) (GH c) := by
  rw [Value.flushed7 m c t]
  funext y
  rw [View.read_apply]
  obtain ⟨e0, e1, e2⟩ := (idx_facts t).2
  have hy0 : (y 0).val < 8 := (y 0).isLt
  have hy1 : (y 1).val < 128 := (y 1).isLt
  have hy2 : (y 2).val < 512 := (y 2).isLt
  have hx : (cfg0.win 7).xinj (grid0.coords t) y
      = ix3 (⟨(y 0).val, hy0⟩ : Fin 8) (⟨(y 1).val, hy1⟩ : Fin 128) (⟨(y 2).val, hy2⟩ : Fin 512) :=
    funext fun a => match a with
      | ⟨0, _⟩ => rfl
      | ⟨1, _⟩ => rfl
      | ⟨2, _⟩ => rfl
  show (outsAt0 m c t.val t.isLt).2.1 ((cfg0.win 7).xinj (grid0.coords t) y) = GH c (((cfg0.win 7).blk t).view.emb y)
  rw [hx, hH c t ⟨(y 0).val, hy0⟩ ⟨(y 1).val, hy1⟩ ⟨(y 2).val, hy2⟩]
  congr 1
  funext a
  apply Fin.ext
  match a with
  | ⟨0, _⟩ => show 8 * t.val + (y 0).val = win0_7.index t 0 * 8 + 1 * (y 0).val; rw [e0]; omega
  | ⟨1, _⟩ => show (y 1).val = win0_7.index t 1 * 128 + 1 * (y 1).val; rw [e1]; omega
  | ⟨2, _⟩ => show (y 2).val = win0_7.index t 2 * 512 + 1 * (y 2).val; rw [e2]; omega

/-- The eight blocks of eight rows tile the 64 rows of result 1: after the run it is `GH c`. -/
theorem final7 (GH : Dev nD → S64x128x512.Idx → EReal)
    (hH : ∀ (c : Dev nD) (p : Fin cfg0.N) (u : Fin 8) (b : Fin 128) (j : Fin 512),
      (outsAt0 m c p.val p.isLt).2.1 (ix3 u b j) = GH c (ix3 (⟨8 * p.val + u.val, row_lt p u⟩ : Fin 64) b j))
    (c : Dev nD) : (dats m 0 c).arrAt 7 cfg0.N = GH c :=
  (dats m 0 c).arrAt_eq_of_cover 7 (GH c) (flushed7_eq m GH hH c) fun i => by
    have h0 : (i 0 : Nat) < 64 := (i 0).isLt
    have h1 : (i 1 : Nat) < 128 := (i 1).isLt
    have h2 : (i 2 : Nat) < 512 := (i 2).isLt
    have ht : (i 0 : Nat) / 8 < cfg0.N := lt_of_lt_of_eq (show (i 0 : Nat) / 8 < 8 by omega) N_0.symm
    refine ⟨⟨(i 0 : Nat) / 8, ht⟩, flush0_7 _, ?_⟩
    obtain ⟨e0, e1, e2⟩ := (idx_facts ⟨(i 0 : Nat) / 8, ht⟩).2
    show i ∈ ((View.whole main_v12_1).slice (win0_7.rect ⟨(i 0 : Nat) / 8, ht⟩)).set
    rw [View.set_slice_whole, Rect.mem_set_unit]
    intro a
    dsimp only at e0
    match a with
    | ⟨0, _⟩ =>
      show win0_7.index ⟨(i 0 : Nat) / 8, ht⟩ 0 * 8 ≤ (i 0 : Nat) ∧ (i 0 : Nat) < win0_7.index ⟨(i 0 : Nat) / 8, ht⟩ 0 * 8 + 8
      rw [e0]; omega
    | ⟨1, _⟩ =>
      show win0_7.index ⟨(i 0 : Nat) / 8, ht⟩ 1 * 128 ≤ (i 1 : Nat) ∧ (i 1 : Nat) < win0_7.index ⟨(i 0 : Nat) / 8, ht⟩ 1 * 128 + 128
      rw [e1]; omega
    | ⟨2, _⟩ =>
      show win0_7.index ⟨(i 0 : Nat) / 8, ht⟩ 2 * 512 ≤ (i 2 : Nat) ∧ (i 2 : Nat) < win0_7.index ⟨(i 0 : Nat) / 8, ht⟩ 2 * 512 + 512
      rw [e2]; omega

/-- THE RUN, over what the blocks hold. If point p leaves rows 8p … 8p + 7 of `GC c` in its first output block and of
    `GH c` in its second, then every weakly fair execution of the program terminates with the first result at `GC c`, the
    second at `GH c`, and the eight arguments unchanged. -/
theorem run_of (GC GH : Dev nD → S64x128x512.Idx → EReal)
    (hC : ∀ (c : Dev nD) (p : Fin cfg0.N) (u : Fin 8) (b : Fin 128) (j : Fin 512),
      (outsAt0 m c p.val p.isLt).1 (ix3 u b j) = GC c (ix3 (⟨8 * p.val + u.val, row_lt p u⟩ : Fin 64) b j))
    (hH : ∀ (c : Dev nD) (p : Fin cfg0.N) (u : Fin 8) (b : Fin 128) (j : Fin 512),
      (outsAt0 m c p.val p.isLt).2.1 (ix3 u b j) = GH c (ix3 (⟨8 * p.val + u.val, row_lt p u⟩ : Fin 64) b j)) :
    θ_run defs (onTc (τ := τ) (main (F := Ideal))) ⟨m, fun _ => 0, ρ⟩ fun r => ∀ c : Dev nD,
      r.2.mem ((c : Thread nD τ).loc main_v12_0) = GC c
      ∧ r.2.mem ((c : Thread nD τ).loc main_v12_1) = GH c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(h c).1.trans (final6 m GC hC c), (h c).2.1.trans (final7 m GH hH c), (h c).2.2⟩)
    (Value.run_blocks m ρ)

end Cert.KernelIdeal.KValue

end
-- ==== Proof.Rows.lean ====
/-
  The table row a token word names.

  A token is a signed 32-bit word. Both programs first normalise it the way array indexing does: a negative word
  has the table's height 16384 added, any other word is kept. Taking a row then reads the normalised word as a
  signed integer and clamps it into [0, 16383]. For a token in [-16384, 16384) the normalised word is already a row
  number, so the clamp does nothing.
-/
import Idealize.ShloMosaic.Lib.ValueIdx

noncomputable section

namespace Cert.Lstm.Rows

open Idealize.ShloMosaic Idealize.ShloMosaic.ValueIdx

/-- The normalisation of a token word: 16384 is added to a negative word, any other word is kept. -/
def norm (w : BitVec 32) : BitVec 32 :=
  Scalar.select (IntOp.cmpi .slt w 0#32) (IntOp.addi w 16384#32) w

/-- The row a token word names: its normalisation read signed and clamped into [0, 16383]. -/
def rowOf (w : BitVec 32) : Fin 16384 :=
  ⟨min (norm w).toInt.toNat 16383, by omega⟩

/-- The row of the token of sequence `b` at step `n` (row 0 past the last step). -/
def rowAt (tok : (⟨2, ![64, 128]⟩ : Shape).Idx → BitVec 32) : ℕ → Fin 128 → Fin 16384 :=
  fun n b => if h : n < 64 then rowOf (tok (ValueIdx.ix2 ⟨n, h⟩ b)) else 0

theorem rowAt_of_lt (tok : (⟨2, ![64, 128]⟩ : Shape).Idx → BitVec 32) (n : Fin 64) (b : Fin 128) :
    rowAt tok n.val b = rowOf (tok (ValueIdx.ix2 n b)) := by
  unfold rowAt
  rw [dif_pos n.isLt]

/-- The sign test on a negative word. -/
theorem slt_zero_of_neg (w : BitVec 32) (h : w.toInt < 0) : IntOp.cmpi .slt w 0#32 = 1#1 := by
  have : w.slt 0#32 = true := by
    rw [BitVec.slt_eq_decide]
    simp only [BitVec.toInt_zero, decide_eq_true_eq]
    exact h
  simp [IntOp.cmpi, this]

/-- The sign test on a word that is not negative. -/
theorem slt_zero_of_nonneg (w : BitVec 32) (h : 0 ≤ w.toInt) : IntOp.cmpi .slt w 0#32 = 0#1 := by
  have : w.slt 0#32 = false := by
    rw [BitVec.slt_eq_decide]
    simp only [BitVec.toInt_zero, decide_eq_false_iff_not, not_lt]
    exact h
  simp [IntOp.cmpi, this]

/-- A word that is not negative is kept. -/
theorem norm_of_nonneg (w : BitVec 32) (h : 0 ≤ w.toInt) : norm w = w := by
  unfold norm
  rw [slt_zero_of_nonneg w h, select_zero]

/-- A negative word has 16384 added. -/
theorem norm_of_neg (w : BitVec 32) (h : w.toInt < 0) : norm w = w + 16384#32 := by
  unfold norm
  rw [slt_zero_of_neg w h, select_one]
  rfl

/-- Adding 16384 to a word in [-16384, 0) does not wrap: the sum reads as the integer sum. -/
theorem toInt_add_height (w : BitVec 32) (h0 : -16384 ≤ w.toInt) (h1 : w.toInt < 0) :
    (w + 16384#32).toInt = w.toInt + 16384 := by
  have e1 := BitVec.toInt_eq_toNat_cond w
  have e2 := BitVec.toInt_eq_toNat_cond (w + 16384#32)
  have e3 : (w + 16384#32).toNat = (w.toNat + 16384) % 2 ^ 32 := by
    rw [BitVec.toNat_add]; rfl
  have := w.isLt
  omega

/-- The normalised word of a token in [-16384, 16384), read signed: the token itself, or the token plus 16384. -/
theorem norm_toInt (w : BitVec 32) (h : -16384 ≤ w.toInt ∧ w.toInt < 16384) :
    (norm w).toInt = if w.toInt < 0 then w.toInt + 16384 else w.toInt := by
  by_cases hn : w.toInt < 0
  · rw [if_pos hn, norm_of_neg w hn, toInt_add_height w h.1 hn]
  · rw [if_neg hn, norm_of_nonneg w (by omega)]

/-- The normalised word of a token in [-16384, 16384) is a row number. -/
theorem inRange_norm (w : BitVec 32) (h : -16384 ≤ w.toInt ∧ w.toInt < 16384) :
    0 ≤ (norm w).toInt ∧ (norm w).toInt ≤ 16383 := by
  rw [norm_toInt w h]
  split <;> omega

/-- For a token in [-16384, 16384) the clamp does nothing: the row is the normalised word. -/
theorem rowOf_val (w : BitVec 32) (h : -16384 ≤ w.toInt ∧ w.toInt < 16384) :
    ((rowOf w).val : Int) = (norm w).toInt := by
  have := inRange_norm w h
  show ((min (norm w).toInt.toNat 16383 : Nat) : Int) = _
  omega

end Cert.Lstm.Rows

end
-- ==== Proof.LibRowGatherScatter.lean ====
/-
  Rows taken and rows added, read at coordinates.

  `x[idx]` of a flat array `[N]` and of a matrix `[N, D]` at a column `[M, 1]` of integer row numbers (a gather that
  collapses axis 0): element `e` (row `e`) of the result is the operand's element (row) whose number is the word
  `idx[e, 0]` read signed and clamped into `[0, N − 1]`.
  A scatter-add of `M` rows of width `D` into the rows of an `[N, D]` array at row numbers `idx : [M, 1]`: update
  element `(e, d')` lands on `(n, d)` only if the word `idx[e, 0]`, read signed and NOT clamped, is `n`, and `d' = d`.
  Hence: on a row that an update lands on, taking row `idx[e, 0]` (after the usual "add N to a negative number"
  normalisation) of any array gives row `n` of it.
  All at any extents; the dimension numbers' conditions are a hypothesis, decided on a program's literal shapes.
-/
import Idealize.ShloMosaic.Lib.ValueIdx
import Idealize.ShloMosaic.PureOps.ShapeOps

noncomputable section

open Idealize.ShloMosaic Idealize.ShloMosaic.ValueIdx

namespace Cert.Lib.RowGatherScatter

variable {α : Type}

/-! ## Taking elements of a flat array -/

/-- The dimension numbers of `x[idx]` for `x : [N]`, `idx : [M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Element `e` of `x[idx]` is `x` at the word `idx[e, 0]` read signed and clamped into `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0 + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Taking rows of a matrix -/

/-- The dimension numbers of `x[idx]` for `x : [N, D]`, `idx : [M, 1]`, result `[M, D]`. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, d)` of `x[idx]` is `x` at row `idx[e, 0]` (read signed, clamped into `[0, N − 1]`), column `d`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (rowDims N D M wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ =>
    show (rowDims N D M wf).start (ix2 e d) idx 0 + (rowDims N D M wf).batchCoord (ix2 e d) 0
      + (rowDims N D M wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e d) ⟨List.idxOf (0 : Fin 2) (rowDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D M wf).start (ix2 e d) idx 1 + (rowDims N D M wf).batchCoord (ix2 e d) 1
      + (rowDims N D M wf).offCoord (ix2 e d) 1 = d.val
    have h1 : (rowDims N D M wf).start (ix2 e d) idx 1 = 0 := by
      unfold GatherDims.start; exact dif_neg (show (1 : Fin 2) ∉ ([0] : List (Fin 2)) from by decide)
    have h3 : (rowDims N D M wf).offCoord (ix2 e d) 1 = d.val := rfl
    rw [h1, GatherDims.batchCoord_eq_zero _ _ _ List.not_mem_nil, h3]
    omega

/-! ## Adding rows into a matrix -/

/-- The dimension numbers of `x.at[idx].add(u)` (a row-wise segment sum) for `x : [N, D]`, `idx : [M, 1]`, `u : [M, D]`. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- An update entry `(e, d')` lands on `(n, d)` only if the row number `idx[e, 0]`, read signed, is `n`, and `d' = d`. -/
theorem scatter_rows_hit {N D M w : Nat} (wf : ScatterDims.WF ⟨2, ![N, D]⟩ ⟨2, ![M, 1]⟩ ⟨2, ![M, D]⟩ [1] [0] [0] 1)
    (idx : IVec ⟨2, ![M, 1]⟩ w) (e : Fin M) (d' : Fin D) (n : Fin N) (d : Fin D)
    (h : (rowAddDims N D M wf).resultIdx? (ix2 e d') idx = some (ix2 n d)) :
    (idx (ix2 e (0 : Fin 1))).toInt = (n.val : Int) ∧ d' = d := by
  unfold ScatterDims.resultIdx? at h
  split at h
  · rename_i hin
    have hf := Option.some.inj h
    have h0 : ((rowAddDims N D M wf).start (ix2 e d') idx 0 + ((rowAddDims N D M wf).window (ix2 e d') 0 : Int)).toNat = n.val :=
      congrArg (fun f => (f 0).val) hf
    have h1 : ((rowAddDims N D M wf).start (ix2 e d') idx 1 + ((rowAddDims N D M wf).window (ix2 e d') 1 : Int)).toNat = d.val :=
      congrArg (fun f => (f 1).val) hf
    have g0 := (hin 0).1
    have hs0 : (rowAddDims N D M wf).start (ix2 e d') idx 0 = (idx (ix2 e (0 : Fin 1))).toInt := by
      unfold ScatterDims.start
      rw [dif_pos (show (0 : Fin 2) ∈ (rowAddDims N D M wf).scatterDimsToOperandDims from List.mem_singleton.mpr rfl)]
      have hsi : (rowAddDims N D M wf).siIdx (ix2 e d') ⟨List.idxOf (0 : Fin 2) (rowAddDims N D M wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowAddDims N D M wf).window (ix2 e d') 0 = 0 := rfl
    have hs1 : (rowAddDims N D M wf).start (ix2 e d') idx 1 = 0 := by
      unfold ScatterDims.start; exact dif_neg (show (1 : Fin 2) ∉ ([0] : List (Fin 2)) from by decide)
    have hw1 : (rowAddDims N D M wf).window (ix2 e d') 1 = d'.val := rfl
    rw [hs0, hw0] at h0 g0
    rw [hs1, hw1] at h1
    refine ⟨by omega, Fin.ext (by omega)⟩
  · exact absurd h (by simp)

/-! ## A row number that a scatter accepts is taken unchanged by a gather -/

/-- A 32-bit row number that reads signed as `n < N` (so it is not negative) is left alone by the normalisation
    "if negative add `N`", and the gather's clamp gives `n`. -/
theorem normalised_row {N : Nat} (c : BitVec 32) (Nw : BitVec 32) (n : Fin N) (hc : c.toInt = (n.val : Int)) :
    min (Scalar.select (IntOp.cmpi .slt c 0#32) (IntOp.addi c Nw) c).toInt.toNat (N - 1) = n.val := by
  have hslt : IntOp.cmpi .slt c 0#32 = 0#1 := by
    have : c.slt 0#32 = false := by
      rw [BitVec.slt_eq_decide]
      simp only [BitVec.toInt_zero, decide_eq_false_iff_not, not_lt]
      omega
    simp [IntOp.cmpi, this]
  rw [hslt, select_zero, hc]
  have := n.isLt
  omega

end Cert.Lib.RowGatherScatter

end
-- ==== Proof.KernelHost.lean ====
/-
  The arrays the idealized kernel's region finds, read at coordinates.

  Before its one region the program flattens the 64 × 128 tokens to 8192 words, normalises each (a negative word has
  the table's height added), takes the table row each names (the row number read signed and clamped), and reshapes
  the 8192 × 512 rows back to 64 × 128 × 512: entry (n, b, k) is entry k of the table row that the token of step n,
  sequence b names. The two biases are added once, and the two weight matrices only change their float format, which
  changes nothing on the extended reals. None of this needs the tokens to be in range.
-/
import proofs.«167809_g2000106098220206_pallasbulk_530_31_alg».proof.Proof.Gen.KernelIdeal.Frame.Runs
import proofs.«167809_g2000106098220206_pallasbulk_530_31_alg».proof.Proof.Rows
import proofs.«167809_g2000106098220206_pallasbulk_530_31_alg».proof.Proof.LibRowGatherScatter
import Idealize.ShloMosaic.Lib.Pipeline.Value
import Idealize.ShloMosaic.Lib.ValueLayout
import Idealize.ShloMosaic.Lib.IdealHost

noncomputable section

namespace Cert.KernelIdeal.HostValue

open Cert.KernelIdeal Cert.KernelIdeal.Gen Idealize.ShloMosaic Idealize.ShloMosaic.TcCoe
open Idealize.ShloMosaic.ValueIdx Cert.Lstm

/-- The 8192 flattened token words, each normalised. -/
def normVec (t : IVec S8192 32) : IVec S8192 32 :=
  select (cmpi .slt t (broadcastInDim S8192 ![] bcast_S_S8192 (constantI S_ 32 0#32)))
    (addi t (broadcastInDim S8192 ![] bcast_S_S8192 (constantI S_ 32 16384#32))) t

/-- Word by word, that is the normalisation of a token word. -/
theorem normVec_apply (t : IVec S8192 32) (i : S8192.Idx) : normVec t i = Rows.norm (t i) := by
  show Scalar.select (IntOp.cmpi .slt (t i) (broadcastInDim S8192 ![] bcast_S_S8192 (constantI S_ 32 0#32) i))
    (IntOp.addi (t i) (broadcastInDim S8192 ![] bcast_S_S8192 (constantI S_ 32 16384#32) i)) (t i) = _
  rw [broadcastInDim_scalar_apply, broadcastInDim_scalar_apply]
  rfl

/-- The rows taken, reshaped to steps × sequences × 512. -/
def taken (tab : S16384x512.Idx → EReal) (tok : S64x128.Idx → BitVec 32) : S64x128x512.Idx → EReal :=
  shapeCast S64x128x512
    (Host.gather gather_S16384x512_S8192x1_S8192x512_1_0_n_n_0_1_1512 tab
      (broadcastInDim S8192x1 ![0] bcast_S8192_S8192x1_0 (normVec (shapeCast S8192 tok shapeCasts_S64x128_S8192))))
    shapeCasts_S8192x512_S64x128x512

/-- Entry (n, b, k) of the rows taken is entry k of the table row the token of step n, sequence b names. -/
theorem taken_apply (tab : S16384x512.Idx → EReal) (tok : S64x128.Idx → BitVec 32) (n : Fin 64) (b : Fin 128)
    (k : Fin 512) : taken tab tok (ix3 n b k) = tab (ix2 (Rows.rowAt tok n.val b) k) := by
  have hn := n.isLt
  have hb := b.isLt
  have he : n.val * 128 + b.val < 8192 := by omega
  unfold taken
  -- the reshape: position ((n·128 + b)·512 + k) of the 8192 × 512 rows
  refine (shapeCast_apply _ shapeCasts_S8192x512_S64x128x512 (ix3 n b k) (ix2 (⟨n.val * 128 + b.val, he⟩ : Fin 8192) k) ?_).trans ?_
  · rw [Shape.rowMajor_val_two, Shape.rowMajor_val_three]
    show (n.val * 128 + b.val) * 512 + k.val = (n.val * 128 + b.val) * 512 + k.val
    rfl
  -- the row taken: the index word read signed and clamped
  refine (Cert.Lib.RowGatherScatter.gather_rows_apply (N := 16384) (D := 512) (M := 8192) (by decide)
    gather_S16384x512_S8192x1_S8192x512_1_0_n_n_0_1_1512_wf tab _ (⟨n.val * 128 + b.val, he⟩ : Fin 8192) k).trans ?_
  -- the index word: the normalised token
  have hidx : broadcastInDim S8192x1 ![0] bcast_S8192_S8192x1_0 (normVec (shapeCast S8192 tok shapeCasts_S64x128_S8192))
      (ix2 (⟨n.val * 128 + b.val, he⟩ : Fin 8192) (0 : Fin 1)) = Rows.norm (tok (ix2 n b)) := by
    refine (broadcastInDim_apply ![0] bcast_S8192_S8192x1_0 _ (ix2 (⟨n.val * 128 + b.val, he⟩ : Fin 8192) (0 : Fin 1))
      (ix1 (⟨n.val * 128 + b.val, he⟩ : Fin 8192)) (fun a => match a with | ⟨0, _⟩ => rfl)).trans ?_
    rw [normVec_apply]
    refine congrArg Rows.norm ?_
    refine shapeCast_apply tok shapeCasts_S64x128_S8192 (ix1 (⟨n.val * 128 + b.val, he⟩ : Fin 8192)) (ix2 n b) ?_
    rw [Shape.rowMajor_val_two, Shape.rowMajor_val_one]
    rfl
  rw [Rows.rowAt_of_lt]
  refine congrArg tab (congrArg (fun r => ix2 r k) (Fin.ext ?_))
  show min (broadcastInDim S8192x1 ![0] bcast_S8192_S8192x1_0 (normVec (shapeCast S8192 tok shapeCasts_S64x128_S8192))
      (ix2 (⟨n.val * 128 + b.val, he⟩ : Fin 8192) (0 : Fin 1))).toInt.toNat (16384 - 1)
    = min (Rows.norm (tok (ix2 n b))).toInt.toNat 16383
  rw [hidx]

variable (m : (ℓ : Loc nD τ sig) → Buf (Elt Ideal) ℓ)

/-- The embedded inputs as the region finds them. -/
theorem xemb_eq (c : Dev nD) : (V m c main_v8 : S64x128x512.Idx → EReal)
    = taken (m ((c : Thread nD τ).loc main_arg3)) (m ((c : Thread nD τ).loc main_arg0)) := by
  dsimp only [Gen.V, Gen.hostOps0]
  after_results
  all_goals rfl

/-- Entry (n, b, k) of the embedded inputs is entry k of the table row the token of step n, sequence b names. -/
theorem xemb_apply (c : Dev nD) (n : Fin 64) (b : Fin 128) (k : Fin 512) :
    V m c main_v8 (ix3 n b k) = m ((c : Thread nD τ).loc main_arg3)
      (ix2 (Rows.rowAt (m ((c : Thread nD τ).loc main_arg0)) n.val b) k) := by
  rw [xemb_eq]
  exact taken_apply _ _ n b k

/-- The bias row the region finds is the sum of the two bias rows. -/
theorem bias_eq (c : Dev nD) : (V m c main_v9 : S1x2048.Idx → EReal)
    = addf (F := Ideal) (φ := .f32) (m ((c : Thread nD τ).loc main_arg5) : S1x2048.Idx → EReal) (m ((c : Thread nD τ).loc main_arg7) : S1x2048.Idx → EReal) := by
  dsimp only [Gen.V, Gen.hostOps0]
  after_results
  all_goals rfl

theorem bias_apply (c : Dev nD) (q : Fin 2048) :
    V m c main_v9 (ix2 (0 : Fin 1) q) = @HAdd.hAdd EReal EReal EReal _ (m ((c : Thread nD τ).loc main_arg5) (ix2 (0 : Fin 1) q))
      (m ((c : Thread nD τ).loc main_arg7) (ix2 (0 : Fin 1) q)) := by
  rw [bias_eq]
  rfl

/-- The input weights the region finds are the input weights: a change of float format is the identity. -/
theorem wi_eq (c : Dev nD) : (V m c main_v10 : S512x2048.Idx → EReal)
    = truncf (F := Ideal) (φ := .f32) .bf16 (m ((c : Thread nD τ).loc main_arg4) : S512x2048.Idx → EReal) bitsLt_bf16_f32 := by
  dsimp only [Gen.V, Gen.hostOps0]
  after_results
  all_goals rfl

theorem wi_apply (c : Dev nD) (k : Fin 512) (q : Fin 2048) :
    V m c main_v10 (ix2 k q) = m ((c : Thread nD τ).loc main_arg4) (ix2 k q) := by
  rw [wi_eq]
  rfl

/-- The recurrent weights the region finds are the recurrent weights. -/
theorem wh_eq (c : Dev nD) : (V m c main_v11 : S512x2048.Idx → EReal)
    = truncf (F := Ideal) (φ := .f32) .bf16 (m ((c : Thread nD τ).loc main_arg6) : S512x2048.Idx → EReal) bitsLt_bf16_f32 := by
  dsimp only [Gen.V, Gen.hostOps0]
  after_results
  all_goals rfl

theorem wh_apply (c : Dev nD) (k : Fin 512) (q : Fin 2048) :
    V m c main_v11 (ix2 k q) = m ((c : Thread nD τ).loc main_arg6) (ix2 k q) := by
  rw [wh_eq]
  rfl

end Cert.KernelIdeal.HostValue

end
-- ==== Proof.KernelInputs.lean ====
/-
  What the idealized kernel's body reads at a grid point, and the input pre-activations it computes from it.

  The region has eight grid points; point p works on the eight time steps 8p … 8p + 7. Its first window hands the body
  rows 8p … 8p + 7 of the 64 × 128 × 512 embedded inputs; the other five input windows hand it whole arrays (the two
  weight matrices, the summed bias row, the two initial states) at every point. The body first lays its eight steps'
  rows out as 1024 rows of 512, multiplies them by the input weights and adds the bias row to every row:
  entry (t, b, q) is  Σ_k x[t, b, k] · wi[k, q] + bias[q],  which for the arrays the region finds is the
  specification's input pre-activation of step 8p + t.
-/
import proofs.«167809_g2000106098220206_pallasbulk_530_31_alg».proof.Proof.Gen.KernelIdeal.Frame
import proofs.«167809_g2000106098220206_pallasbulk_530_31_alg».proof.Proof.KernelHost
import proofs.«167809_g2000106098220206_pallasbulk_530_31_alg».proof.Proof.Spec
import proofs.«167809_g2000106098220206_pallasbulk_530_31_alg».proof.Proof.Rows
import Idealize.ShloMosaic.Lib.Pipeline.Value
import Idealize.ShloMosaic.Lib.ValueLayout
import Idealize.ShloMosaic.PureOps.Ideal.Laws

noncomputable section

namespace Cert.KernelIdeal.HostValue

open Cert.KernelIdeal Cert.KernelIdeal.Gen Idealize.ShloMosaic Idealize.ShloMosaic.TcCoe
open Idealize.ShloMosaic.ValueIdx Cert.Lstm

/-! ## The body's first product -/

/-- The product of the 1024 laid-out rows with the input weights at (r, q): the sum over the 512 columns. -/
theorem xW_apply (a : FVec Ideal S1024x512 .bf16) (w : FVec Ideal S512x2048 .bf16) (r : Fin 1024) (q : Fin 2048) :
    FloatOps.matmul dot_S1024x512_S512x2048_S1024x2048_1_0_0_1_n_n none a w (constant (F := Ideal) S1024x2048 .f32 0x00000000#32) (ix2 r q)
      = ∑ k : Fin 512, a (ix2 r k) * w (ix2 k q) := by
  rw [Ideal.matmul_constant_zero_apply, ← Equiv.sum_comp (contrEquiv1 dot_S1024x512_S512x2048_S1024x2048_1_0_0_1_n_n 512 rfl rfl).symm]
  refine Finset.sum_congr rfl fun c _ => ?_
  have c2 := contrEquiv1_symm_val dot_S1024x512_S512x2048_S1024x2048_1_0_0_1_n_n 512 rfl rfl c
  have l2 : dot_S1024x512_S512x2048_S1024x2048_1_0_0_1_n_n.lhsIdx (ix2 r q) ((contrEquiv1 _ 512 rfl rfl).symm c) = ix2 r c := by
    funext ax; apply Fin.ext
    match ax with
    | ⟨0, _⟩ => simp [DotDims.lhsIdx, dot_S1024x512_S512x2048_S1024x2048_1_0_0_1_n_n]; rfl
    | ⟨1, _⟩ => simp [DotDims.lhsIdx, dot_S1024x512_S512x2048_S1024x2048_1_0_0_1_n_n]; exact c2
  have r2 : dot_S1024x512_S512x2048_S1024x2048_1_0_0_1_n_n.rhsIdx (ix2 r q) ((contrEquiv1 _ 512 rfl rfl).symm c) = ix2 c q := by
    funext ax; apply Fin.ext
    match ax with
    | ⟨0, _⟩ => simp [DotDims.rhsIdx, dot_S1024x512_S512x2048_S1024x2048_1_0_0_1_n_n]; exact c2
    | ⟨1, _⟩ => simp [DotDims.rhsIdx, dot_S1024x512_S512x2048_S1024x2048_1_0_0_1_n_n]; rfl
  rw [l2, r2]

/-- The input pre-activations the body computes, at step t of the point, sequence b, gate column q. -/
theorem pre_apply (x0 : FVec Ideal S8x128x512 .f32) (x1 : FVec Ideal S512x2048 .bf16) (x3 : FVec Ideal S1x2048 .f32)
    (t : Fin 8) (b : Fin 128) (q : Fin 2048) :
    k0_pay4 (F := Ideal) x0 x1 x3 (ix3 t b q)
      = (∑ k : Fin 512, x0 (ix3 t b k) * x1 (ix2 k q)) + x3 (ix2 (0 : Fin 1) q) := by
  have ht := t.isLt
  have hb := b.isLt
  have hr : t.val * 128 + b.val < 1024 := by omega
  unfold k0_pay4
  simp only [shapeCast_self]
  -- row 128·t + b of the 1024 laid-out rows
  refine (shapeCast_apply _ shapeCasts_S1024x2048_S8x128x2048 (ix3 t b q) (ix2 (⟨t.val * 128 + b.val, hr⟩ : Fin 1024) q) ?_).trans ?_
  · rw [Shape.rowMajor_val_two, Shape.rowMajor_val_three]
    rfl
  refine (addf_apply _ _ _).trans ?_
  refine congrArg₂ (· + ·) ?_ ?_
  · refine (xW_apply _ _ (⟨t.val * 128 + b.val, hr⟩ : Fin 1024) q).trans (Finset.sum_congr rfl fun k _ => ?_)
    have e : shapeCast S1024x512 x0 shapeCasts_S8x128x512_S1024x512 (ix2 (⟨t.val * 128 + b.val, hr⟩ : Fin 1024) k)
        = x0 (ix3 t b k) :=
      shapeCast_apply x0 shapeCasts_S8x128x512_S1024x512 (ix2 (⟨t.val * 128 + b.val, hr⟩ : Fin 1024) k) (ix3 t b k)
        (by rw [Shape.rowMajor_val_two, Shape.rowMajor_val_three]; rfl)
    exact congrArg (fun z : Ideal .f32 => z * x1 (ix2 k q)) e
  · exact broadcastTo_1b_ab_apply x3 broadcasts_S1x2048_S1024x2048 (⟨t.val * 128 + b.val, hr⟩ : Fin 1024) q

/-! ## The blocks the windows hand the body -/

variable (m : (ℓ : Loc nD τ sig) → Buf (Elt Ideal) ℓ)

/-- Time step t of grid point p, among the 64 steps. -/
def stepOf (p : Fin cfg0.N) (t : Fin 8) : Fin 64 :=
  ⟨8 * p.val + t.val, by have h : p.val < 8 := lt_of_lt_of_eq p.isLt N_0; have := t.isLt; omega⟩

theorem stepOf_val (p : Fin cfg0.N) (t : Fin 8) : (stepOf p t).val = 8 * p.val + t.val := rfl

/-- The printed index maps, decided over the eight points: the first window moves one block of eight steps per point,
    the others stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The first window's block at point p is rows 8p … 8p + 7 of the embedded inputs. -/
theorem xblk_apply (c : Dev nD) (p : Fin cfg0.N) (t : Fin 8) (b : Fin 128) (k : Fin 512) :
    iblk m c 0 p (ix3 t b k) = V m c main_v8 (ix3 (stepOf p t) b k) := by
  obtain ⟨e0, e1, e2, -⟩ := idx_facts p
  show V m c main_v8 (((cfg0.win 0).blk p).view.emb (ix3 t b k)) = _
  refine congrArg (V m c main_v8) (funext fun a => Fin.ext ?_)
  match a with
  | ⟨0, _⟩ => show win0_0.index p (0 : Fin 3) * 8 + 1 * t.val = 8 * p.val + t.val; omega
  | ⟨1, _⟩ => show win0_0.index p (1 : Fin 3) * 128 + 1 * b.val = b.val; omega
  | ⟨2, _⟩ => show win0_0.index p (2 : Fin 3) * 512 + 1 * k.val = k.val; omega

/-- The second window hands the body the whole input weights at every point. -/
theorem wiblk_eq (c : Dev nD) (p : Fin cfg0.N) : iblk m c 1 p = V m c main_v10 := by
  obtain ⟨-, -, -, e0, e1, -⟩ := idx_facts p
  funext j
  show V m c main_v10 (((cfg0.win 1).blk p).view.emb j) = _
  refine congrArg (V m c main_v10) (funext fun a => Fin.ext ?_)
  match a with
  | ⟨0, _⟩ => show win0_1.index p (0 : Fin 2) * 512 + 1 * (j 0).val = (j 0).val; omega
  | ⟨1, _⟩ => show win0_1.index p (1 : Fin 2) * 2048 + 1 * (j 1).val = (j 1).val; omega

/-- The third window hands the body the whole recurrent weights at every point. -/
theorem whblk_eq (c : Dev nD) (p : Fin cfg0.N) : iblk m c 2 p = V m c main_v11 := by
  obtain ⟨-, -, -, -, -, e0, e1, -⟩ := idx_facts p
  funext j
  show V m c main_v11 (((cfg0.win 2).blk p).view.emb j) = _
  refine congrArg (V m c main_v11) (funext fun a => Fin.ext ?_)
  match a with
  | ⟨0, _⟩ => show win0_2.index p (0 : Fin 2) * 512 + 1 * (j 0).val = (j 0).val; omega
  | ⟨1, _⟩ => show win0_2.index p (1 : Fin 2) * 2048 + 1 * (j 1).val = (j 1).val; omega

/-- The fourth window hands the body the whole summed bias row at every point. -/
theorem biasblk_eq (c : Dev nD) (p : Fin cfg0.N) : iblk m c 3 p = V m c main_v9 := by
  obtain ⟨-, -, -, -, -, -, -, e0, e1, -⟩ := idx_facts p
  funext j
  show V m c main_v9 (((cfg0.win 3).blk p).view.emb j) = _
  refine congrArg (V m c main_v9) (funext fun a => Fin.ext ?_)
  match a with
  | ⟨0, _⟩ => show win0_3.index p (0 : Fin 2) * 1 + 1 * (j 0).val = (j 0).val; omega
  | ⟨1, _⟩ => show win0_3.index p (1 : Fin 2) * 2048 + 1 * (j 1).val = (j 1).val; omega

/-- The fifth window hands the body the whole initial cell state at every point. -/
theorem c0blk_eq (c : Dev nD) (p : Fin cfg0.N) : iblk m c 4 p = V m c main_arg1 := by
  obtain ⟨-, -, -, -, -, -, -, -, -, e0, e1, -⟩ := idx_facts p
  funext j
  show V m c main_arg1 (((cfg0.win 4).blk p).view.emb j) = _
  refine congrArg (V m c main_arg1) (funext fun a => Fin.ext ?_)
  match a with
  | ⟨0, _⟩ => show win0_4.index p (0 : Fin 2) * 128 + 1 * (j 0).val = (j 0).val; omega
  | ⟨1, _⟩ => show win0_4.index p (1 : Fin 2) * 512 + 1 * (j 1).val = (j 1).val; omega

/-- The sixth window hands the body the whole initial hidden state at every point. -/
theorem h0blk_eq (c : Dev nD) (p : Fin cfg0.N) : iblk m c 5 p = V m c main_arg2 := by
  obtain ⟨-, -, -, -, -, -, -, -, -, -, -, e0, e1⟩ := idx_facts p
  funext j
  show V m c main_arg2 (((cfg0.win 5).blk p).view.emb j) = _
  refine congrArg (V m c main_arg2) (funext fun a => Fin.ext ?_)
  match a with
  | ⟨0, _⟩ => show win0_5.index p (0 : Fin 2) * 128 + 1 * (j 0).val = (j 0).val; omega
  | ⟨1, _⟩ => show win0_5.index p (1 : Fin 2) * 512 + 1 * (j 1).val = (j 1).val; omega

/-! ## The pre-activations of a point's eight steps -/

/-- What the body computes first, at step t of point p, is the specification's input pre-activation of step 8p + t. -/
theorem xin_apply (c : Dev nD) (p : Fin cfg0.N) (t : Fin 8) (b : Fin 128) (q : Fin 2048) :
    k0_pay4 (F := Ideal) (iblk m c 0 p) (iblk m c 1 p) (iblk m c 3 p) (ix3 t b q)
      = Cert.Lstm.xin (fun r k => m ((c : Thread nD τ).loc main_arg3) (ix2 r k))
          (fun k q => m ((c : Thread nD τ).loc main_arg4) (ix2 k q))
          (fun q => m ((c : Thread nD τ).loc main_arg5) (ix2 (0 : Fin 1) q))
          (fun q => m ((c : Thread nD τ).loc main_arg7) (ix2 (0 : Fin 1) q))
          (Rows.rowAt (m ((c : Thread nD τ).loc main_arg0))) (8 * p.val + t.val) b q := by
  refine (pre_apply (iblk m c 0 p) (iblk m c 1 p) (iblk m c 3 p) t b q).trans ?_
  unfold Cert.Lstm.xin
  refine congrArg₂ (· + ·) (Finset.sum_congr rfl fun k _ => congrArg₂ (· * ·) ?_ ?_) ?_
  · exact (xblk_apply m c p t b k).trans (xemb_apply m c (stepOf p t) b k)
  · exact (congrFun (wiblk_eq m c p) (ix2 k q)).trans (wi_apply m c k q)
  · exact (congrFun (biasblk_eq m c p) (ix2 (0 : Fin 1) q)).trans (bias_apply m c q)

end Cert.KernelIdeal.HostValue

end
-- ==== Proof.Outputs.lean ====
/-
  The encoder's two results as functions of its eight argument arrays.

  From the token array the row of the embedding table each sequence reads at each step; from the table, the input weights
  and the two biases the input pre-activations of every step; from the recurrent weights and the initial cell and hidden
  state the sequence of states. The first result holds the cell states after each of the 64 steps, the second the
  hidden states: entry (n, b, j) is the state of sequence b, unit j, after step n.
-/
import proofs.«167809_g2000106098220206_pallasbulk_530_31_alg».proof.Proof.Spec
import proofs.«167809_g2000106098220206_pallasbulk_530_31_alg».proof.Proof.Rows

noncomputable section

namespace Cert.Lstm

open Idealize.ShloMosaic Idealize.ShloMosaic.ValueIdx

/-- The input pre-activations of every step, from the argument arrays. -/
def xinOf (tok : (⟨2, ![64, 128]⟩ : Shape).Idx → BitVec 32) (tab : (⟨2, ![16384, 512]⟩ : Shape).Idx → EReal)
    (wi : (⟨2, ![512, 2048]⟩ : Shape).Idx → EReal) (bi bh : (⟨2, ![1, 2048]⟩ : Shape).Idx → EReal) : ℕ → Mat 128 2048 :=
  xin (fun r k => tab (ix2 r k)) (fun k q => wi (ix2 k q)) (fun q => bi (ix2 (0 : Fin 1) q))
    (fun q => bh (ix2 (0 : Fin 1) q)) (Rows.rowAt tok)

/-- The cell states after each step: the encoder's first result. -/
def cyOf (tok : (⟨2, ![64, 128]⟩ : Shape).Idx → BitVec 32) (c0 h0 : (⟨2, ![128, 512]⟩ : Shape).Idx → EReal)
    (tab : (⟨2, ![16384, 512]⟩ : Shape).Idx → EReal) (wi : (⟨2, ![512, 2048]⟩ : Shape).Idx → EReal)
    (bi : (⟨2, ![1, 2048]⟩ : Shape).Idx → EReal) (wh : (⟨2, ![512, 2048]⟩ : Shape).Idx → EReal)
    (bh : (⟨2, ![1, 2048]⟩ : Shape).Idx → EReal) : (⟨3, ![64, 128, 512]⟩ : Shape).Idx → EReal :=
  fun i => cySeq (fun k q => wh (ix2 k q)) (xinOf tok tab wi bi bh) (fun b j => c0 (ix2 b j)) (fun b j => h0 (ix2 b j))
    (i 0) (i 1) (i 2)

/-- The hidden states after each step: the encoder's second result. -/
def hyOf (tok : (⟨2, ![64, 128]⟩ : Shape).Idx → BitVec 32) (c0 h0 : (⟨2, ![128, 512]⟩ : Shape).Idx → EReal)
    (tab : (⟨2, ![16384, 512]⟩ : Shape).Idx → EReal) (wi : (⟨2, ![512, 2048]⟩ : Shape).Idx → EReal)
    (bi : (⟨2, ![1, 2048]⟩ : Shape).Idx → EReal) (wh : (⟨2, ![512, 2048]⟩ : Shape).Idx → EReal)
    (bh : (⟨2, ![1, 2048]⟩ : Shape).Idx → EReal) : (⟨3, ![64, 128, 512]⟩ : Shape).Idx → EReal :=
  fun i => hySeq (fun k q => wh (ix2 k q)) (xinOf tok tab wi bi bh) (fun b j => c0 (ix2 b j)) (fun b j => h0 (ix2 b j))
    (i 0) (i 1) (i 2)

/-- The results depend on the input pre-activations only through the 64 steps taken. -/
theorem cySeq_congr (W : Mat 512 2048) (X X' : ℕ → Mat 128 2048) (c0 h0 : Mat 128 512) (n : Fin 64)
    (hX : ∀ k, k < 64 → X k = X' k) : cySeq W X c0 h0 n = cySeq W X' c0 h0 n := by
  unfold cySeq
  rw [state_congr W X X' c0 h0 (n.val + 1) (fun k hk => hX k (by have := n.isLt; omega))]

theorem hySeq_congr (W : Mat 512 2048) (X X' : ℕ → Mat 128 2048) (c0 h0 : Mat 128 512) (n : Fin 64)
    (hX : ∀ k, k < 64 → X k = X' k) : hySeq W X c0 h0 n = hySeq W X' c0 h0 n := by
  unfold hySeq
  rw [state_congr W X X' c0 h0 (n.val + 1) (fun k hk => hX k (by have := n.isLt; omega))]

end Cert.Lstm

end
-- ==== Proof.KernelFinal.lean ====
/-
  The kernel's two result arrays as functions of its arguments.

  The induction over the chunks gives every row of every block as a state of the specification over the kernel's OWN
  input pre-activations (slab n mod 8 of what chunk n / 8 computes from its block of gathered embedding rows). Read at an
  entry those are the specification's inputs: the table row the token names, times the input weights, plus the sum of the
  two biases. The recurrent weights, narrowed on the host, and the initial states are the arguments themselves. So the
  two arrays the run leaves are the encoder's two results.
-/
import proofs.«167809_g2000106098220206_pallasbulk_530_31_alg».proof.Proof.KernelPoints
import proofs.«167809_g2000106098220206_pallasbulk_530_31_alg».proof.Proof.KernelRun
import proofs.«167809_g2000106098220206_pallasbulk_530_31_alg».proof.Proof.KernelInputs
import proofs.«167809_g2000106098220206_pallasbulk_530_31_alg».proof.Proof.Outputs

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Body Cert.KernelIdeal.HostValue

variable (m : (ℓ : Loc nD τ sig) → Buf (Elt Ideal) ℓ)

/-- The input pre-activations the kernel computes for step `k` are the specification's. -/
theorem Xk_eq (c : Dev nD) (k : ℕ) (hk : k < 64) :
    Points.Xk m c (V m c main_v10) (V m c main_v9) k
      = Cert.Lstm.xinOf (m ((c : Thread nD τ).loc main_arg0)) (m ((c : Thread nD τ).loc main_arg3)) (m ((c : Thread nD τ).loc main_arg4)) (m ((c : Thread nD τ).loc main_arg5)) (m ((c : Thread nD τ).loc main_arg7)) k := by
  have hp : k / 8 < 8 := by omega
  have e8 : (k / 8) % 8 = k / 8 := Nat.mod_eq_of_lt hp
  have hk' : 8 * ((k / 8) % 8) + k % 8 = k := by rw [e8]; omega
  funext b q
  have h := xin_apply m c (⟨(k / 8) % 8, Points.lt8 (k / 8)⟩ : Fin cfg0.N) (⟨k % 8, Nat.mod_lt _ (by decide)⟩ : Fin 8) b q
  rw [wiblk_eq, biasblk_eq] at h
  dsimp only at h
  rw [hk'] at h
  exact h

/-- The recurrent weights the region finds are the argument. -/
theorem wh_mat (c : Dev nD) : matW (V m c main_v11) = fun k q => (m ((c : Thread nD τ).loc main_arg6)) (ix2 k q) :=
  funext fun k => funext fun q => wh_apply m c k q

/-- Row `u` of the first result's block at point `p` is the encoder's first result there. -/
theorem blockC (c : Dev nD) (p : Fin cfg0.N) (u : Fin 8) (b : Fin 128) (j : Fin 512) :
    (outsAt0 m c p.val p.isLt).1 (ix3 u b j)
      = Cert.Lstm.cyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (⟨8 * p.val + u.val, row_lt p u⟩ : Fin 64) b j) := by
  have I := Points.inv m c (V m c main_v11) (V m c main_v10) (V m c main_v9) (V m c main_arg1) (V m c main_arg2)
    (wiblk_eq m c) (whblk_eq m c) (biasblk_eq m c) (c0blk_eq m c) (h0blk_eq m c) p.val p.isLt
  have hlt := row_lt p u
  rw [I.2.2.1 u b j]
  unfold Cert.Lstm.cyOf
  show (Cert.Lstm.state (matW (V m c main_v11)) (Points.Xk m c (V m c main_v10) (V m c main_v9)) (matS (V m c main_arg1))
      (matS (V m c main_arg2)) (8 * p.val + (u.val + 1))).1 b j = _
  rw [wh_mat, V_main_arg1, V_main_arg2,
    Cert.Lstm.state_congr _ (Points.Xk m c (V m c main_v10) (V m c main_v9)) _ _ _ (8 * p.val + (u.val + 1))
      (fun k hk => Xk_eq m c k (by omega))]
  rfl

/-- Row `u` of the second result's block at point `p` is the encoder's second result there. -/
theorem blockH (c : Dev nD) (p : Fin cfg0.N) (u : Fin 8) (b : Fin 128) (j : Fin 512) :
    (outsAt0 m c p.val p.isLt).2.1 (ix3 u b j)
      = Cert.Lstm.hyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (⟨8 * p.val + u.val, row_lt p u⟩ : Fin 64) b j) := by
  have I := Points.inv m c (V m c main_v11) (V m c main_v10) (V m c main_v9) (V m c main_arg1) (V m c main_arg2)
    (wiblk_eq m c) (whblk_eq m c) (biasblk_eq m c) (c0blk_eq m c) (h0blk_eq m c) p.val p.isLt
  have hlt := row_lt p u
  rw [I.2.2.2 u b j]
  unfold Cert.Lstm.hyOf
  show (Cert.Lstm.state (matW (V m c main_v11)) (Points.Xk m c (V m c main_v10) (V m c main_v9)) (matS (V m c main_arg1))
      (matS (V m c main_arg2)) (8 * p.val + (u.val + 1))).2 b j = _
  rw [wh_mat, V_main_arg1, V_main_arg2,
    Cert.Lstm.state_congr _ (Points.Xk m c (V m c main_v10) (V m c main_v9)) _ _ _ (8 * p.val + (u.val + 1))
      (fun k hk => Xk_eq m c k (by omega))]
  rfl

/-- Every weakly fair execution of the idealized kernel ends with its two result arrays at the encoder's two results of
    the argument arrays, and the arguments as they were. -/
theorem run (ρ : Dev nD → PrngReg) :
    θ_run defs (onTc (τ := τ) (main (F := Ideal))) ⟨m, fun _ => 0, ρ⟩ fun r => ∀ c : Dev nD,
        r.2.mem ((c : Thread nD τ).loc main_v12_0) = Cert.Lstm.cyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v12_1) = Cert.Lstm.hyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  run_of m ρ (fun c => Cert.Lstm.cyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun c => Cert.Lstm.hyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (fun c p u b j => blockC m c p u b j) (fun c p u b j => blockH m c p u b j)

end Cert.KernelIdeal.KValue

end
-- ==== Proof.RefStep.lean ====
/-
  One time step of the recurrent cell, read entry by entry.

  The body of the time loop holds four vectors: the step's input pre-activations x (1 × 128 × 2048), the carried hidden
  state h (128 × 512), the recurrent weights W (512 × 2048) and the carried cell state c (128 × 512). Its gate vector is
  x + h · W, a matrix product over the 512 hidden units added to the input part; the next cell state and the next hidden
  state are the logistic / tanh combinations of the four 512-wide column groups of the gates. This module reads each of
  these vectors at one entry (b, j) and finds the specification's `gates`, `cellNext`, `hidNext` there; the packed
  block the step writes is the next cell state in its columns 0 … 511 and the next hidden state in columns 512 … 1023.
-/
import proofs.«167809_g2000106098220206_pallasbulk_530_31_alg».proof.Proof.Spec
import proofs.«167809_g2000106098220206_pallasbulk_530_31_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx
open Cert.ReferenceIdeal Cert.ReferenceIdeal.Gen

/-- A 512 × 2048 vector as a matrix by coordinates. -/
abbrev matW (v : Vec Ideal S512x2048 .f32) : Cert.Lstm.Mat 512 2048 := fun k q => v (ix2 k q)
/-- A 1 × 128 × 2048 block as the 128 × 2048 matrix it holds. -/
abbrev matX (v : Vec Ideal S1x128x2048 .f32) : Cert.Lstm.Mat 128 2048 := fun b q => v (ix3 (0 : Fin 1) b q)
/-- A 128 × 512 vector as a matrix by coordinates. -/
abbrev matS (v : Vec Ideal S128x512 .f32) : Cert.Lstm.Mat 128 512 := fun b j => v (ix2 b j)

/-- The product h · W at (b, q): the sum over the 512 hidden units. -/
theorem hW_apply (v5 : FVec Ideal S128x512 .f32) (v6 : FVec Ideal S512x2048 .f32) (b : Fin 128) (q : Fin 2048) :
    FloatOps.matmul dot_S128x512_S512x2048_S128x2048_1_0_0_1_n_n none v5 v6 (constant (F := Ideal) S128x2048 .f32 0x00000000#32) (ix2 b q)
      = ∑ k : Fin 512, v5 (ix2 b k) * v6 (ix2 k q) := by
  rw [Ideal.matmul_constant_zero_apply,
    ← Equiv.sum_comp (contrEquiv1 dot_S128x512_S512x2048_S128x2048_1_0_0_1_n_n 512 rfl rfl).symm]
  refine Finset.sum_congr rfl fun c _ => ?_
  have c2 := contrEquiv1_symm_val dot_S128x512_S512x2048_S128x2048_1_0_0_1_n_n 512 rfl rfl c
  have l2 : dot_S128x512_S512x2048_S128x2048_1_0_0_1_n_n.lhsIdx (ix2 b q) ((contrEquiv1 _ 512 rfl rfl).symm c) = ix2 b c := by
    funext ax; apply Fin.ext
    match ax with
    | ⟨0, _⟩ => simp [DotDims.lhsIdx, dot_S128x512_S512x2048_S128x2048_1_0_0_1_n_n]; rfl
    | ⟨1, _⟩ => simp [DotDims.lhsIdx, dot_S128x512_S512x2048_S128x2048_1_0_0_1_n_n]; exact c2
  have r2 : dot_S128x512_S512x2048_S128x2048_1_0_0_1_n_n.rhsIdx (ix2 b q) ((contrEquiv1 _ 512 rfl rfl).symm c) = ix2 c q := by
    funext ax; apply Fin.ext
    match ax with
    | ⟨0, _⟩ => simp [DotDims.rhsIdx, dot_S128x512_S512x2048_S128x2048_1_0_0_1_n_n]; exact c2
    | ⟨1, _⟩ => simp [DotDims.rhsIdx, dot_S128x512_S512x2048_S128x2048_1_0_0_1_n_n]; rfl
  rw [l2, r2]

/-- The gate vector at (b, q) is the specification's gate pre-activation. -/
theorem gates_apply (v3 : Vec Ideal S1x128x2048 .f32) (v5 : Vec Ideal S128x512 .f32) (v6 : Vec Ideal S512x2048 .f32)
    (b : Fin 128) (q : Fin 2048) :
    k0_pay3 (F := Ideal) v3 v5 v6 (ix2 b q) = Cert.Lstm.gates (matW v6) (matX v3) (matS v5) b q := by
  unfold k0_pay3
  show shapeCast S128x2048 v3 shapeCasts_S1x128x2048_S128x2048 (ix2 b q)
      + FloatOps.matmul (φ₁ := .f32) (φ₂ := .f32) dot_S128x512_S512x2048_S128x2048_1_0_0_1_n_n none v5 v6 (constant (F := Ideal) S128x2048 .f32 0x00000000#32) (ix2 b q) = _
  rw [hW_apply]
  exact congrArg (· + _) (shapeCast_1ab_ab_apply v3 shapeCasts_S1x128x2048_S128x2048 b q)

/-- Column group g of the gates, cut out as a 128 × 512 slice, reads the gate column `col g j`. -/
theorem gateSlice_apply (G : Vec Ideal S128x2048 .f32) (g : Fin 4) (o : Nat) (ho : o = 512 * g.val)
    (h : S128x2048.Slices ![0, o] S128x512) (b : Fin 128) (j : Fin 512) :
    extractStridedSlice S128x512 ![0, o] G h (ix2 b j) = G (ix2 b (Cert.Lstm.col g j)) :=
  slice2_axis1_apply o G h b j (Cert.Lstm.col g j) (by subst ho; rfl)

/-- The next cell state at (b, j). -/
theorem cell_apply (v3 : Vec Ideal S1x128x2048 .f32) (v5 : Vec Ideal S128x512 .f32) (v6 : Vec Ideal S512x2048 .f32)
    (v17 : Vec Ideal S128x512 .f32) (b : Fin 128) (j : Fin 512) :
    k0_pay4 (F := Ideal) v3 v5 v6 v17 (ix2 b j)
      = Cert.Lstm.cellNext (matW v6) (matX v3) (matS v17) (matS v5) b j := by
  unfold k0_pay4
  show Ideal.logistic (extractStridedSlice S128x512 ![0, 512] (k0_pay3 (F := Ideal) v3 v5 v6) slices_S128x2048_o0_512_S128x512 (ix2 b j)) * v17 (ix2 b j)
      + Ideal.logistic (extractStridedSlice S128x512 ![0, 0] (k0_pay3 (F := Ideal) v3 v5 v6) slices_S128x2048_o0_0_S128x512 (ix2 b j))
        * Ideal.tanh (extractStridedSlice S128x512 ![0, 1024] (k0_pay3 (F := Ideal) v3 v5 v6) slices_S128x2048_o0_1024_S128x512 (ix2 b j)) = _
  rw [gateSlice_apply _ 1 512 rfl, gateSlice_apply _ 0 0 rfl, gateSlice_apply _ 2 1024 rfl,
    gates_apply, gates_apply, gates_apply]
  rfl

/-- The next hidden state at (b, j). -/
theorem hid_apply (v3 : Vec Ideal S1x128x2048 .f32) (v5 : Vec Ideal S128x512 .f32) (v6 : Vec Ideal S512x2048 .f32)
    (v17 : Vec Ideal S128x512 .f32) (b : Fin 128) (j : Fin 512) :
    k0_pay5 (F := Ideal) v3 v5 v6 v17 (ix2 b j)
      = Cert.Lstm.hidNext (matW v6) (matX v3) (matS v17) (matS v5) b j := by
  unfold k0_pay5
  show Ideal.logistic (extractStridedSlice S128x512 ![0, 1536] (k0_pay3 (F := Ideal) v3 v5 v6) slices_S128x2048_o0_1536_S128x512 (ix2 b j))
      * Ideal.tanh (k0_pay4 (F := Ideal) v3 v5 v6 v17 (ix2 b j)) = _
  rw [gateSlice_apply _ 3 1536 rfl, gates_apply, cell_apply]
  rfl

/-- What the step stores into the carried cell state is the next cell state. -/
theorem storedCell_eq (v3 : Vec Ideal S1x128x2048 .f32) (v5 : Vec Ideal S128x512 .f32) (v6 : Vec Ideal S512x2048 .f32)
    (v17 : Vec Ideal S128x512 .f32) : k0_pay6 (F := Ideal) v3 v5 v6 v17 = k0_pay4 (F := Ideal) v3 v5 v6 v17 :=
  shapeCast_self _ _

/-- What the step stores into the carried hidden state is the next hidden state. -/
theorem storedHid_eq (v3 : Vec Ideal S1x128x2048 .f32) (v5 : Vec Ideal S128x512 .f32) (v6 : Vec Ideal S512x2048 .f32)
    (v17 : Vec Ideal S128x512 .f32) : k0_pay7 (F := Ideal) v3 v5 v6 v17 = k0_pay5 (F := Ideal) v3 v5 v6 v17 :=
  shapeCast_self _ _

/-- The packed block at a column below 512 is the next cell state. -/
theorem packed_left (v3 : Vec Ideal S1x128x2048 .f32) (v5 : Vec Ideal S128x512 .f32) (v6 : Vec Ideal S512x2048 .f32)
    (v17 : Vec Ideal S128x512 .f32) (u : Fin 1) (b : Fin 128) (j : Fin 512) (j' : Fin 1024) (hj : j'.val = j.val) :
    k0_pay8 (F := Ideal) v3 v5 v6 v17 (ix3 u b j')
      = Cert.Lstm.cellNext (matW v6) (matX v3) (matS v17) (matS v5) b j := by
  unfold k0_pay8
  refine (shapeCast_ab_1ab_apply _ shapeCasts_S128x1024_S1x128x1024 u b j').trans ?_
  refine (concatenate_pair_apply_left (1 : Fin S128x1024.rank) (k0_pay4 (F := Ideal) v3 v5 v6 v17) (k0_pay5 (F := Ideal) v3 v5 v6 v17)
    concatenates_S128x512_S128x512_S128x1024_d1 (ix2 b j') rfl (ix2 b j) (fun a => ?_)).trans (cell_apply v3 v5 v6 v17 b j)
  match a with
  | ⟨0, _⟩ => rfl
  | ⟨1, _⟩ => exact hj.symm

/-- The packed block at a column from 512 on is the next hidden state. -/
theorem packed_right (v3 : Vec Ideal S1x128x2048 .f32) (v5 : Vec Ideal S128x512 .f32) (v6 : Vec Ideal S512x2048 .f32)
    (v17 : Vec Ideal S128x512 .f32) (u : Fin 1) (b : Fin 128) (j : Fin 512) (j' : Fin 1024) (hj : j'.val = 512 + j.val) :
    k0_pay8 (F := Ideal) v3 v5 v6 v17 (ix3 u b j')
      = Cert.Lstm.hidNext (matW v6) (matX v3) (matS v17) (matS v5) b j := by
  unfold k0_pay8
  refine (shapeCast_ab_1ab_apply _ shapeCasts_S128x1024_S1x128x1024 u b j').trans ?_
  refine (concatenate_pair_apply_right (1 : Fin S128x1024.rank) (k0_pay4 (F := Ideal) v3 v5 v6 v17) (k0_pay5 (F := Ideal) v3 v5 v6 v17)
    concatenates_S128x512_S128x512_S128x1024_d1 (ix2 b j') rfl rfl (ix2 b j) (fun a ha => ?_) ?_).trans (hid_apply v3 v5 v6 v17 b j)
  · match a with
    | ⟨0, _⟩ => rfl
    | ⟨1, _⟩ => exact absurd rfl ha
  · show j.val + 512 = j'.val
    omega

end Cert.ReferenceIdeal.RefValue

end
-- ==== Proof.RefPoints.lean ====
/-
  What each of the 64 grid points leaves behind.

  The region runs its body once per time step. The body keeps the cell state and the hidden state in two buffers of its
  own that survive from one point to the next; at the first point it first copies the initial states c0, h0 into them.
  Every point then reads the step's block of input pre-activations, the recurrent weights and the two carried buffers,
  and stores the next cell state, the next hidden state and the packed block [next cell | next hidden].

  First part, for any float instance: the value each store leaves, as the body's pure terms of the blocks the point
  read (one covering store per buffer; at the first point the carried buffers are read back from the copy just made).
  Second part, on the extended reals: each block is a window of an argument array (the weights, the initial states and,
  for the inputs, time step t of the pre-activation array), so by induction on the point the carried buffers hold the
  specification's state after step n + 1, and the packed block holds that cell state in columns 0 … 511 and that hidden
  state in columns 512 … 1023.
-/
import proofs.«167809_g2000106098220206_pallasbulk_530_31_alg».proof.Proof.RefStep
import proofs.«167809_g2000106098220206_pallasbulk_530_31_alg».proof.Proof.Gen.ReferenceIdeal.Frame
import Idealize.ShloMosaic.Lib.Pipeline.Value
import Idealize.ShloMosaic.Lib.Tactic

set_option maxRecDepth 16384

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

/-! ## The stores' values, at any float instance -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a later point the carried cell buffer holds the body's next cell state of the blocks read and of what the point before left (`xs0` the cell state, `xs1` the hidden state). -/
theorem cellB (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : ¬cond0_0 i) (x0 : Vec F S1x128x2048 .f32) (x1 : Vec F S512x2048 .f32) (x2 : Vec F S128x512 .f32) (x3 : Vec F S128x512 .f32) (xs0 xs1 : Vec F S128x512 .f32) :
    sout0_B_0 c i arg2 harg2 arg3 harg3 arg4 harg4 arg5 harg5 arg6 harg6 arg7 harg7 arg8 harg8 hc0 x0 x1 x2 x3 xs0 xs1 = k0_pay6 x0 xs1 x1 xs0 := by
  unfold sout0_B_0
  rw [View.read_writes_eq_canon _ _ _ (scover0_B_0 c i arg2 harg2 arg3 harg3 arg4 harg4 arg5 harg5 arg6 harg6 arg7 harg7 arg8 harg8 hc0 x0 x1 x2 x3 xs0 xs1)]
  unfold kernelRun0_B
  dsimp only
  rw [View.canon_unit_zero hz2]
  simp only [View.readAt_eq_ld, harg2.read_unread, harg3.read_unread, harg7.read_unread, harg8.read_unread,
    View.ld_unit_zero (S := S1x128x2048) hz3, View.ld_unit_zero (S := S128x512) hz2, View.ld_unit_zero (S := S512x2048) hz2]

/-- After a later point the carried hidden buffer holds the body's next hidden state. -/
theorem hidB (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : ¬cond0_0 i) (x0 : Vec F S1x128x2048 .f32) (x1 : Vec F S512x2048 .f32) (x2 : Vec F S128x512 .f32) (x3 : Vec F S128x512 .f32) (xs0 xs1 : Vec F S128x512 .f32) :
    sout0_B_1 c i arg2 harg2 arg3 harg3 arg4 harg4 arg5 harg5 arg6 harg6 arg7 harg7 arg8 harg8 hc0 x0 x1 x2 x3 xs0 xs1 = k0_pay7 x0 xs1 x1 xs0 := by
  unfold sout0_B_1
  rw [View.read_writes_eq_canon _ _ _ (scover0_B_1 c i arg2 harg2 arg3 harg3 arg4 harg4 arg5 harg5 arg6 harg6 arg7 harg7 arg8 harg8 hc0 x0 x1 x2 x3 xs0 xs1)]
  unfold kernelRun0_B
  dsimp only
  rw [View.canon_unit_zero hz2]
  simp only [View.readAt_eq_ld, harg2.read_unread, harg3.read_unread, harg7.read_unread, harg8.read_unread,
    View.ld_unit_zero (S := S1x128x2048) hz3, View.ld_unit_zero (S := S128x512) hz2, View.ld_unit_zero (S := S512x2048) hz2]

/-- A later point's output block is the packed pair of the two next states. -/
theorem packedB (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : ¬cond0_0 i) (x0 : Vec F S1x128x2048 .f32) (x1 : Vec F S512x2048 .f32) (x2 : Vec F S128x512 .f32) (x3 : Vec F S128x512 .f32) (xs0 xs1 : Vec F S128x512 .f32) :
    out0_B_4 c i arg2 harg2 arg3 harg3 arg4 harg4 arg5 harg5 arg6 harg6 arg7 harg7 arg8 harg8 hc0 x0 x1 x2 x3 xs0 xs1 = k0_pay8 x0 xs1 x1 xs0 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  rw [View.canon_unit_zero hz3]
  simp only [View.readAt_eq_ld, harg2.read_unread, harg3.read_unread, harg7.read_unread, harg8.read_unread,
    View.ld_unit_zero (S := S1x128x2048) hz3, View.ld_unit_zero (S := S128x512) hz2, View.ld_unit_zero (S := S512x2048) hz2]

/-- After the first point the carried cell buffer holds the next cell state computed from the copies of the initial states (`x2` the initial cell state, `x3` the initial hidden state). -/
theorem cellA (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : cond0_0 i) (x0 : Vec F S1x128x2048 .f32) (x1 : Vec F S512x2048 .f32) (x2 : Vec F S128x512 .f32) (x3 : Vec F S128x512 .f32) :
    sout0_A_0 c i arg2 harg2 arg3 harg3 arg4 harg4 arg5 harg5 arg6 harg6 arg7 harg7 arg8 harg8 hc0 x0 x1 x2 x3 = k0_pay6 x0 (k0_pay2 x3) x1 (k0_pay1 x2) := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S128x512) hz2, View.readCov_unit_zero (S := S128x512) _ hz2, View.readCov_unit_zero (S := S128x512) _ hz2]
  simp only [View.readAt_eq_ld, harg2.read_unread, harg3.read_unread, harg4.read_unread, harg5.read_unread,
    View.ld_unit_zero (S := S1x128x2048) hz3, View.ld_unit_zero (S := S128x512) hz2, View.ld_unit_zero (S := S512x2048) hz2]

/-- After the first point the carried hidden buffer holds the next hidden state computed from the copies of the initial states. -/
theorem hidA (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : cond0_0 i) (x0 : Vec F S1x128x2048 .f32) (x1 : Vec F S512x2048 .f32) (x2 : Vec F S128x512 .f32) (x3 : Vec F S128x512 .f32) :
    sout0_A_1 c i arg2 harg2 arg3 harg3 arg4 harg4 arg5 harg5 arg6 harg6 arg7 harg7 arg8 harg8 hc0 x0 x1 x2 x3 = k0_pay7 x0 (k0_pay2 x3) x1 (k0_pay1 x2) := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S128x512) hz2, View.readCov_unit_zero (S := S128x512) _ hz2, View.readCov_unit_zero (S := S128x512) _ hz2]
  simp only [View.readAt_eq_ld, harg2.read_unread, harg3.read_unread, harg4.read_unread, harg5.read_unread,
    View.ld_unit_zero (S := S1x128x2048) hz3, View.ld_unit_zero (S := S128x512) hz2, View.ld_unit_zero (S := S512x2048) hz2]

/-- The first point's output block is the packed pair of the two next states. -/
theorem packedA (c : Dev nD) (i : grid0.Coords) (arg2 : Memref sig .tc .vmem S1x128x2048 .f32) (harg2 : arg2.IsWhole) (arg3 : Memref sig .tc .vmem S512x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1x128x1024 .f32) (harg6 : arg6.IsWhole) (arg7 : Memref sig .tc .vmem S128x512 .f32) (harg7 : arg7.IsWhole) (arg8 : Memref sig .tc .vmem S128x512 .f32) (harg8 : arg8.IsWhole) (hc0 : cond0_0 i) (x0 : Vec F S1x128x2048 .f32) (x1 : Vec F S512x2048 .f32) (x2 : Vec F S128x512 .f32) (x3 : Vec F S128x512 .f32) :
    out0_A_4 c i arg2 harg2 arg3 harg3 arg4 harg4 arg5 harg5 arg6 harg6 arg7 harg7 arg8 harg8 hc0 x0 x1 x2 x3 = k0_pay8 x0 (k0_pay2 x3) x1 (k0_pay1 x2) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3, View.readCov_unit_zero (S := S128x512) _ hz2, View.readCov_unit_zero (S := S128x512) _ hz2]
  simp only [View.readAt_eq_ld, harg2.read_unread, harg3.read_unread, harg4.read_unread, harg5.read_unread,
    View.ld_unit_zero (S := S1x128x2048) hz3, View.ld_unit_zero (S := S128x512) hz2, View.ld_unit_zero (S := S512x2048) hz2]

end Pieces

/-! ## The blocks are windows of the argument arrays -/

section Blocks

variable (m : (ℓ : Loc nD τ sig) → Buf (Elt Ideal) ℓ)

/-- The recurrent weights, by coordinates. -/
def W (c : Dev nD) : Cert.Lstm.Mat 512 2048 :=
  fun k q => (m ((c : Thread nD τ).loc main_arg6) : S512x2048.Idx → Elt Ideal .f32) (ix2 k q)
/-- The initial cell state. -/
def C0 (c : Dev nD) : Cert.Lstm.Mat 128 512 :=
  fun b j => (m ((c : Thread nD τ).loc main_arg1) : S128x512.Idx → Elt Ideal .f32) (ix2 b j)
/-- The initial hidden state. -/
def H0 (c : Dev nD) : Cert.Lstm.Mat 128 512 :=
  fun b j => (m ((c : Thread nD τ).loc main_arg2) : S128x512.Idx → Elt Ideal .f32) (ix2 b j)
/-- The input pre-activations of time step `n`: slab `n` of the 64 × 128 × 2048 array the region is handed
    (zero past the last step, where nothing reads it). -/
def Xr (c : Dev nD) : ℕ → Cert.Lstm.Mat 128 2048 :=
  fun n b q => if h : n < 64 then (V m c main_v5 : S64x128x2048.Idx → Elt Ideal .f32) (ix3 ⟨n, h⟩ b q) else 0

/-- Where each window's block sits at point `t`: the input pre-activations and the output move one slab per point along
    the time axis, the weights and the two initial states are whole arrays. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- The input block at point `t` is time step `t` of the pre-activations. -/
theorem xblk_eq (c : Dev nD) (t : Fin cfg0.N) : matX (iblk m c 0 t) = Xr m c t.val := by
  have hN : t.val < 64 := lt_of_lt_of_eq t.isLt N_0
  obtain ⟨⟨h0, h1, h2⟩, -⟩ := idx_facts t
  funext b q
  unfold Xr
  rw [dif_pos hN]
  show (iblk m c 0 t : Vec Ideal S1x128x2048 .f32) (ix3 (0 : Fin 1) b q) = _
  unfold iblk
  rw [View.read_apply]
  show V m c main_v5 _ = V m c main_v5 _
  congr 1
  funext a
  apply Fin.ext
  match a with
  | ⟨0, _⟩ => show win0_0.index t 0 * 1 + 1 * 0 = t.val; rw [h0]; omega
  | ⟨1, _⟩ => show win0_0.index t 1 * 128 + 1 * b.val = b.val; rw [h1]; omega
  | ⟨2, _⟩ => show win0_0.index t 2 * 2048 + 1 * q.val = q.val; rw [h2]; omega

/-- The weights' block is the whole weight matrix, at every point. -/
theorem wblk_eq (c : Dev nD) (t : Fin cfg0.N) : matW (iblk m c 1 t) = W m c := by
  obtain ⟨-, ⟨h0, h1⟩, -⟩ := idx_facts t
  funext k q
  show (iblk m c 1 t : Vec Ideal S512x2048 .f32) (ix2 k q) = _
  unfold iblk W
  rw [View.read_apply]
  show V m c main_arg6 _ = m ((c : Thread nD τ).loc main_arg6) _
  refine Eq.trans ?_ (congrFun (V_main_arg6 m c) _)
  congr 1
  funext a
  apply Fin.ext
  match a with
  | ⟨0, _⟩ => show win0_1.index t 0 * 512 + 1 * k.val = k.val; rw [h0]; omega
  | ⟨1, _⟩ => show win0_1.index t 1 * 2048 + 1 * q.val = q.val; rw [h1]; omega

/-- The copy of the initial cell state the first point makes is the initial cell state. -/
theorem c0_at (c : Dev nD) (t : Fin cfg0.N) : matS (k0_pay1 (F := Ideal) (iblk m c 2 t)) = C0 m c := by
  obtain ⟨-, -, ⟨h0, h1⟩, -⟩ := idx_facts t
  funext b j
  refine (congrFun (shapeCast_self (iblk m c 2 t : Vec Ideal S128x512 .f32) shapeCasts_S128x512_S128x512) (ix2 b j)).trans ?_
  unfold iblk C0
  rw [View.read_apply]
  show V m c main_arg1 _ = m ((c : Thread nD τ).loc main_arg1) _
  refine Eq.trans ?_ (congrFun (V_main_arg1 m c) _)
  congr 1
  funext a
  apply Fin.ext
  match a with
  | ⟨0, _⟩ => show win0_2.index t 0 * 128 + 1 * b.val = b.val; rw [h0]; omega
  | ⟨1, _⟩ => show win0_2.index t 1 * 512 + 1 * j.val = j.val; rw [h1]; omega

/-- The copy of the initial hidden state the first point makes is the initial hidden state. -/
theorem h0_at (c : Dev nD) (t : Fin cfg0.N) : matS (k0_pay2 (F := Ideal) (iblk m c 3 t)) = H0 m c := by
  obtain ⟨-, -, -, ⟨h0, h1⟩, -⟩ := idx_facts t
  funext b j
  refine (congrFun (shapeCast_self (iblk m c 3 t : Vec Ideal S128x512 .f32) shapeCasts_S128x512_S128x512) (ix2 b j)).trans ?_
  unfold iblk H0
  rw [View.read_apply]
  show V m c main_arg2 _ = m ((c : Thread nD τ).loc main_arg2) _
  refine Eq.trans ?_ (congrFun (V_main_arg2 m c) _)
  congr 1
  funext a
  apply Fin.ext
  match a with
  | ⟨0, _⟩ => show win0_3.index t 0 * 128 + 1 * b.val = b.val; rw [h0]; omega
  | ⟨1, _⟩ => show win0_3.index t 1 * 512 + 1 * j.val = j.val; rw [h1]; omega

end Blocks

/-! ## By induction on the point: the carried buffers hold the state, the output block packs it -/

section Points

variable (m : (ℓ : Loc nD τ sig) → Buf (Elt Ideal) ℓ)

/-- The specification's state after `n` steps, over the region's arguments. -/
abbrev st (c : Dev nD) (n : ℕ) : Cert.Lstm.Mat 128 512 × Cert.Lstm.Mat 128 512 :=
  Cert.Lstm.state (W m c) (Xr m c) (C0 m c) (H0 m c) n

/-- "(o, cs, hs) is what time step `n` makes of the states (cp, hp)": `cs` and `hs` are the next cell and hidden
    states, and the packed block `o` holds the first in its columns below 512 and the second from column 512 on. -/
def IsStep (c : Dev nD) (n : ℕ) (cp hp : Cert.Lstm.Mat 128 512)
    (o : Vec Ideal S1x128x1024 .f32) (cs hs : Vec Ideal S128x512 .f32) : Prop :=
  matS cs = Cert.Lstm.cellNext (W m c) (Xr m c n) cp hp
  ∧ matS hs = Cert.Lstm.hidNext (W m c) (Xr m c n) cp hp
  ∧ (∀ (u : Fin 1) (b : Fin 128) (j : Fin 512) (j' : Fin 1024), j'.val = j.val →
      o (ix3 u b j') = Cert.Lstm.cellNext (W m c) (Xr m c n) cp hp b j)
  ∧ (∀ (u : Fin 1) (b : Fin 128) (j : Fin 512) (j' : Fin 1024), j'.val = 512 + j.val →
      o (ix3 u b j') = Cert.Lstm.hidNext (W m c) (Xr m c n) cp hp b j)

/-- The body's three terms at point `t`, over carried vectors that hold (cp, hp), are time step `t`. -/
theorem isStep_pays (c : Dev nD) (t : Fin cfg0.N) (xs0 xs1 : Vec Ideal S128x512 .f32) (cp hp : Cert.Lstm.Mat 128 512)
    (hc : matS xs0 = cp) (hh : matS xs1 = hp) :
    IsStep m c t.val cp hp (k0_pay8 (F := Ideal) (iblk m c 0 t) xs1 (iblk m c 1 t) xs0)
      (k0_pay4 (F := Ideal) (iblk m c 0 t) xs1 (iblk m c 1 t) xs0) (k0_pay5 (F := Ideal) (iblk m c 0 t) xs1 (iblk m c 1 t) xs0) := by
  subst hc hh
  have eW := wblk_eq m c t
  have eX := xblk_eq m c t
  refine ⟨?_, ?_, ?_, ?_⟩
  · funext b j
    exact (cell_apply (iblk m c 0 t) xs1 (iblk m c 1 t) xs0 b j).trans (by rw [eW, eX])
  · funext b j
    exact (hid_apply (iblk m c 0 t) xs1 (iblk m c 1 t) xs0 b j).trans (by rw [eW, eX])
  · intro u b j j' hj
    exact (packed_left (iblk m c 0 t) xs1 (iblk m c 1 t) xs0 u b j j' hj).trans (by rw [eW, eX])
  · intro u b j j' hj
    exact (packed_right (iblk m c 0 t) xs1 (iblk m c 1 t) xs0 u b j j' hj).trans (by rw [eW, eX])

/-- The first point leaves the body's terms over the copies of the initial states. -/
theorem outsAt_first (c : Dev nD) (t : Fin cfg0.N) (h0 : t.val % 64 = 0) :
    outsAt0 m c t.val t.isLt
      = (k0_pay8 (F := Ideal) (iblk m c 0 t) (k0_pay2 (iblk m c 3 t)) (iblk m c 1 t) (k0_pay1 (iblk m c 2 t)),
         k0_pay4 (F := Ideal) (iblk m c 0 t) (k0_pay2 (iblk m c 3 t)) (iblk m c 1 t) (k0_pay1 (iblk m c 2 t)),
         k0_pay5 (F := Ideal) (iblk m c 0 t) (k0_pay2 (iblk m c 3 t)) (iblk m c 1 t) (k0_pay1 (iblk m c 2 t))) := by
  rw [outsAt0_A m c t h0]
  exact congrArg₂ Prod.mk
    (packedA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t))
    (congrArg₂ Prod.mk
      ((cellA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans
        (storedCell_eq (iblk m c 0 t) (k0_pay2 (iblk m c 3 t)) (iblk m c 1 t) (k0_pay1 (iblk m c 2 t))))
      ((hidA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans
        (storedHid_eq (iblk m c 0 t) (k0_pay2 (iblk m c 3 t)) (iblk m c 1 t) (k0_pay1 (iblk m c 2 t)))))

/-- A later point leaves the body's terms over what the point before left in the carried buffers. -/
theorem outsAt_later (c : Dev nD) (t : Fin cfg0.N) (h0 : ¬t.val % 64 = 0) :
    outsAt0 m c t.val t.isLt
      = (k0_pay8 (F := Ideal) (iblk m c 0 t) (outsAt0 m c (t.val - 1) (Nat.lt_of_le_of_lt (Nat.sub_le _ _) t.isLt)).2.2 (iblk m c 1 t)
            (outsAt0 m c (t.val - 1) (Nat.lt_of_le_of_lt (Nat.sub_le _ _) t.isLt)).2.1,
         k0_pay4 (F := Ideal) (iblk m c 0 t) (outsAt0 m c (t.val - 1) (Nat.lt_of_le_of_lt (Nat.sub_le _ _) t.isLt)).2.2 (iblk m c 1 t)
            (outsAt0 m c (t.val - 1) (Nat.lt_of_le_of_lt (Nat.sub_le _ _) t.isLt)).2.1,
         k0_pay5 (F := Ideal) (iblk m c 0 t) (outsAt0 m c (t.val - 1) (Nat.lt_of_le_of_lt (Nat.sub_le _ _) t.isLt)).2.2 (iblk m c 1 t)
            (outsAt0 m c (t.val - 1) (Nat.lt_of_le_of_lt (Nat.sub_le _ _) t.isLt)).2.1) := by
  rw [outsAt0_B m c t h0]
  exact congrArg₂ Prod.mk
    (packedB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk
      ((cellB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.1 (outsAt0 m c (t.val - 1) (Nat.lt_of_le_of_lt (Nat.sub_le _ _) t.isLt)).2.2).trans
        (storedCell_eq (iblk m c 0 t) (outsAt0 m c (t.val - 1) (Nat.lt_of_le_of_lt (Nat.sub_le _ _) t.isLt)).2.2 (iblk m c 1 t)
          (outsAt0 m c (t.val - 1) (Nat.lt_of_le_of_lt (Nat.sub_le _ _) t.isLt)).2.1))
      ((hidB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.1 (outsAt0 m c (t.val - 1) (Nat.lt_of_le_of_lt (Nat.sub_le _ _) t.isLt)).2.2).trans
        (storedHid_eq (iblk m c 0 t) (outsAt0 m c (t.val - 1) (Nat.lt_of_le_of_lt (Nat.sub_le _ _) t.isLt)).2.2 (iblk m c 1 t)
          (outsAt0 m c (t.val - 1) (Nat.lt_of_le_of_lt (Nat.sub_le _ _) t.isLt)).2.1)))

/-- THE INVARIANT. After point `n` the output block and the two carried buffers are time step `n` of the state after
    `n` steps: the carried buffers hold the state after `n + 1` steps. By induction on the point. -/
theorem inv (c : Dev nD) : ∀ (n : ℕ) (hn : n < cfg0.N),
    IsStep m c n (st m c n).1 (st m c n).2 (outsAt0 m c n hn).1 (outsAt0 m c n hn).2.1 (outsAt0 m c n hn).2.2
  | 0, hn => by
    rw [outsAt_first m c ⟨0, hn⟩ rfl]
    exact isStep_pays m c ⟨0, hn⟩ (k0_pay1 (iblk m c 2 ⟨0, hn⟩)) (k0_pay2 (iblk m c 3 ⟨0, hn⟩)) (C0 m c) (H0 m c)
      (c0_at m c ⟨0, hn⟩) (h0_at m c ⟨0, hn⟩)
  | n + 1, hn => by
    have hN : cfg0.N = 64 := N_0
    have hB : ¬(⟨n + 1, hn⟩ : Fin cfg0.N).val % 64 = 0 := by dsimp only; omega
    have ih := inv c n (Nat.lt_of_succ_lt hn)
    rw [outsAt_later m c ⟨n + 1, hn⟩ hB]
    exact isStep_pays m c ⟨n + 1, hn⟩ (outsAt0 m c n (Nat.lt_of_succ_lt hn)).2.1 (outsAt0 m c n (Nat.lt_of_succ_lt hn)).2.2
      (st m c (n + 1)).1 (st m c (n + 1)).2 ih.1 ih.2.1

/-- After point `n` the output block holds, in row b, the cell state after `n + 1` steps in columns 0 … 511 -/
theorem packed_cell (c : Dev nD) (n : ℕ) (hn : n < cfg0.N) (u : Fin 1) (b : Fin 128) (j : Fin 512) (j' : Fin 1024)
    (hj : j'.val = j.val) : (outsAt0 m c n hn).1 (ix3 u b j') = (st m c (n + 1)).1 b j :=
  (inv m c n hn).2.2.1 u b j j' hj

/-- and the hidden state after `n + 1` steps in columns 512 … 1023. -/
theorem packed_hid (c : Dev nD) (n : ℕ) (hn : n < cfg0.N) (u : Fin 1) (b : Fin 128) (j : Fin 512) (j' : Fin 1024)
    (hj : j'.val = 512 + j.val) : (outsAt0 m c n hn).1 (ix3 u b j') = (st m c (n + 1)).2 b j :=
  (inv m c n hn).2.2.2 u b j j' hj

end Points

end Cert.ReferenceIdeal.RefValue

end
-- ==== Proof.RefRun.lean ====
/-
  From the blocks to the results.

  The region's output array is 64 × 128 × 1024; point t writes slab t of it, the packed block of time step t. The 64
  slabs tile the array, so after the run entry (n, b, k) holds the cell state after n + 1 steps at (b, k) for k below
  512 and the hidden state after n + 1 steps at (b, k − 512) from 512 on. The two lines after the region cut the array
  into its left and right halves along the last axis: the sequence of cell states and the sequence of hidden states.
-/
import proofs.«167809_g2000106098220206_pallasbulk_530_31_alg».proof.Proof.RefPoints
import Idealize.ShloMosaic.Lib.Pipeline.Value
import Idealize.ShloMosaic.Lib.Tactic

set_option maxRecDepth 16384

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## The packed array -/

/-- The array the region writes, entry by entry: slab `n` holds, in row b, the cell state after `n + 1` steps in
    columns 0 … 511 and the hidden state after `n + 1` steps in columns 512 … 1023. -/
def packed (c : Dev nD) : Buf (Elt Ideal) ((c : Thread nD τ).loc main_v6) :=
  fun (i : S64x128x1024.Idx) =>
    if h : (i 2).val < 512 then (st m c ((i 0).val + 1)).1 (i 1) ⟨(i 2).val, h⟩
    else (st m c ((i 0).val + 1)).2 (i 1)
      ⟨(i 2).val - 512, by have h2 : (i 2).val < 1024 := (i 2).isLt; show (i 2).val - 512 < 512; omega⟩

/-- The packed array at a column below 512. -/
theorem packed_apply_cell (c : Dev nD) (n : ℕ) (b : Fin 128) (j : Fin 512) (i : S64x128x1024.Idx)
    (h0 : (i 0).val = n) (h1 : (i 1).val = b.val) (h2 : (i 2).val = j.val) :
    packed m c i = (st m c (n + 1)).1 b j := by
  unfold packed
  rw [dif_pos (show (i 2).val < 512 by have := j.isLt; omega), h0]
  exact congrArg₂ (st m c (n + 1)).1 (Fin.ext h1) (Fin.ext h2)

/-- The packed array at a column from 512 on. -/
theorem packed_apply_hid (c : Dev nD) (n : ℕ) (b : Fin 128) (j : Fin 512) (i : S64x128x1024.Idx)
    (h0 : (i 0).val = n) (h1 : (i 1).val = b.val) (h2 : (i 2).val = 512 + j.val) :
    packed m c i = (st m c (n + 1)).2 b j := by
  unfold packed
  rw [dif_neg (show ¬(i 2).val < 512 by omega), h0]
  exact congrArg₂ (st m c (n + 1)).2 (Fin.ext h1) (Fin.ext (by show (i 2).val - 512 = j.val; omega))

/-! ## What each point writes back, and the array after the run -/

/-- Point `t` writes back slab `t` of the packed array. -/
theorem flushed_eq (c : Dev nD) (t : Fin cfg0.N) (hf : (cfg0.win 4).flush t = true) :
    (dats m 0 c).flushed 4 t = ((cfg0.win 4).blk t).view.read (Elt Ideal) (packed m c) := by
  show (cfg0.win 4).cut (grid0.coords t) ((dats m 0 c).after 4 t) = _
  rw [after0_4]
  funext y
  rw [View.read_apply]
  obtain ⟨-, -, -, -, ⟨e0, e1, e2⟩⟩ := idx_facts t
  have hy0 : (y 0).val < 1 := (y 0).isLt
  have hy1 : (y 1).val < 128 := (y 1).isLt
  have hy2 : (y 2).val < 1024 := (y 2).isLt
  have hemb0 : ((((cfg0.win 4).blk t).view.emb y) 0).val = t.val := by
    show win0_4.index t 0 * 1 + 1 * (y 0).val = t.val
    rw [e0]; omega
  have hemb1 : ((((cfg0.win 4).blk t).view.emb y) 1).val = (y 1).val := by
    show win0_4.index t 1 * 128 + 1 * (y 1).val = (y 1).val
    rw [e1]; omega
  have hemb2 : ((((cfg0.win 4).blk t).view.emb y) 2).val = (y 2).val := by
    show win0_4.index t 2 * 1024 + 1 * (y 2).val = (y 2).val
    rw [e2]; omega
  have hx : (cfg0.win 4).xinj (grid0.coords t) y = ix3 (⟨(y 0).val, hy0⟩ : Fin 1) (⟨(y 1).val, hy1⟩ : Fin 128) (⟨(y 2).val, hy2⟩ : Fin 1024) :=
    funext fun a => match a with
      | ⟨0, _⟩ => rfl
      | ⟨1, _⟩ => rfl
      | ⟨2, _⟩ => rfl
  show (outsAt0 m c t.val t.isLt).1 ((cfg0.win 4).xinj (grid0.coords t) y) = packed m c (((cfg0.win 4).blk t).view.emb y)
  rw [hx]
  by_cases h : (y 2).val < 512
  · rw [packed_cell m c t.val t.isLt ⟨(y 0).val, hy0⟩ ⟨(y 1).val, hy1⟩ ⟨(y 2).val, h⟩ ⟨(y 2).val, hy2⟩ rfl,
      packed_apply_cell m c t.val ⟨(y 1).val, hy1⟩ ⟨(y 2).val, h⟩ _ hemb0 hemb1 hemb2]
  · rw [packed_hid m c t.val t.isLt ⟨(y 0).val, hy0⟩ ⟨(y 1).val, hy1⟩ ⟨(y 2).val - 512, by omega⟩ ⟨(y 2).val, hy2⟩ (by show (y 2).val = 512 + ((y 2).val - 512); omega),
      packed_apply_hid m c t.val ⟨(y 1).val, hy1⟩ ⟨(y 2).val - 512, by omega⟩ _ hemb0 hemb1 (by rw [hemb2]; show (y 2).val = 512 + ((y 2).val - 512); omega)]

/-- Every entry of the array lies in the block of the point of its time step: the 64 slabs tile it. -/
theorem final (c : Dev nD) : (dats m 0 c).arrAt 4 cfg0.N = packed m c :=
  (dats m 0 c).arrAt_eq_of_cover 4 (packed m c) (flushed_eq m c) fun i => by
    have hN : cfg0.N = 64 := N_0
    have h0 : (i 0 : Nat) < 64 := (i 0).isLt
    have h1 : (i 1 : Nat) < 128 := (i 1).isLt
    have h2 : (i 2 : Nat) < 1024 := (i 2).isLt
    have ht : (i 0 : Nat) < cfg0.N := lt_of_lt_of_eq h0 N_0.symm
    refine ⟨⟨(i 0 : Nat), ht⟩, flush0_4 _, ?_⟩
    obtain ⟨-, -, -, -, ⟨e0, e1, e2⟩⟩ := idx_facts ⟨(i 0 : Nat), ht⟩
    show i ∈ ((View.whole main_v6).slice (win0_4.rect ⟨(i 0 : Nat), ht⟩)).set
    rw [View.set_slice_whole, Rect.mem_set_unit]
    intro a
    dsimp only at e0
    match a with
    | ⟨0, _⟩ =>
      show win0_4.index ⟨(i 0 : Nat), ht⟩ 0 * 1 ≤ (i 0 : Nat) ∧ (i 0 : Nat) < win0_4.index ⟨(i 0 : Nat), ht⟩ 0 * 1 + 1
      rw [e0]; omega
    | ⟨1, _⟩ =>
      show win0_4.index ⟨(i 0 : Nat), ht⟩ 1 * 128 ≤ (i 1 : Nat) ∧ (i 1 : Nat) < win0_4.index ⟨(i 0 : Nat), ht⟩ 1 * 128 + 128
      rw [e1]; omega
    | ⟨2, _⟩ =>
      show win0_4.index ⟨(i 0 : Nat), ht⟩ 2 * 1024 ≤ (i 2 : Nat) ∧ (i 2 : Nat) < win0_4.index ⟨(i 0 : Nat), ht⟩ 2 * 1024 + 1024
      rw [e2]; omega

/-! ## The two slices after the region, and the run -/

/-- The array the region leaves, as the lines after it find it. -/
theorem region_array (c : Dev nD) :
    Pipeline.withArrays (cfgs 0).spec c (V0 m c) (fun w => (dats m 0 c).arrAt w (cfgs 0).N) (Proc.devRef .tc main_v6)
      = packed m c :=
  (Pipeline.withArrays_arr spec0 launch0.win.arr_inj c _ _ 4).trans (final m c)

/-- The first slice, columns 0 … 511 of every slab, is the sequence of cell states. -/
theorem tail_cy (c : Dev nD) :
    Pipeline.afterTail₀ cfgs (dats m) 0 (V0 m) [hostOps1] c main_v7
      = (fun (i : S64x128x512.Idx) => Cert.Lstm.cySeq (W m c) (Xr m c) (C0 m c) (H0 m c) (i 0) (i 1) (i 2)) := by
  unfold Pipeline.afterTail₀
  show StableHlo.after hostOps1 _ (Proc.devRef .tc main_v7) = _
  after_results
  rw [region_array m c]
  funext i
  obtain ⟨n, b, j, rfl⟩ : ∃ (n : Fin 64) (b : Fin 128) (j : Fin 512), i = ix3 n b j := ⟨i 0, i 1, i 2, eq_ix3 i⟩
  have hj : j.val < 1024 := by have := j.isLt; omega
  refine (extractStridedSlice_apply _ _ _ (ix3 n b j) (ix3 n b (⟨j.val, hj⟩ : Fin 1024) : S64x128x1024.Idx) (fun a => ?_)).trans ?_
  · match a with
    | ⟨0, _⟩ => exact (Nat.zero_add _).symm
    | ⟨1, _⟩ => exact (Nat.zero_add _).symm
    | ⟨2, _⟩ => exact (Nat.zero_add _).symm
  · exact packed_apply_cell m c n.val b j _ rfl rfl rfl

/-- The second slice, columns 512 … 1023 of every slab, is the sequence of hidden states. -/
theorem tail_hy (c : Dev nD) :
    Pipeline.afterTail₀ cfgs (dats m) 0 (V0 m) [hostOps1] c main_v8
      = (fun (i : S64x128x512.Idx) => Cert.Lstm.hySeq (W m c) (Xr m c) (C0 m c) (H0 m c) (i 0) (i 1) (i 2)) := by
  unfold Pipeline.afterTail₀
  show StableHlo.after hostOps1 _ (Proc.devRef .tc main_v8) = _
  after_results
  rw [region_array m c]
  funext i
  obtain ⟨n, b, j, rfl⟩ : ∃ (n : Fin 64) (b : Fin 128) (j : Fin 512), i = ix3 n b j := ⟨i 0, i 1, i 2, eq_ix3 i⟩
  have hj : 512 + j.val < 1024 := by have := j.isLt; omega
  refine (extractStridedSlice_apply _ _ _ (ix3 n b j) (ix3 n b (⟨512 + j.val, hj⟩ : Fin 1024) : S64x128x1024.Idx) (fun a => ?_)).trans ?_
  · match a with
    | ⟨0, _⟩ => exact (Nat.zero_add _).symm
    | ⟨1, _⟩ => exact (Nat.zero_add _).symm
    | ⟨2, _⟩ => rfl
  · exact packed_apply_hid m c n.val b j _ rfl rfl rfl

/-- THE RUN. From any memory with zero counters every weakly fair execution of the program terminates; the first result
    is the sequence of cell states and the second the sequence of hidden states of the recurrence, over the weights, the
    initial states and the input pre-activations as the region finds them; the eight arguments end unchanged. -/
theorem run : θ_run Cert.ReferenceIdeal.defs (onTc (τ := τ) (main (F := Ideal))) ⟨m, fun _ => 0, ρ⟩ fun r => ∀ c : Dev nD,
      r.2.mem ((c : Thread nD τ).loc main_v7)
        = (fun (i : S64x128x512.Idx) => Cert.Lstm.cySeq (W m c) (Xr m c) (C0 m c) (H0 m c) (i 0) (i 1) (i 2))
      ∧ r.2.mem ((c : Thread nD τ).loc main_v8)
        = (fun (i : S64x128x512.Idx) => Cert.Lstm.hySeq (W m c) (Xr m c) (C0 m c) (H0 m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).2 main_v7 (Pipeline.mem_restRefs_of main_v7 (by decide) (by decide))).trans (tail_cy m c),
     ((h c).2 main_v8 (Pipeline.mem_restRefs_of main_v8 (by decide) (by decide))).trans (tail_hy m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).1 1).trans (((dats m 0 c).arrAt_in 1 rfl _).trans ((A_eq m c 1).trans (V_main_arg6 m c))),
     ((h c).2 main_arg7 (Pipeline.mem_restRefs_of main_arg7 (by decide) (by decide))).trans (W_main_arg7 m (dats m) c)⟩)
    (run_main m ρ)

end Cert.ReferenceIdeal.RefValue

end
-- ==== Proof.GridRows.lean ====
/-
  Rows of a matrix taken at a grid of row numbers.

  `x[idx]` of a matrix `x : [N, D]` at an integer array `idx : [R, C]` (carried as `[R, C, 1]`): the result is
  `[R, C, D]`, and its entry (r, c, d) is `x` at the row whose number is the word `idx[r, c, 0]`, read signed and
  clamped into [0, N − 1], column d. At any extents; the dimension numbers' conditions are a hypothesis.
-/
import Idealize.ShloMosaic.Lib.ValueIdx
import Idealize.ShloMosaic.PureOps.ShapeOps

noncomputable section

open Idealize.ShloMosaic Idealize.ShloMosaic.ValueIdx

namespace Cert.Lstm.Rows

variable {α : Type}

/-- The dimension numbers of `x[idx]` for `x : [N, D]`, `idx : [R, C, 1]`, result `[R, C, D]`. -/
abbrev gridDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Entry `(r, c, d)` of `x[idx]` is `x` at row `idx[r, c, 0]` (read signed, clamped into `[0, N − 1]`), column `d`. -/
theorem gather_grid_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (gridDims N D R C wf) x idx (ix3 r c d)
      = x (ix2 ⟨min (idx (ix3 r c (0 : Fin 1))).toInt.toNat (N - 1), by omega⟩ d) := by
  unfold Host.gather
  congr 1
  funext a
  refine Fin.ext ?_
  match a with
  | ⟨0, _⟩ =>
    show (gridDims N D R C wf).start (ix3 r c d) idx 0 + (gridDims N D R C wf).batchCoord (ix3 r c d) 0
      + (gridDims N D R C wf).offCoord (ix3 r c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gridDims N D R C wf).startIndexMap from List.mem_singleton.mpr rfl)]
    have hsi : (gridDims N D R C wf).siIdx (ix3 r c d) ⟨List.idxOf (0 : Fin 2) (gridDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (gridDims N D R C wf).start (ix3 r c d) idx 1 + (gridDims N D R C wf).batchCoord (ix3 r c d) 1
      + (gridDims N D R C wf).offCoord (ix3 r c d) 1 = d.val
    have h1 : (gridDims N D R C wf).start (ix3 r c d) idx 1 = 0 := by
      unfold GatherDims.start; exact dif_neg (show (1 : Fin 2) ∉ ([0] : List (Fin 2)) from by decide)
    have h3 : (gridDims N D R C wf).offCoord (ix3 r c d) 1 = d.val := rfl
    rw [h1, GatherDims.batchCoord_eq_zero _ _ _ List.not_mem_nil, h3]
    omega

end Cert.Lstm.Rows

end
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.RefHost.lean ====
/-
  The input pre-activations the idealized reference's region finds, read at coordinates.

  Before its region the program multiplies the whole table by the input weights and adds the two bias rows, one after
  the other, to every row of the product: a fused table of 16384 rows of 2048 gate columns. It then takes, for every
  step and sequence, the fused row the token names: the token word is normalised (a negative word has the table's
  height added), the fused row with that number (read signed and clamped) is taken, and the row is kept only where the
  normalised word is a row number, 0 ≤ w ≤ 16383; elsewhere the entry is the not-a-number word. For tokens in
  [-16384, 16384) the normalised word always is a row number, so the rows taken are kept everywhere, and entry
  (n, b, q) is  Σ_k table[row n b, k] · wi[k, q] + bi[q] + bh[q].
-/
import proofs.«167809_g2000106098220206_pallasbulk_530_31_alg».proof.Proof.Gen.ReferenceIdeal.Frame.Runs
import proofs.«167809_g2000106098220206_pallasbulk_530_31_alg».proof.Proof.Spec
import proofs.«167809_g2000106098220206_pallasbulk_530_31_alg».proof.Proof.Rows
import proofs.«167809_g2000106098220206_pallasbulk_530_31_alg».proof.Proof.GridRows
import proofs.«167809_g2000106098220206_pallasbulk_530_31_alg».proof.Proof.LibTypedRefs
import proofs.«167809_g2000106098220206_pallasbulk_530_31_alg».proof.Proof.LibAfterAppend
import Idealize.ShloMosaic.Lib.Pipeline.Value
import Idealize.ShloMosaic.Lib.ValueLayout
import Idealize.ShloMosaic.Lib.IdealHost
import Idealize.ShloMosaic.Lib.ReduceAll
import Idealize.ShloMosaic.PureOps.Ideal.Laws

noncomputable section

namespace Cert.ReferenceIdeal.HostValue

open Cert.ReferenceIdeal Cert.ReferenceIdeal.Gen Idealize.ShloMosaic Idealize.ShloMosaic.TcCoe
open Idealize.ShloMosaic.ValueIdx Idealize.ShloMosaic.StableHlo Cert.Lstm

/-! ## An "and" over words that are all one -/

/-- A left fold by "and" from one over words that are all one is one. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- A reduction by "and" from one of an array of ones is one everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_one x _ _ hi (fun i _ => hx i)

/-! ## The fused table -/

/-- The table times the input weights, plus the first bias row, plus the second, on every row. -/
def fused (tab : S16384x512.Idx → EReal) (wi : S512x2048.Idx → EReal) (bi bh : S1x2048.Idx → EReal) :
    S16384x2048.Idx → EReal :=
  addf (F := Ideal) (φ := .f32)
    (addf (F := Ideal) (φ := .f32) (Host.dotGeneral (F := Ideal) (φ₁ := .f32) (φ₂ := .f32) dot_S16384x512_S512x2048_S16384x2048_1_0_0_1_n_n none tab wi)
      (broadcastInDim S16384x2048 ![0, 1] bcast_S1x2048_S16384x2048_0_1 bi))
    (broadcastInDim S16384x2048 ![0, 1] bcast_S1x2048_S16384x2048_0_1 bh)

/-- Entry (r, q) of the product: the sum over the 512 table columns. -/
theorem product_apply (tab : FVec Ideal S16384x512 .f32) (wi : FVec Ideal S512x2048 .f32) (r : Fin 16384) (q : Fin 2048) :
    Host.dotGeneral (F := Ideal) dot_S16384x512_S512x2048_S16384x2048_1_0_0_1_n_n none tab wi (ix2 r q) = ∑ k : Fin 512, tab (ix2 r k) * wi (ix2 k q) := by
  simp only [Host.dotGeneral]
  rw [Ideal.dotGeneral_apply, ← Equiv.sum_comp (contrEquiv1 dot_S16384x512_S512x2048_S16384x2048_1_0_0_1_n_n 512 rfl rfl).symm]
  refine Finset.sum_congr rfl fun c _ => ?_
  have c2 := contrEquiv1_symm_val dot_S16384x512_S512x2048_S16384x2048_1_0_0_1_n_n 512 rfl rfl c
  have l2 : dot_S16384x512_S512x2048_S16384x2048_1_0_0_1_n_n.lhsIdx (ix2 r q) ((contrEquiv1 _ 512 rfl rfl).symm c) = ix2 r c := by
    funext ax; apply Fin.ext
    match ax with
    | ⟨0, _⟩ => simp [DotDims.lhsIdx, dot_S16384x512_S512x2048_S16384x2048_1_0_0_1_n_n]; rfl
    | ⟨1, _⟩ => simp [DotDims.lhsIdx, dot_S16384x512_S512x2048_S16384x2048_1_0_0_1_n_n]; exact c2
  have r2 : dot_S16384x512_S512x2048_S16384x2048_1_0_0_1_n_n.rhsIdx (ix2 r q) ((contrEquiv1 _ 512 rfl rfl).symm c) = ix2 c q := by
    funext ax; apply Fin.ext
    match ax with
    | ⟨0, _⟩ => simp [DotDims.rhsIdx, dot_S16384x512_S512x2048_S16384x2048_1_0_0_1_n_n]; exact c2
    | ⟨1, _⟩ => simp [DotDims.rhsIdx, dot_S16384x512_S512x2048_S16384x2048_1_0_0_1_n_n]; rfl
  rw [l2, r2]

/-- A bias row copied to every row of the fused table reads the bias at the column. -/
theorem biasRows_apply (bi : S1x2048.Idx → EReal) (r : Fin 16384) (q : Fin 2048) :
    broadcastInDim S16384x2048 ![0, 1] bcast_S1x2048_S16384x2048_0_1 bi (ix2 r q) = bi (ix2 (0 : Fin 1) q) :=
  broadcastInDim_apply ![0, 1] bcast_S1x2048_S16384x2048_0_1 bi (ix2 r q) (ix2 (0 : Fin 1) q)
    (fun a => match a with | ⟨0, _⟩ => rfl | ⟨1, _⟩ => rfl)

/-- Entry (r, q) of the fused table. -/
theorem fused_apply (tab : S16384x512.Idx → EReal) (wi : S512x2048.Idx → EReal) (bi bh : S1x2048.Idx → EReal)
    (r : Fin 16384) (q : Fin 2048) :
    fused tab wi bi bh (ix2 r q)
      = ((∑ k : Fin 512, tab (ix2 r k) * wi (ix2 k q)) + bi (ix2 (0 : Fin 1) q)) + bh (ix2 (0 : Fin 1) q) := by
  show (Host.dotGeneral (F := Ideal) (φ₁ := .f32) (φ₂ := .f32) dot_S16384x512_S512x2048_S16384x2048_1_0_0_1_n_n none tab wi (ix2 r q)
      + broadcastInDim S16384x2048 ![0, 1] bcast_S1x2048_S16384x2048_0_1 bi (ix2 r q))
      + broadcastInDim S16384x2048 ![0, 1] bcast_S1x2048_S16384x2048_0_1 bh (ix2 r q) = _
  rw [product_apply, biasRows_apply, biasRows_apply]

/-! ## The row numbers -/

/-- The 64 × 128 token words, each normalised. -/
def normGrid (t : IVec S64x128 32) : IVec S64x128 32 :=
  select (cmpi .slt t (broadcastInDim S64x128 ![] bcast_S_S64x128 (constantI S_ 32 0#32)))
    (addi t (broadcastInDim S64x128 ![] bcast_S_S64x128 (constantI S_ 32 16384#32))) t

theorem normGrid_apply (t : IVec S64x128 32) (i : S64x128.Idx) : normGrid t i = Rows.norm (t i) := by
  show Scalar.select (IntOp.cmpi .slt (t i) (broadcastInDim S64x128 ![] bcast_S_S64x128 (constantI S_ 32 0#32) i))
    (IntOp.addi (t i) (broadcastInDim S64x128 ![] bcast_S_S64x128 (constantI S_ 32 16384#32) i)) (t i) = _
  rw [broadcastInDim_scalar_apply, broadcastInDim_scalar_apply]
  rfl

/-- The normalised words as the 64 × 128 × 1 array of row numbers. -/
def idxGrid (tok : IVec S64x128 32) : IVec S64x128x1 32 :=
  broadcastInDim S64x128x1 ![0, 1] bcast_S64x128_S64x128x1_0_1 (normGrid tok)

theorem idxGrid_apply (tok : IVec S64x128 32) (n : Fin 64) (b : Fin 128) :
    idxGrid tok (ix3 n b (0 : Fin 1)) = Rows.norm (tok (ix2 n b)) := by
  unfold idxGrid
  refine (broadcastInDim_apply ![0, 1] bcast_S64x128_S64x128x1_0_1 _ (ix3 n b (0 : Fin 1)) (ix2 n b)
    (fun a => match a with | ⟨0, _⟩ => rfl | ⟨1, _⟩ => rfl)).trans ?_
  exact normGrid_apply tok (ix2 n b)

/-! ## The rows taken, kept where the row number is in range -/

/-- The fused rows at the row numbers `idx`, kept where `0 ≤ idx ≤ 16383`, the not-a-number word elsewhere. -/
def taken (fusedA : S16384x2048.Idx → EReal) (idx : IVec S64x128x1 32) : S64x128x2048.Idx → EReal :=
  select
    (broadcastInDim S64x128x2048 ![0, 1] bcast_S64x128_S64x128x2048_0_1
      (Host.reduce IntOp.andi
        (andi (cmpi .sge idx (broadcastInDim S64x128x1 ![] bcast_S_S64x128x1 (constantI S_ 32 0#32)))
          (cmpi .sle idx (broadcastInDim S64x128x1 ![0, 1, 2] bcast_S1x1x1_S64x128x1_0_1_2
            (broadcastInDim S1x1x1 ![2] bcast_S1_S1x1x1_2 (constantI S1 32 16383#32)))))
        (constantI S_ 1 1#1) reducesTo_S64x128x1_S64x128_d2 h_S_))
    (Host.gather gather_S16384x2048_S64x128x1_S64x128x2048_2_0_n_n_0_2_12048 fusedA idx)
    (broadcastInDim S64x128x2048 ![] bcast_S_S64x128x2048 (constant (F := Ideal) S_ .f32 0x7FC00000#32))

/-- Where every row number is in range, entry (n, b, q) of the rows taken is the fused table at that row. -/
theorem taken_apply (fusedA : S16384x2048.Idx → EReal) (idx : IVec S64x128x1 32)
    (hin : ∀ (n : Fin 64) (b : Fin 128), 0 ≤ (idx (ix3 n b (0 : Fin 1))).toInt ∧ (idx (ix3 n b (0 : Fin 1))).toInt ≤ 16383)
    (n : Fin 64) (b : Fin 128) (q : Fin 2048) :
    taken fusedA idx (ix3 n b q)
      = fusedA (ix2 ⟨min (idx (ix3 n b (0 : Fin 1))).toInt.toNat (16384 - 1), by omega⟩ q) := by
  have hall : ∀ i : S64x128x1.Idx,
      andi (cmpi .sge idx (broadcastInDim S64x128x1 ![] bcast_S_S64x128x1 (constantI S_ 32 0#32)))
        (cmpi .sle idx (broadcastInDim S64x128x1 ![0, 1, 2] bcast_S1x1x1_S64x128x1_0_1_2
          (broadcastInDim S1x1x1 ![2] bcast_S1_S1x1x1_2 (constantI S1 32 16383#32)))) i = 1#1 := by
    intro i
    obtain ⟨n', b', z, rfl⟩ : ∃ (n' : Fin 64) (b' : Fin 128) (z : Fin 1), i = ix3 n' b' z := ⟨i 0, i 1, i 2, eq_ix3 i⟩
    obtain rfl : z = 0 := Subsingleton.elim _ _
    have h0 : broadcastInDim S64x128x1 ![] bcast_S_S64x128x1 (constantI S_ 32 0#32) (ix3 n' b' (0 : Fin 1)) = 0#32 := rfl
    have h1 : broadcastInDim S64x128x1 ![0, 1, 2] bcast_S1x1x1_S64x128x1_0_1_2
        (broadcastInDim S1x1x1 ![2] bcast_S1_S1x1x1_2 (constantI S1 32 16383#32)) (ix3 n' b' (0 : Fin 1)) = 16383#32 := rfl
    show IntOp.andi (IntOp.cmpi .sge (idx (ix3 n' b' (0 : Fin 1))) _) (IntOp.cmpi .sle (idx (ix3 n' b' (0 : Fin 1))) _) = 1#1
    rw [h0, h1]
    refine IntOp.andi_eq_one.2 ⟨IntOp.cmpi_sge.2 ?_, IntOp.cmpi_sle.2 ?_⟩
    · exact (hin n' b').1
    · exact (hin n' b').2
  have hc : broadcastInDim S64x128x2048 ![0, 1] bcast_S64x128_S64x128x2048_0_1
      (Host.reduce IntOp.andi
        (andi (cmpi .sge idx (broadcastInDim S64x128x1 ![] bcast_S_S64x128x1 (constantI S_ 32 0#32)))
          (cmpi .sle idx (broadcastInDim S64x128x1 ![0, 1, 2] bcast_S1x1x1_S64x128x1_0_1_2
            (broadcastInDim S1x1x1 ![2] bcast_S1_S1x1x1_2 (constantI S1 32 16383#32)))))
        (constantI S_ 1 1#1) reducesTo_S64x128x1_S64x128_d2 h_S_) (ix3 n b q) = 1#1 := by
    refine (broadcastInDim_apply ![0, 1] bcast_S64x128_S64x128x2048_0_1 _ (ix3 n b q) (ix2 n b)
      (fun a => match a with | ⟨0, _⟩ => rfl | ⟨1, _⟩ => rfl)).trans ?_
    exact reduce_andi_one _ _ _ _ _ rfl hall
  unfold taken
  rw [select_apply, hc, select_one]
  exact Rows.gather_grid_apply (N := 16384) (D := 2048) (R := 64) (C := 128) (by decide)
    gather_S16384x2048_S64x128x1_S64x128x2048_2_0_n_n_0_2_12048_wf fusedA idx n b q

/-! ## The two stretches of the row taking, read back over any contents -/

/-- The operations that make the array of row numbers. -/
def takeHead : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S64x128, .i32⟩) (broadcastInDim S64x128 ![] bcast_S_S64x128),
    StableHlo.TRef.binary (.of main_arg0 : StableHlo.TRef sig ⟨S64x128, .i32⟩) (.of main_call0_v0 : StableHlo.TRef sig ⟨S64x128, .i32⟩) (.of main_call0_v1 : StableHlo.TRef sig ⟨S64x128, .i1⟩) (cmpi .slt),
    StableHlo.TRef.nullary (.of main_call0_c_0 : StableHlo.TRef sig ⟨S_, .i32⟩) (constantI S_ 32 16384#32),
    StableHlo.TRef.unary (.of main_call0_c_0 : StableHlo.TRef sig ⟨S_, .i32⟩) (.of main_call0_v2 : StableHlo.TRef sig ⟨S64x128, .i32⟩) (broadcastInDim S64x128 ![] bcast_S_S64x128),
    StableHlo.TRef.binary (.of main_arg0 : StableHlo.TRef sig ⟨S64x128, .i32⟩) (.of main_call0_v2 : StableHlo.TRef sig ⟨S64x128, .i32⟩) (.of main_call0_v3 : StableHlo.TRef sig ⟨S64x128, .i32⟩) addi,
    StableHlo.TRef.ternary (.of main_call0_v1 : StableHlo.TRef sig ⟨S64x128, .i1⟩) (.of main_call0_v3 : StableHlo.TRef sig ⟨S64x128, .i32⟩) (.of main_arg0 : StableHlo.TRef sig ⟨S64x128, .i32⟩) (.of main_call0_v4 : StableHlo.TRef sig ⟨S64x128, .i32⟩) select,
    StableHlo.TRef.unary main_call0_call0.v0 (.of main_call0_v5 : StableHlo.TRef sig ⟨S64x128x1, .i32⟩) (broadcastInDim S64x128x1 ![0, 1] bcast_S64x128_S64x128x1_0_1) ]

/-- The operations that test the row numbers, take the rows and keep them where the test holds. -/
def takeTail : List (HloOp τ sig (Elt Ideal)) :=
  [ StableHlo.TRef.nullary (.of main_call0_c_1 : StableHlo.TRef sig ⟨S1, .i32⟩) (constantI S1 32 16383#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S64x128x1, .i32⟩) (broadcastInDim S64x128x1 ![] bcast_S_S64x128x1),
    StableHlo.TRef.binary (.of main_call0_v5 : StableHlo.TRef sig ⟨S64x128x1, .i32⟩) (.of main_call0_v6 : StableHlo.TRef sig ⟨S64x128x1, .i32⟩) (.of main_call0_v7 : StableHlo.TRef sig ⟨S64x128x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S64x128x1, .i32⟩) (broadcastInDim S64x128x1 ![0, 1, 2] bcast_S1x1x1_S64x128x1_0_1_2),
    StableHlo.TRef.binary (.of main_call0_v5 : StableHlo.TRef sig ⟨S64x128x1, .i32⟩) (.of main_call0_v9 : StableHlo.TRef sig ⟨S64x128x1, .i32⟩) (.of main_call0_v10 : StableHlo.TRef sig ⟨S64x128x1, .i1⟩) (cmpi .sle),
    StableHlo.TRef.binary (.of main_call0_v7 : StableHlo.TRef sig ⟨S64x128x1, .i1⟩) (.of main_call0_v10 : StableHlo.TRef sig ⟨S64x128x1, .i1⟩) (.of main_call0_v11 : StableHlo.TRef sig ⟨S64x128x1, .i1⟩) andi,
    StableHlo.TRef.nullary (.of main_call0_c_3 : StableHlo.TRef sig ⟨S_, .i1⟩) (constantI S_ 1 1#1),
    StableHlo.TRef.binary (.of main_call0_v11 : StableHlo.TRef sig ⟨S64x128x1, .i1⟩) (.of main_call0_c_3 : StableHlo.TRef sig ⟨S_, .i1⟩) (.of main_call0_v12 : StableHlo.TRef sig ⟨S64x128, .i1⟩) (fun x v => Host.reduce IntOp.andi x v reducesTo_S64x128x1_S64x128_d2 h_S_),
    StableHlo.TRef.binary (.of main_v4 : StableHlo.TRef sig ⟨S16384x2048, .f32⟩) (.of main_call0_v5 : StableHlo.TRef sig ⟨S64x128x1, .i32⟩) (.of main_call0_v13 : StableHlo.TRef sig ⟨S64x128x2048, .f32⟩) (fun x i => Host.gather gather_S16384x2048_S64x128x1_S64x128x2048_2_0_n_n_0_2_12048 x i),
    StableHlo.TRef.unary (.of main_call0_v12 : StableHlo.TRef sig ⟨S64x128, .i1⟩) (.of main_call0_v14 : StableHlo.TRef sig ⟨S64x128x2048, .i1⟩) (broadcastInDim S64x128x2048 ![0, 1] bcast_S64x128_S64x128x2048_0_1),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S64x128x2048, .f32⟩) (broadcastInDim S64x128x2048 ![] bcast_S_S64x128x2048),
    StableHlo.TRef.ternary (.of main_call0_v14 : StableHlo.TRef sig ⟨S64x128x2048, .i1⟩) (.of main_call0_v13 : StableHlo.TRef sig ⟨S64x128x2048, .f32⟩) (.of main_call0_v15 : StableHlo.TRef sig ⟨S64x128x2048, .f32⟩) (.of main_v5 : StableHlo.TRef sig ⟨S64x128x2048, .f32⟩) select ]

theorem take_split : (hostOps0_1 : List (HloOp τ sig (Elt Ideal))) = takeHead ++ takeTail := rfl

variable (W : Valuation τ sig (Elt Ideal))

theorem head_idx : (after takeHead W (Proc.devRef .tc main_call0_v5) : S64x128x1.Idx → BitVec 32)
    = idxGrid (W (Proc.devRef .tc main_arg0)) := by
  dsimp only [takeHead]
  after_results
  simp only [TypedRefs.ofBuf_toBuf]
  rfl

theorem head_fused : after takeHead W (Proc.devRef .tc main_v4) = W (Proc.devRef .tc main_v4) := by
  dsimp only [takeHead]
  after_results
  all_goals rfl

theorem tail_taken : (after takeTail W (Proc.devRef .tc main_v5) : S64x128x2048.Idx → EReal)
    = taken (W (Proc.devRef .tc main_v4)) (W (Proc.devRef .tc main_call0_v5)) := by
  dsimp only [takeTail]
  after_results
  simp only [TypedRefs.ofBuf_toBuf]
  rfl

theorem first_fused : (after (hostOps0 : List (HloOp τ sig (Elt Ideal))) W (Proc.devRef .tc main_v4) : S16384x2048.Idx → EReal)
    = fused (W (Proc.devRef .tc main_arg3)) (W (Proc.devRef .tc main_arg4)) (W (Proc.devRef .tc main_arg5))
        (W (Proc.devRef .tc main_arg7)) := by
  dsimp only [Gen.hostOps0]
  after_results
  all_goals rfl

theorem first_tokens : after (hostOps0 : List (HloOp τ sig (Elt Ideal))) W (Proc.devRef .tc main_arg0)
    = W (Proc.devRef .tc main_arg0) := by
  dsimp only [Gen.hostOps0]
  after_results
  all_goals rfl

/-! ## The pre-activations as the region finds them -/

variable (m : (ℓ : Loc nD τ sig) → Buf (Elt Ideal) ℓ)

theorem xall_eq (c : Dev nD) : (V m c main_v5 : S64x128x2048.Idx → EReal)
    = taken (fused (m ((c : Thread nD τ).loc main_arg3)) (m ((c : Thread nD τ).loc main_arg4))
        (m ((c : Thread nD τ).loc main_arg5)) (m ((c : Thread nD τ).loc main_arg7)))
        (idxGrid (m ((c : Thread nD τ).loc main_arg0))) := by
  have e : (List.flatten [hostOps0, hostOps0_1] : List (HloOp τ sig (Elt Ideal))) = hostOps0 ++ (takeHead ++ takeTail) := by
    rw [← take_split]
    simp only [List.flatten_cons, List.flatten_nil, List.append_nil]
  show after (List.flatten [hostOps0, hostOps0_1]) (fun b => m (c, b)) (Proc.devRef .tc main_v5) = _
  rw [e, AfterAppend.after_append, AfterAppend.after_append, tail_taken, head_fused, head_idx, first_fused, first_tokens]

/-- The pre-activation of step n, sequence b, gate column q, with the biases added one after the other. -/
def preact (tab : S16384x512.Idx → EReal) (wi : S512x2048.Idx → EReal) (bi bh : S1x2048.Idx → EReal)
    (tok : S64x128.Idx → BitVec 32) (n : ℕ) (b : Fin 128) (q : Fin 2048) : EReal :=
  ((∑ k : Fin 512, tab (ix2 (Rows.rowAt tok n b) k) * wi (ix2 k q)) + bi (ix2 (0 : Fin 1) q)) + bh (ix2 (0 : Fin 1) q)

/-- With every token in [-16384, 16384), entry (n, b, q) of what the region finds is that pre-activation. -/
theorem xall_apply (c : Dev nD)
    (hr : ∀ (n : Fin 64) (b : Fin 128), -16384 ≤ BitVec.toInt (m ((c : Thread nD τ).loc main_arg0) (ix2 n b))
      ∧ BitVec.toInt (m ((c : Thread nD τ).loc main_arg0) (ix2 n b)) < 16384)
    (n : Fin 64) (b : Fin 128) (q : Fin 2048) :
    V m c main_v5 (ix3 n b q)
      = preact (m ((c : Thread nD τ).loc main_arg3)) (m ((c : Thread nD τ).loc main_arg4))
          (m ((c : Thread nD τ).loc main_arg5)) (m ((c : Thread nD τ).loc main_arg7))
          (m ((c : Thread nD τ).loc main_arg0)) n.val b q := by
  rw [xall_eq]
  rw [taken_apply _ _ (fun n' b' => by rw [idxGrid_apply]; exact Rows.inRange_norm _ (hr n' b')) n b q]
  unfold preact
  rw [← fused_apply, Rows.rowAt_of_lt]
  refine congrArg _ (congrArg (fun r => ix2 r q) (Fin.ext ?_))
  show min (idxGrid (m ((c : Thread nD τ).loc main_arg0)) (ix3 n b (0 : Fin 1))).toInt.toNat (16384 - 1)
    = min (Rows.norm (m ((c : Thread nD τ).loc main_arg0) (ix2 n b))).toInt.toNat 16383
  rw [idxGrid_apply]

/-- The same as the specification's input pre-activation (the biases added together first). -/
theorem xall_xin (c : Dev nD)
    (hr : ∀ (n : Fin 64) (b : Fin 128), -16384 ≤ BitVec.toInt (m ((c : Thread nD τ).loc main_arg0) (ix2 n b))
      ∧ BitVec.toInt (m ((c : Thread nD τ).loc main_arg0) (ix2 n b)) < 16384)
    (n : Fin 64) (b : Fin 128) (q : Fin 2048) :
    V m c main_v5 (ix3 n b q)
      = Cert.Lstm.xin (fun r k => m ((c : Thread nD τ).loc main_arg3) (ix2 r k))
          (fun k q => m ((c : Thread nD τ).loc main_arg4) (ix2 k q))
          (fun q => m ((c : Thread nD τ).loc main_arg5) (ix2 (0 : Fin 1) q))
          (fun q => m ((c : Thread nD τ).loc main_arg7) (ix2 (0 : Fin 1) q))
          (Rows.rowAt (m ((c : Thread nD τ).loc main_arg0))) n.val b q := by
  rw [xall_apply m c hr n b q]
  unfold preact
  exact Cert.Lstm.xin_assoc (fun r k => m ((c : Thread nD τ).loc main_arg3) (ix2 r k))
    (fun k q => m ((c : Thread nD τ).loc main_arg4) (ix2 k q))
    (fun q => m ((c : Thread nD τ).loc main_arg5) (ix2 (0 : Fin 1) q))
    (fun q => m ((c : Thread nD τ).loc main_arg7) (ix2 (0 : Fin 1) q))
    (Rows.rowAt (m ((c : Thread nD τ).loc main_arg0))) n.val b q

end Cert.ReferenceIdeal.HostValue

end
-- ==== Proof.RefFinal.lean ====
/-
  The reference's two results as functions of the eight argument arrays.

  The run gives the results as the recurrence over the weights, the initial states and the input pre-activations the
  region is handed. For tokens in [-16384, 16384) those pre-activations are, at every one of the 64 steps, the embedding
  row of each sequence's token times the input weights plus the two biases; and the recurrence reads them at those 64
  steps only. So the two results are the encoder's cell-state and hidden-state sequences of the arguments.
-/
import proofs.«167809_g2000106098220206_pallasbulk_530_31_alg».proof.Proof.RefRun
import proofs.«167809_g2000106098220206_pallasbulk_530_31_alg».proof.Proof.RefHost
import proofs.«167809_g2000106098220206_pallasbulk_530_31_alg».proof.Proof.Outputs

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg)

/-- At each of the 64 steps the pre-activations the region is handed are those of the argument arrays. -/
theorem Xr_eq (c : Dev nD) (hr : ∀ (n : Fin 64) (b : Fin 128), -16384 ≤ BitVec.toInt (m ((c : Thread nD τ).loc main_arg0) (ix2 n b))
      ∧ BitVec.toInt (m ((c : Thread nD τ).loc main_arg0) (ix2 n b)) < 16384) (k : ℕ) (hk : k < 64) :
    Xr m c k = Cert.Lstm.xinOf (m ((c : Thread nD τ).loc main_arg0)) (m ((c : Thread nD τ).loc main_arg3)) (m ((c : Thread nD τ).loc main_arg4)) (m ((c : Thread nD τ).loc main_arg5)) (m ((c : Thread nD τ).loc main_arg7)) k := by
  funext b q
  unfold Xr
  rw [dif_pos hk]
  exact Cert.ReferenceIdeal.HostValue.xall_xin m c hr ⟨k, hk⟩ b q

/-- The sequence of cell states over the region's inputs is the encoder's first result of the arguments. -/
theorem cy_eq (c : Dev nD) (hr : ∀ (n : Fin 64) (b : Fin 128), -16384 ≤ BitVec.toInt (m ((c : Thread nD τ).loc main_arg0) (ix2 n b))
      ∧ BitVec.toInt (m ((c : Thread nD τ).loc main_arg0) (ix2 n b)) < 16384) :
    (fun (i : S64x128x512.Idx) => Cert.Lstm.cySeq (W m c) (Xr m c) (C0 m c) (H0 m c) (i 0) (i 1) (i 2))
      = Cert.Lstm.cyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  unfold Cert.Lstm.cyOf
  exact congrFun (congrFun (Cert.Lstm.cySeq_congr (W m c) (Xr m c) _ (C0 m c) (H0 m c) (i 0)
    (fun k hk => Xr_eq m c hr k hk)) (i 1)) (i 2)

/-- The sequence of hidden states over the region's inputs is the encoder's second result of the arguments. -/
theorem hy_eq (c : Dev nD) (hr : ∀ (n : Fin 64) (b : Fin 128), -16384 ≤ BitVec.toInt (m ((c : Thread nD τ).loc main_arg0) (ix2 n b))
      ∧ BitVec.toInt (m ((c : Thread nD τ).loc main_arg0) (ix2 n b)) < 16384) :
    (fun (i : S64x128x512.Idx) => Cert.Lstm.hySeq (W m c) (Xr m c) (C0 m c) (H0 m c) (i 0) (i 1) (i 2))
      = Cert.Lstm.hyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  unfold Cert.Lstm.hyOf
  exact congrFun (congrFun (Cert.Lstm.hySeq_congr (W m c) (Xr m c) _ (C0 m c) (H0 m c) (i 0)
    (fun k hk => Xr_eq m c hr k hk)) (i 1)) (i 2)

/-- THE RUN, over the arguments. For tokens in [-16384, 16384): every weakly fair execution of the program terminates with
    the first result the encoder's cell-state sequence and the second its hidden-state sequence of the eight argument
    arrays, and the arguments unchanged. -/
theorem run_out (hr : ∀ (c : Dev nD) (n : Fin 64) (b : Fin 128), -16384 ≤ BitVec.toInt (m ((c : Thread nD τ).loc main_arg0) (ix2 n b))
      ∧ BitVec.toInt (m ((c : Thread nD τ).loc main_arg0) (ix2 n b)) < 16384) :
    θ_run Cert.ReferenceIdeal.defs (onTc (τ := τ) (main (F := Ideal))) ⟨m, fun _ => 0, ρ⟩ fun r => ∀ c : Dev nD,
      r.2.mem ((c : Thread nD τ).loc main_v7) = Cert.Lstm.cyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8) = Cert.Lstm.hyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(h c).1.trans (cy_eq m c (hr c)), (h c).2.1.trans (hy_eq m c (hr c)), (h c).2.2⟩)
    (run m ρ)

end Cert.ReferenceIdeal.RefValue

end
-- ==== Proof.TokenRange.lean ====
/-
  The token range, read off the precondition.

  The precondition is one function of the eight argument arrays giving a single bit. Its last conjunct says of the
  tokens that every one is at least -16384 and less than 16384, as an "and" over all 64 × 128 entries. Here that bit
  is taken apart: if the whole precondition is one, each token, read as a signed integer, lies in [-16384, 16384).
  Both idealized programs state their precondition through this same function of their own argument arrays.
-/
import proofs.«167809_g2000106098220206_pallasbulk_530_31_alg».proof.Defs
import proofs.«167809_g2000106098220206_pallasbulk_530_31_alg».proof.Proof.Gen.Pre_finite_inputs
import Idealize.ShloMosaic.Lib.ReduceAll
import Idealize.ShloMosaic.Lib.ValueIdx
import Idealize.ShloMosaic.Lib.IdealHost
import Idealize.ShloMosaic.Lib.Affine

noncomputable section

namespace Cert.Lstm.TokenRange

open Idealize.ShloMosaic Idealize.ShloMosaic.ValueIdx Idealize.ShloMosaic.TcCoe Cert.Pre_finite_inputs

/-- A rank-0 array has one index. -/
instance : Subsingleton S_.Idx := ⟨fun a b => funext fun d => d.elim0⟩

/-- If the precondition's bit is one, every token lies in [-16384, 16384). -/
theorem range_of_fn {F : FTy → Type} [FloatOps F] (a0 : IVec S64x128 32) (a1 a2 : FVec F S128x512 .f32)
    (a3 : FVec F S16384x512 .f32) (a4 : FVec F S512x2048 .f32) (a5 : FVec F S1x2048 .f32)
    (a6 : FVec F S512x2048 .f32) (a7 : FVec F S1x2048 .f32)
    (h : fn (F := F) a0 a1 a2 a3 a4 a5 a6 a7 = fun _ => 1#1) (n : Fin 64) (b : Fin 128) :
    -16384 ≤ BitVec.toInt (a0 (ix2 n b)) ∧ BitVec.toInt (a0 (ix2 n b)) < 16384 := by
  -- the bit is the "and" of everything before with the tokens' conjunct
  have h0 : fn_part2 (F := F) a0 _ ix0 = 1#1 := congrFun h ix0
  dsimp only [fn_part2] at h0
  -- the tokens' conjunct is an "and" over all entries
  have h2 := (IntOp.andi_eq_one.1 h0).2
  have h3 := Host.reduce_andi_all _ _ _ _ _ h2 (ix2 n b)
  -- at one entry: the two comparisons
  obtain ⟨h4, h5⟩ := IntOp.andi_eq_one.1 h3
  have h6 := IntOp.cmpi_sge.1 h4
  have h7 := IntOp.cmpi_slt.1 h5
  rw [broadcastInDim_scalar_apply] at h6 h7
  have e1 : BitVec.toInt (constantI S_ 32 4294950912#32 ix0) = -16384 := by decide
  have e2 : BitVec.toInt (constantI S_ 32 16384#32 ix0) = 16384 := by decide
  rw [e1] at h6
  rw [e2] at h7
  exact ⟨h6, h7⟩

/-- Under the idealized kernel's precondition every token lies in [-16384, 16384). -/
theorem tokens_inRange_kernel
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 64) (b : Fin 128) :
    -16384 ≤ BitVec.toInt (m ((c : Thread Cert.KernelIdeal.nD Cert.KernelIdeal.τ).loc Cert.KernelIdeal.main_arg0) (ix2 n b))
      ∧ BitVec.toInt (m ((c : Thread Cert.KernelIdeal.nD Cert.KernelIdeal.τ).loc Cert.KernelIdeal.main_arg0) (ix2 n b)) < 16384 :=
  range_of_fn (F := Ideal) _ _ _ _ _ _ _ _ (h c) n b

/-- Under the idealized reference's precondition every token lies in [-16384, 16384). -/
theorem tokens_inRange_reference
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (n : Fin 64) (b : Fin 128) :
    -16384 ≤ BitVec.toInt (m ((c : Thread Cert.ReferenceIdeal.nD Cert.ReferenceIdeal.τ).loc Cert.ReferenceIdeal.main_arg0) (ix2 n b))
      ∧ BitVec.toInt (m ((c : Thread Cert.ReferenceIdeal.nD Cert.ReferenceIdeal.τ).loc Cert.ReferenceIdeal.main_arg0) (ix2 n b)) < 16384 :=
  range_of_fn (F := Ideal) _ _ _ _ _ _ _ _ (h c) n b

end Cert.Lstm.TokenRange

end
-- ==== Proof.lean ====
/-
  An LSTM encoder over 64 time steps: the kernel against its reference, on the extended reals.

  Both programs compute, for each of 128 sequences, the cell and hidden state after every step of
      gates = x_n + h · Wh,   c' = σ(f) · c + σ(i) · tanh g,   h' = σ(o) · tanh c',
  where x_n is the embedding row of the step's token times the input weights plus the two biases. They differ in where
  the work happens: the reference multiplies the whole table by the input weights first and then takes the rows the
  tokens name, one grid point per time step; the kernel takes the rows first and multiplies only those, eight time
  steps per grid point, and spells the logistic function through tanh. Taking a row commutes with the product (entry
  (r, q) of table · Wi is the sum over k of table[r, k] · Wi[k, q]), adding the two biases one after the other or as
  their sum is the same by associativity, and 1/2 · tanh (z / 2) + 1/2 is the logistic function at every extended real;
  none of these needs the inputs finite. What IS needed is that every token names a row of the table (after the wrap
  of a negative token both programs perform): outside that range the reference's take yields its fill value and the
  kernel's gather a clamped row. Under it both programs end with the same two arrays: `Cert.Lstm.cyOf` and
  `Cert.Lstm.hyOf` of the eight arguments.

  The three frames are the generated frame certificates; the ideal pass rewrote nothing, so `preserves` is trivial.
-/
import proofs.«167809_g2000106098220206_pallasbulk_530_31_alg».proof.Defs
import proofs.«167809_g2000106098220206_pallasbulk_530_31_alg».proof.Proof.Gen.Kernel
import proofs.«167809_g2000106098220206_pallasbulk_530_31_alg».proof.Proof.Gen.Kernel.Skeleton
import proofs.«167809_g2000106098220206_pallasbulk_530_31_alg».proof.Proof.Gen.Kernel.Launch
import proofs.«167809_g2000106098220206_pallasbulk_530_31_alg».proof.Proof.Gen.Kernel.Points
import proofs.«167809_g2000106098220206_pallasbulk_530_31_alg».proof.Proof.Gen.Kernel.Frame
import proofs.«167809_g2000106098220206_pallasbulk_530_31_alg».proof.Proof.Gen.KernelIdeal
import proofs.«167809_g2000106098220206_pallasbulk_530_31_alg».proof.Proof.Gen.KernelIdeal.Skeleton
import proofs.«167809_g2000106098220206_pallasbulk_530_31_alg».proof.Proof.Gen.KernelIdeal.Launch
import proofs.«167809_g2000106098220206_pallasbulk_530_31_alg».proof.Proof.Gen.KernelIdeal.Points
import proofs.«167809_g2000106098220206_pallasbulk_530_31_alg».proof.Proof.Gen.KernelIdeal.Frame
import proofs.«167809_g2000106098220206_pallasbulk_530_31_alg».proof.Proof.Gen.ReferenceIdeal
import proofs.«167809_g2000106098220206_pallasbulk_530_31_alg».proof.Proof.Gen.ReferenceIdeal.Skeleton
import proofs.«167809_g2000106098220206_pallasbulk_530_31_alg».proof.Proof.Gen.ReferenceIdeal.Launch
import proofs.«167809_g2000106098220206_pallasbulk_530_31_alg».proof.Proof.Gen.ReferenceIdeal.Points
import proofs.«167809_g2000106098220206_pallasbulk_530_31_alg».proof.Proof.Gen.ReferenceIdeal.Frame
import proofs.«167809_g2000106098220206_pallasbulk_530_31_alg».proof.Proof.Gen.Pre_finite_inputs
import proofs.«167809_g2000106098220206_pallasbulk_530_31_alg».proof.Proof.KernelFinal
import proofs.«167809_g2000106098220206_pallasbulk_530_31_alg».proof.Proof.RefFinal
import proofs.«167809_g2000106098220206_pallasbulk_530_31_alg».proof.Proof.TokenRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

theorem preserves : Cert.preserves_Kernel_KernelIdeal := trivial

/-- From memories that agree on the eight arguments, with every token naming a row of the table, both idealized programs
    end with the encoder's two results of those arguments. -/
theorem algebraic : Cert.algebraic_KernelIdeal_ReferenceIdeal := by
  intro m ρ m' ρ' hpre hagree
  refine ⟨_, _, Cert.KernelIdeal.KValue.run m ρ, ?_⟩
  have hr : ∀ (c : Dev Cert.ReferenceIdeal.nD) (n : Fin 64) (b : Fin 128),
      -16384 ≤ BitVec.toInt (m' ((c : Thread Cert.ReferenceIdeal.nD Cert.ReferenceIdeal.τ).loc Cert.ReferenceIdeal.main_arg0) (ValueIdx.ix2 n b))
      ∧ BitVec.toInt (m' ((c : Thread Cert.ReferenceIdeal.nD Cert.ReferenceIdeal.τ).loc Cert.ReferenceIdeal.main_arg0) (ValueIdx.ix2 n b)) < 16384 := by
    intro c n b
    rw [(hagree c).1]
    exact Cert.Lstm.TokenRange.tokens_inRange_kernel m hpre c n b
  refine (θ_run Cert.ReferenceIdeal.defs _ _).mono (fun r h c => ?_) (Cert.ReferenceIdeal.RefValue.run_out m' ρ' hr)
  obtain ⟨h7, h8, hk⟩ := h c
  obtain ⟨a0, a1, a2, a3, a4, a5, a6, a7⟩ := hagree c
  refine ⟨?_, ?_, hk⟩
  · rw [h7, a0, a1, a2, a3, a4, a5, a6, a7]
  · rw [h8, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
